-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x32 : Shape := ⟨2, ![128, 32]⟩
abbrev S_ : Shape := ⟨0, ![]⟩
abbrev S4096 : Shape := ⟨1, ![4096]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x32 : S_.BroadcastsInDim S128x32 (![] : Fin 0 → Fin S128x32.rank)
  reducesTo_S128x32_S_d0_1 : S128x32.ReducesTo [0, 1] S_
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  reducesTo_S4096x4096_S4096_d0 : S4096x4096.ReducesTo [0] S4096

variable [Facts]

def fn_part2 {F : FTy → Type} [FloatOps F] (main_arg2 : FVec F S4096x4096 .f32) (main_arg4 : FVec F S4096x4096 .f32) (main_v28 : IVec S_ 1) (main_v31 : FVec F S4096 .f32) (main_v32 : FVec F S4096 .f32) : IVec S_ 1 :=
  let main_v33 : FVec F S4096 .f32 := addf main_v31 main_v32
  let main_cst_13 : FVec F S_ .f32 := constant S_ .f32 0x00000000#32
  let main_v34 : FVec F S4096 .f32 := broadcastInDim S4096 ![] bcast_S_S4096 main_cst_13
  let main_v35 : IVec S4096 1 := cmpf .ogt main_v33 main_v34
  let main_c_14 : IVec S_ 1 := constantI S_ 1 1#1
  let main_v36 : IVec S_ 1 := (fun x v => Host.reduce IntOp.andi x v reducesTo_S4096_S_d0 h_S_) main_v35 main_c_14
  let main_v37 : IVec S_ 1 := andi main_v28 main_v36
  let main_cst_15 : FVec F S_ .f32 := constant S_ .f32 0x00000000#32
  let main_v38 : FVec F S4096 .f32 := (fun x v => Host.reduceAdd x v reducesTo_S4096x4096_S4096_d0 h_S_) main_arg2 main_cst_15
  let main_cst_16 : FVec F S_ .f32 := constant S_ .f32 0x00000000#32
  let main_v39 : FVec F S4096 .f32 := (fun x v => Host.reduceAdd x v reducesTo_S4096x4096_S4096_d0 h_S_) main_arg4 main_cst_16
  let main_v40 : FVec F S4096 .f32 := addf main_v38 main_v39
  let main_cst_17 : FVec F S_ .f32 := constant S_ .f32 0x3F800000#32
  let main_v41 : FVec F S4096 .f32 := broadcastInDim S4096 ![] bcast_S_S4096 main_cst_17
  let main_v42 : FVec F S4096 .f32 := addf main_v40 main_v41
  let main_cst_18 : FVec F S_ .f32 := constant S_ .f32 0x00000000#32
  let main_v43 : FVec F S4096 .f32 := broadcastInDim S4096 ![] bcast_S_S4096 main_cst_18
  let main_v44 : IVec S4096 1 := cmpf .ogt main_v42 main_v43
  let main_c_19 : IVec S_ 1 := constantI S_ 1 1#1
  let main_v45 : IVec S_ 1 := (fun x v => Host.reduce IntOp.andi x v reducesTo_S4096_S_d0 h_S_) main_v44 main_c_19
  let main_v46 : IVec S_ 1 := andi main_v37 main_v45
  main_v46

def fn_part1 {F : FTy → Type} [FloatOps F] (main_arg2 : FVec F S4096x4096 .f32) (main_arg3 : FVec F S4096x4096 .f32) (main_arg4 : FVec F S4096x4096 .f32) (main_arg5 : FVec F S128x32 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S128x32 .f32 := Host.absf main_arg5
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_cst_10 : FVec F S_ .f32 := constant S_ .f32 0x00000000#32
  let main_v29 : FVec F S4096 .f32 := (fun x v => Host.reduceAdd x v reducesTo_S4096x4096_S4096_d1 h_S_) main_arg2 main_cst_10
  let main_cst_11 : FVec F S_ .f32 := constant S_ .f32 0x00000000#32
  let main_v30 : FVec F S4096 .f32 := (fun x v => Host.reduceAdd x v reducesTo_S4096x4096_S4096_d1 h_S_) main_arg3 main_cst_11
  let main_v31 : FVec F S4096 .f32 := addf main_v29 main_v30
  let main_cst_12 : FVec F S_ .f32 := constant S_ .f32 0x3F800000#32
  let main_v32 : FVec F S4096 .f32 := broadcastInDim S4096 ![] bcast_S_S4096 main_cst_12
  fn_part2 (F := F) main_arg2 main_arg4 main_v28 main_v31 main_v32

def fn {F : FTy → Type} [FloatOps F] (main_arg0 : FVec F S4096x128 .f32) (main_arg1 : FVec F S4096x128 .f32) (main_arg2 : FVec F S4096x4096 .f32) (main_arg3 : FVec F S4096x4096 .f32) (main_arg4 : FVec F S4096x4096 .f32) (main_arg5 : FVec F S128x32 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg2 main_arg3 main_arg4 main_arg5 main_v13 main_v16
-- ==== Kernel.lean ====
abbrev S4096x128 : Shape := ⟨2, ![4096, 128]⟩
abbrev S4096x4096 : Shape := ⟨2, ![4096, 4096]⟩
abbrev S128x32 : Shape := ⟨2, ![128, 32]⟩
abbrev S4096x1 : Shape := ⟨2, ![4096, 1]⟩
abbrev S1x4096 : Shape := ⟨2, ![1, 4096]⟩
abbrev S4096x32 : Shape := ⟨2, ![4096, 32]⟩
abbrev S512x4096 : Shape := ⟨2, ![512, 4096]⟩
abbrev S512x128 : Shape := ⟨2, ![512, 128]⟩
abbrev S512x1 : Shape := ⟨2, ![512, 1]⟩
abbrev S512x32 : Shape := ⟨2, ![512, 32]⟩
abbrev S512 : Shape := ⟨1, ![512]⟩
abbrev S4096 : Shape := ⟨1, ![4096]⟩

abbrev nBuf : Space → Nat
  | .hbm => 14
  | .vmem => 36
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S128x32, .f32⟩
  | .hbm, ⟨6, _⟩ => ⟨S4096x1, .f32⟩
  | .hbm, ⟨7, _⟩ => ⟨S1x4096, .f32⟩
  | .hbm, ⟨8, _⟩ => ⟨S4096x32, .f32⟩
  | .hbm, ⟨9, _⟩ => ⟨S4096x32, .f32⟩
  | .hbm, ⟨10, _⟩ => ⟨S4096x1, .f32⟩
  | .hbm, ⟨11, _⟩ => ⟨S4096x32, .f32⟩
  | .hbm, ⟨12, _⟩ => ⟨S4096x32, .f32⟩
  | .hbm, ⟨13, _⟩ => ⟨S4096x32, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x4096, .f32⟩
  | .local _ .vmem, ⟨5, _⟩ => ⟨S512x4096, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S128x32, .f32⟩
  | .local _ .vmem, ⟨11, _⟩ => ⟨S512x1, .f32⟩
  | .local _ .vmem, ⟨12, _⟩ => ⟨S512x1, .f32⟩
  | .local _ .vmem, ⟨13, _⟩ => ⟨S1x4096, .f32⟩
  | .local _ .vmem, ⟨14, _⟩ => ⟨S512x32, .f32⟩
  | .local _ .vmem, ⟨15, _⟩ => ⟨S512x32, .f32⟩
  | .local _ .vmem, ⟨16, _⟩ => ⟨S512x32, .f32⟩
  | .local _ .vmem, ⟨17, _⟩ => ⟨S512x32, .f32⟩
  | .local _ .vmem, ⟨18, _⟩ => ⟨S512x4096, .f32⟩
  | .local _ .vmem, ⟨19, _⟩ => ⟨S512x4096, .f32⟩
  | .local _ .vmem, ⟨20, _⟩ => ⟨S512x4096, .f32⟩
  | .local _ .vmem, ⟨21, _⟩ => ⟨S512x4096, .f32⟩
  | .local _ .vmem, ⟨22, _⟩ => ⟨S4096x32, .f32⟩
  | .local _ .vmem, ⟨23, _⟩ => ⟨S4096x32, .f32⟩
  | .local _ .vmem, ⟨24, _⟩ => ⟨S4096x1, .f32⟩
  | .local _ .vmem, ⟨25, _⟩ => ⟨S4096x1, .f32⟩
  | .local _ .vmem, ⟨26, _⟩ => ⟨S512x32, .f32⟩
  | .local _ .vmem, ⟨27, _⟩ => ⟨S512x32, .f32⟩
  | .local _ .vmem, ⟨28, _⟩ => ⟨S4096x32, .f32⟩
  | .local _ .vmem, ⟨29, _⟩ => ⟨S512x4096, .f32⟩
  | .local _ .vmem, ⟨30, _⟩ => ⟨S512x4096, .f32⟩
  | .local _ .vmem, ⟨31, _⟩ => ⟨S4096x32, .f32⟩
  | .local _ .vmem, ⟨32, _⟩ => ⟨S4096x1, .f32⟩
  | .local _ .vmem, ⟨33, _⟩ => ⟨S4096x32, .f32⟩
  | .local _ .vmem, ⟨34, _⟩ => ⟨S512x32, .f32⟩
  | .local _ .vmem, ⟨35, _⟩ => ⟨S512x32, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg4_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem6_1 : DmaSem sig := 27
abbrev cc1_sem7_0 : DmaSem sig := 28
abbrev cc2_sem0_0 : DmaSem sig := 29
abbrev cc2_sem0_1 : DmaSem sig := 30
abbrev cc2_sem1_0 : DmaSem sig := 31
abbrev cc2_sem2_0 : DmaSem sig := 32
abbrev cc2_sem3_0 : DmaSem sig := 33
abbrev cc2_sem4_0 : DmaSem sig := 34
abbrev cc2_sem4_1 : DmaSem sig := 35

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_10 : BitVec 32 := 0#32
  let v16 : BitVec 1 := Scalar.cmpi .ne v15 c0_i32_10
  v16

def k0_cond2 (i : grid0.Coords) : BitVec 1 :=
  let arg0 : BitVec 32 := BitVec.ofNat 32 (i 0).val
  let c0_i32_11 : BitVec 32 := 0#32
  let v17 : BitVec 1 := Scalar.cmpi .sgt arg0 c0_i32_11
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def k1_off1 (i : grid1.Coords) : Fin 2 → Nat :=
  let arg0 : BitVec 32 := BitVec.ofNat 32 (i 0).val
  let c512_i32 : BitVec 32 := 512#32
  let v23 : BitVec 32 := Scalar.muli arg0 c512_i32
  let v24 : Index := Scalar.indexCast v23
  let c0_14 : Index := 0#32
  ![v24.toNat, 0]
def k1_off2 (i : grid1.Coords) : Fin 2 → Nat :=
  let arg0 : BitVec 32 := BitVec.ofNat 32 (i 0).val
  let c512_i32_15 : BitVec 32 := 512#32
  let v27 : BitVec 32 := Scalar.muli arg0 c512_i32_15
  let v28 : Index := Scalar.indexCast v27
  let c0_16 : Index := 0#32
  ![v28.toNat, 0]
def k1_cond1 (i : grid1.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_24 : BitVec 32 := 0#32
  let v46 : BitVec 1 := Scalar.cmpi .ne v45 c0_i32_24
  v46

def k1_cond2 (i : grid1.Coords) : BitVec 1 :=
  let arg0 : BitVec 32 := BitVec.ofNat 32 (i 0).val
  let c0_i32_25 : BitVec 32 := 0#32
  let v47 : BitVec 1 := Scalar.cmpi .sgt arg0 c0_i32_25
  let v48 : BitVec 32 := Scalar.extui v47
  let c0_i32_26 : BitVec 32 := 0#32
  let v49 : BitVec 1 := Scalar.cmpi .ne v48 c0_i32_26
  v49

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S4096x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![8], ![false]⟩

def k2_off1 (i : grid2.Coords) : Fin 2 → Nat :=
  let arg0 : BitVec 32 := BitVec.ofNat 32 (i 0).val
  let c512_i32 : BitVec 32 := 512#32
  let v11 : BitVec 32 := Scalar.muli arg0 c512_i32
  let v12 : Index := Scalar.indexCast v11
  let c0_6 : Index := 0#32
  ![v12.toNat, 0]
def k2_off2 (i : grid2.Coords) : Fin 2 → Nat :=
  let arg0 : BitVec 32 := BitVec.ofNat 32 (i 0).val
  let c512_i32_9 : BitVec 32 := 512#32
  let v19 : BitVec 32 := Scalar.muli arg0 c512_i32_9
  let v20 : Index := Scalar.indexCast v19
  let c0_10 : Index := 0#32
  ![v20.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4096x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  reduces_S512x4096_S4096 : S512x4096.Reduces [0] S4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x128_S512x128_0_0 : ∀ a, (![0, 0] : Fin 2 → Nat) a + S512x128.size a ≤ S512x128.size a
  h_S512x128 : 0 < S512x128.numel
  inb_S128x32_S128x32_0_0 : ∀ a, (![0, 0] : Fin 2 → Nat) a + S128x32.size a ≤ S128x32.size a
  h_S128x32 : 0 < S128x32.numel
  inb_S512x32_S512x32_0_0 : ∀ a, (![0, 0] : Fin 2 → Nat) a + S512x32.size a ≤ S512x32.size a
  h_S512x32 : 0 < S512x32.numel
  shapeCasts_S1x4096_S4096x1 : S1x4096.ShapeCasts S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  broadcasts_S4096x1_S4096x32 : S4096x1.Broadcasts S4096x32
  shapeCasts_S512x32_S512x32 : S512x32.ShapeCasts S512x32
  shapeCasts_S512x1_S512x1 : S512x1.ShapeCasts S512x1
  broadcasts_S512x1_S512x32 : S512x1.Broadcasts S512x32
  dot_S512x128_S128x32_S512x32_1_0_0_1_n_n_wf : DotDims.WF S512x128 S128x32 S512x32 [1] [0] [0] [1] [] []
  dot_S512x4096_S4096x32_S512x32_1_0_0_1_n_n_wf : DotDims.WF S512x4096 S4096x32 S512x32 [1] [0] [0] [1] [] []
  dot_S512x4096_S512x32_S4096x32_0_0_1_1_n_n_wf : DotDims.WF S512x4096 S512x32 S4096x32 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .f32 = 32 ∨ (Rect.block (s := S4096x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .f32 = 32 ∨ (Rect.block (s := S128x32) S128x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x32.size a ≤ S4096x32.size a
  hwx0_8 : ∀ i : grid0.Coords, EltTy.bits .f32 = 32 ∨ (Rect.block (s := S4096x32) S512x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x32.size a ≤ S4096x32.size a
  hwx0_9 : ∀ i : grid0.Coords, EltTy.bits .f32 = 32 ∨ (Rect.block (s := S4096x32) S512x32.size (cc0_transform_9 i) (hinb0_9 i)).WholeWords (EltTy.packing .f32)
  hrank1 : 0 < grid1.rank
  k1_off1_inb : ∀ i : grid1.Coords, ∀ a, (k1_off1 i) a + S512x32.size a ≤ S4096x32.size a
  k1_off2_inb : ∀ i : grid1.Coords, ∀ a, (k1_off2 i) a + S512x1.size a ≤ S4096x1.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .f32 = 32 ∨ (Rect.block (s := S4096x4096) S512x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x32.size a ≤ S4096x32.size a
  hwx1_2 : ∀ i : grid1.Coords, EltTy.bits .f32 = 32 ∨ (Rect.block (s := S4096x32) S4096x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x32.size a ≤ S4096x32.size a
  hwx1_3 : ∀ i : grid1.Coords, EltTy.bits .f32 = 32 ∨ (Rect.block (s := S4096x32) S4096x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x1.size a ≤ S4096x1.size a
  hwx1_4 : ∀ i : grid1.Coords, EltTy.bits .f32 = 32 ∨ (Rect.block (s := S4096x1) S4096x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096x1.size a ≤ S4096x1.size a
  hwx1_5 : ∀ i : grid1.Coords, EltTy.bits .f32 = 32 ∨ (Rect.block (s := S4096x1) S4096x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x32.size a ≤ S4096x32.size a
  hwx1_6 : ∀ i : grid1.Coords, EltTy.bits .f32 = 32 ∨ (Rect.block (s := S4096x32) S512x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4096x32.size a ≤ S4096x32.size a
  hwx1_7 : ∀ i : grid1.Coords, EltTy.bits .f32 = 32 ∨ (Rect.block (s := S4096x32) S4096x32.size (cc1_transform_7 i) (hinb1_7 i)).WholeWords (EltTy.packing .f32)
  hrank2 : 0 < grid2.rank
  k2_off1_inb : ∀ i : grid2.Coords, ∀ a, (k2_off1 i) a + S512x32.size a ≤ S4096x32.size a
  k2_off2_inb : ∀ i : grid2.Coords, ∀ a, (k2_off2 i) a + S512x1.size a ≤ S4096x1.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x32.size a ≤ S4096x32.size a
  hwx2_1 : ∀ i : grid2.Coords, EltTy.bits .f32 = 32 ∨ (Rect.block (s := S4096x32) S4096x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x1.size a ≤ S4096x1.size a
  hwx2_2 : ∀ i : grid2.Coords, EltTy.bits .f32 = 32 ∨ (Rect.block (s := S4096x1) S4096x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x32.size a ≤ S4096x32.size a
  hwx2_3 : ∀ i : grid2.Coords, EltTy.bits .f32 = 32 ∨ (Rect.block (s := S4096x32) S4096x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x32.size a ≤ S4096x32.size a
  hwx2_4 : ∀ i : grid2.Coords, EltTy.bits .f32 = 32 ∨ (Rect.block (s := S4096x32) S512x32.size (cc2_transform_4 i) (hinb2_4 i)).WholeWords (EltTy.packing .f32)

variable [Facts₀]

def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf
def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf
def dot_S512x4096_S512x32_S4096x32_0_0_1_1_n_n : DotDims S512x4096 S512x32 S4096x32 where
  lhsContracting := [0]
  rhsContracting := [0]
  lhsNonContracting := [1]
  rhsNonContracting := [1]
  lhsBatch := []
  rhsBatch := []
  wf := dot_S512x4096_S512x32_S4096x32_0_0_1_1_n_n_wf

abbrev win0_0 : Pipeline.Window sig grid0 :=
  Pipeline.Window.ofSpec (Memref.whole main_arg2) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x4096.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S512x32.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_3) S512x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun i => !(k0_cond1 i == 1#1) && !(k0_cond2 i == 1#1) | 8 => fun _ => false | 9 => fun _ => false | ⟨_ + 10, h⟩ => absurd h (Nat.not_lt.2 (Nat.le_add_left _ _))

abbrev win1_0 : Pipeline.Window sig grid1 :=
  Pipeline.Window.ofSpec (Memref.whole main_arg2) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S4096x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_3) S4096x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0_0) S4096x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S4096x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2_0) S512x32.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v2_1) S4096x32.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond1 i == 1#1) && !(k1_cond2 i == 1#1) | ⟨_ + 8, h⟩ => absurd h (Nat.not_lt.2 (Nat.le_add_left _ _))

abbrev win2_0 : Pipeline.Window sig grid2 :=
  Pipeline.Window.ofSpec (Memref.whole main_arg4) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_3) S4096x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S4096x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2_1) S4096x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S512x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x32 : Shape := ⟨2, ![128, 32]⟩
abbrev S4096x32 : Shape := ⟨2, ![4096, 32]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 64
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S128x32, .f32⟩
  | .hbm, ⟨6, _⟩ => ⟨S4096x32, .f32⟩
  | .hbm, ⟨7, _⟩ => ⟨S4096x32, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096, .f32⟩
  | .hbm, ⟨21, _⟩ => ⟨S1x4096, .f32⟩
  | .hbm, ⟨22, _⟩ => ⟨S_, .f32⟩
  | .hbm, ⟨23, _⟩ => ⟨S4096, .f32⟩
  | .hbm, ⟨24, _⟩ => ⟨S1x4096, .f32⟩
  | .hbm, ⟨25, _⟩ => ⟨S1x4096, .f32⟩
  | .hbm, ⟨26, _⟩ => ⟨S_, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S1x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x1, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S_, .f32⟩
  | .hbm, ⟨51, _⟩ => ⟨S4096x32, .f32⟩
  | .hbm, ⟨52, _⟩ => ⟨S4096x32, .f32⟩
  | .hbm, ⟨53, _⟩ => ⟨S4096x1, .f32⟩
  | .hbm, ⟨54, _⟩ => ⟨S4096x32, .f32⟩
  | .hbm, ⟨55, _⟩ => ⟨S4096x32, .f32⟩
  | .hbm, ⟨56, _⟩ => ⟨S4096x32, .f32⟩
  | .hbm, ⟨57, _⟩ => ⟨S4096x32, .f32⟩
  | .hbm, ⟨58, _⟩ => ⟨S4096x4096, .f32⟩
  | .hbm, ⟨59, _⟩ => ⟨S4096x32, .f32⟩
  | .hbm, ⟨60, _⟩ => ⟨S4096x32, .f32⟩
  | .hbm, ⟨61, _⟩ => ⟨S_, .f32⟩
  | .hbm, ⟨62, _⟩ => ⟨S4096x32, .f32⟩
  | .hbm, ⟨63, _⟩ => ⟨S4096x32, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_cst : Ref sig .tc := ⟨.hbm, 50, rfl⟩
abbrev main_call0_v0 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call1_cst : Ref sig .tc := ⟨.hbm, 61, rfl⟩
abbrev main_call1_v0 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  reducesTo_S4096x4096_S4096_d0 : S4096x4096.ReducesTo [0] S4096
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S4096x1_S4096x4096_0_1 : S4096x1.BroadcastsInDim S4096x4096 (![0, 1] : Fin 2 → Fin S4096x4096.rank)
  transposes_S4096x1_S1x4096_1_0 : S4096x1.Transposes [1, 0] S1x4096
  bcast_S1x4096_S4096x4096_0_1 : S1x4096.BroadcastsInDim S4096x4096 (![0, 1] : Fin 2 → Fin S4096x4096.rank)
  transposes_S1x4096_S4096x1_1_0 : S1x4096.Transposes [1, 0] S4096x1
  bcast_S4096x1_S4096x32_0_1 : S4096x1.BroadcastsInDim S4096x32 (![0, 1] : Fin 2 → Fin S4096x32.rank)
  bcast_S_S4096x32 : S_.BroadcastsInDim S4096x32 (![] : Fin 0 → Fin S4096x32.rank)
  transposes_S4096x4096_S4096x4096_1_0 : S4096x4096.Transposes [1, 0] S4096x4096
  dot_S4096x128_S128x32_S4096x32_1_0_0_1_n_n_wf : DotDims.WF S4096x128 S128x32 S4096x32 [1] [0] [0] [1] [] []
  dot_S4096x4096_S4096x32_S4096x32_1_0_0_1_n_n_wf : DotDims.WF S4096x4096 S4096x32 S4096x32 [1] [0] [0] [1] [] []

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S4096x4096_S4096x32_S4096x32_1_0_0_1_n_n : DotDims S4096x4096 S4096x32 S4096x32 where
  lhsContracting := [1]
  rhsContracting := [0]
  lhsNonContracting := [0]
  rhsNonContracting := [1]
  lhsBatch := []
  rhsBatch := []
  wf := dot_S4096x4096_S4096x32_S4096x32_1_0_0_1_n_n_wf

class Facts : Prop extends Facts₀ where

variable [Facts]
-- ==== Proof.R0Conds.lean ====
import proofs.«139708_g36129264894619_cont_8to1_b_1456_17_alg».proof.Proof.Gen.KernelIdeal.Launch
import proofs.«139708_g36129264894619_cont_8to1_b_1456_17_alg».proof.Proof.Gen.KernelIdeal.Skeleton
import proofs.«139708_g36129264894619_cont_8to1_b_1456_17_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree-and-projection region: which branch a grid point takes

The first grid point overwrites the column-sum accumulator; every later point adds into it. -/

/-- The first conditional of the body (overwrite the accumulator) is taken at the first point only. -/
theorem hcond0_1 : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second conditional (add into the accumulator) is taken at every point but the first. -/
theorem hcond0_2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

end Cert.KernelIdeal.Hand

end
-- ==== Proof.R0RunA.lean ====
import proofs.«139708_g36129264894619_cont_8to1_b_1456_17_alg».proof.Proof.R0Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree-and-projection body at the FIRST grid point

The body loads the three adjacency row blocks, the two feature row blocks and the weight; it stores the row-degree
block, OVERWRITES the column-degree accumulator with this block's column sums, and stores the two projected
blocks. What each output buffer ends with is found by running the body. -/

set_option maxHeartbeats 4000000 in
/-- What the body's stores leave in each output's staging buffer, as pieces, at a point where the overwrite branch
    is taken and the accumulate branch is not — with the proof that the body runs from whole staging buffers (the
    inputs at their contents, the outputs at anything) to the inputs unchanged and the outputs with those pieces written. -/
noncomputable def kernelRun0_A (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : k0_cond1 i = 1#1) (hc2 : ¬ k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) :
    Σ' (L6 : List (View.Piece (Elt F) S512x1 .f32)) (L7 : List (View.Piece (Elt F) S1x4096 .f32)) (L8 : List (View.Piece (Elt F) S512x32 .f32)), { L9 : List (View.Piece (Elt F) S512x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)) -∗ K ⟨⟩))
          ⊢ wp frame (wpE (defs₀ (F := F)) Variants.none c none) E (cc0__deg_proj_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__deg_proj_kernel_eq_skeleton]; unfold cc0__deg_proj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; iexact H9

end Cert.KernelIdeal.Hand

end
-- ==== Proof.R0RunB.lean ====
import proofs.«139708_g36129264894619_cont_8to1_b_1456_17_alg».proof.Proof.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree-and-projection body at a LATER grid point

As at the first point, except that the column-degree accumulator is read and this block's column sums are ADDED to
what the point before left in it. -/

set_option maxHeartbeats 4000000 in
/-- What the body's stores leave in each output's staging buffer, as pieces, at a point where the accumulate
    branch is taken and the overwrite branch is not: the accumulator's buffer enters at its running contents. -/
noncomputable def kernelRun0_B (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : ¬ k0_cond1 i = 1#1) (hc2 : k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) (xo7 : Vec F S1x4096 .f32) :
    Σ' (L6 : List (View.Piece (Elt F) S512x1 .f32)) (L7 : List (View.Piece (Elt F) S1x4096 .f32)) (L8 : List (View.Piece (Elt F) S512x32 .f32)), { L9 : List (View.Piece (Elt F) S512x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xo7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)) -∗ K ⟨⟩))
          ⊢ wp frame (wpE (defs₀ (F := F)) Variants.none c none) E (cc0__deg_proj_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__deg_proj_kernel_eq_skeleton]; unfold cc0__deg_proj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; iexact H9

end Cert.KernelIdeal.Hand

end
-- ==== Proof.R0Frame.lean ====
import proofs.«139708_g36129264894619_cont_8to1_b_1456_17_alg».proof.Proof.R0RunB
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree-and-projection region: what its buffers hold point by point, and its body obligation

The grid has eight points, one per block of 512 rows. At every point the body stores the row-degree block and the two
projected blocks whole; the column-degree accumulator is overwritten at the first point and added to afterwards, and is
written back once, after the last point. -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x32 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x32 .f32 := win0_9.stage (cfg0.slots t 9)
abbrev hs0_9 (t : Fin cfg0.N) : (ms0_9 t).IsWhole := hstage0_9 ((cfg0.slots t 9).cast nbuf0_9)

/-- One staging buffer of each output window, through which its contents are stated. -/
abbrev VO0_6 : View sig .tc .vmem S512x1 .f32 := (Memref.whole cc0_stg6_0 : Memref sig .tc .vmem S512x1 .f32).view
abbrev VO0_7 : View sig .tc .vmem S1x4096 .f32 := (Memref.whole cc0_stg7_0 : Memref sig .tc .vmem S1x4096 .f32).view
abbrev VO0_8 : View sig .tc .vmem S512x32 .f32 := (Memref.whole cc0_stg8_0 : Memref sig .tc .vmem S512x32 .f32).view
abbrev VO0_9 : View sig .tc .vmem S512x32 .f32 := (Memref.whole cc0_stg9_0 : Memref sig .tc .vmem S512x32 .f32).view

/-- The accumulator's window is live at every grid point: one of the two branches that store it is always taken. -/
theorem live0_7 : ∀ i : grid0.Coords, cfg0.idle 7 i = false := by decide +kernel

/-- No window is idle at any grid point: the inputs never are, three outputs are stored at every point, and the accumulator
    is stored by one of its two branches at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel

/-! ## The pieces each branch writes cover each output buffer -/

theorem cover0_A_6 (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : k0_cond1 i = 1#1) (hc2 : ¬ k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) (y : S512x1.Idx) :
    ∃ pc ∈ (kernelRun0_A c i arg1 harg1 arg2 harg2 arg3 harg3 arg4 harg4 arg5 harg5 arg6 harg6 arg7 harg7 arg8 harg8 arg9 harg9 arg10 harg10 hc1 hc2 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 hc1 hc2 x0 x1 x2 x3 x4 x5).1 S512x1.size (by sl_kernel_rfl) y

theorem cover0_B_6 (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : ¬ k0_cond1 i = 1#1) (hc2 : k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) (xo7 : Vec F S1x4096 .f32) (y : S512x1.Idx) :
    ∃ pc ∈ (kernelRun0_B c i arg1 harg1 arg2 harg2 arg3 harg3 arg4 harg4 arg5 harg5 arg6 harg6 arg7 harg7 arg8 harg8 arg9 harg9 arg10 harg10 hc1 hc2 x0 x1 x2 x3 x4 x5 xo7).1, y ∈ pc.1.set :=
  View.cover_of_tiledL (kernelRun0_B c i arg1 harg1 arg2 harg2 arg3 harg3 arg4 harg4 arg5 harg5 arg6 harg6 arg7 harg7 arg8 harg8 arg9 harg9 arg10 harg10 hc1 hc2 x0 x1 x2 x3 x4 x5 xo7).1 S512x1.size (by sl_kernel_rfl) y

theorem cover0_A_7 (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : k0_cond1 i = 1#1) (hc2 : ¬ k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) (y : S1x4096.Idx) :
    ∃ pc ∈ (kernelRun0_A c i arg1 harg1 arg2 harg2 arg3 harg3 arg4 harg4 arg5 harg5 arg6 harg6 arg7 harg7 arg8 harg8 arg9 harg9 arg10 harg10 hc1 hc2 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 hc1 hc2 x0 x1 x2 x3 x4 x5).2.1 S1x4096.size (by sl_kernel_rfl) y

theorem cover0_B_7 (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : ¬ k0_cond1 i = 1#1) (hc2 : k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) (xo7 : Vec F S1x4096 .f32) (y : S1x4096.Idx) :
    ∃ pc ∈ (kernelRun0_B c i arg1 harg1 arg2 harg2 arg3 harg3 arg4 harg4 arg5 harg5 arg6 harg6 arg7 harg7 arg8 harg8 arg9 harg9 arg10 harg10 hc1 hc2 x0 x1 x2 x3 x4 x5 xo7).2.1, y ∈ pc.1.set :=
  View.cover_of_tiledL (kernelRun0_B c i arg1 harg1 arg2 harg2 arg3 harg3 arg4 harg4 arg5 harg5 arg6 harg6 arg7 harg7 arg8 harg8 arg9 harg9 arg10 harg10 hc1 hc2 x0 x1 x2 x3 x4 x5 xo7).2.1 S1x4096.size (by sl_kernel_rfl) y

theorem cover0_A_8 (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : k0_cond1 i = 1#1) (hc2 : ¬ k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) (y : S512x32.Idx) :
    ∃ pc ∈ (kernelRun0_A c i arg1 harg1 arg2 harg2 arg3 harg3 arg4 harg4 arg5 harg5 arg6 harg6 arg7 harg7 arg8 harg8 arg9 harg9 arg10 harg10 hc1 hc2 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc1 hc2 x0 x1 x2 x3 x4 x5).2.2.1 S512x32.size (by sl_kernel_rfl) y

theorem cover0_B_8 (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : ¬ k0_cond1 i = 1#1) (hc2 : k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) (xo7 : Vec F S1x4096 .f32) (y : S512x32.Idx) :
    ∃ pc ∈ (kernelRun0_B c i arg1 harg1 arg2 harg2 arg3 harg3 arg4 harg4 arg5 harg5 arg6 harg6 arg7 harg7 arg8 harg8 arg9 harg9 arg10 harg10 hc1 hc2 x0 x1 x2 x3 x4 x5 xo7).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc1 hc2 x0 x1 x2 x3 x4 x5 xo7).2.2.1 S512x32.size (by sl_kernel_rfl) y

theorem cover0_A_9 (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : k0_cond1 i = 1#1) (hc2 : ¬ k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) (y : S512x32.Idx) :
    ∃ pc ∈ (kernelRun0_A c i arg1 harg1 arg2 harg2 arg3 harg3 arg4 harg4 arg5 harg5 arg6 harg6 arg7 harg7 arg8 harg8 arg9 harg9 arg10 harg10 hc1 hc2 x0 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc1 hc2 x0 x1 x2 x3 x4 x5).2.2.2.1 S512x32.size (by sl_kernel_rfl) y

theorem cover0_B_9 (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : ¬ k0_cond1 i = 1#1) (hc2 : k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) (xo7 : Vec F S1x4096 .f32) (y : S512x32.Idx) :
    ∃ pc ∈ (kernelRun0_B c i arg1 harg1 arg2 harg2 arg3 harg3 arg4 harg4 arg5 harg5 arg6 harg6 arg7 harg7 arg8 harg8 arg9 harg9 arg10 harg10 hc1 hc2 x0 x1 x2 x3 x4 x5 xo7).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc1 hc2 x0 x1 x2 x3 x4 x5 xo7).2.2.2.1 S512x32.size (by sl_kernel_rfl) y

section Data

-- the buffers' contents when the region is entered: the parameter everything below is stated at
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's run at the first point, on that point's staging buffers and input blocks. -/
abbrev runA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_1 t).mpr h0) (fun h => ((hcond0_2 t).mp h) h0) (iblk0 V c 0 t) (iblk0 V c 1 t) (iblk0 V c 2 t) (iblk0 V c 3 t) (iblk0 V c 4 t) (iblk0 V c 5 t)

/-- The body's run at a later point, the accumulator's buffer entering at `xo7`. -/
abbrev runB (c : Dev nD) (t : Fin cfg0.N) (h0 : ¬ t.val % 8 = 0) (xo7 : Vec F S1x4096 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_1 t).mp h)) ((hcond0_2 t).mpr h0) (iblk0 V c 0 t) (iblk0 V c 1 t) (iblk0 V c 2 t) (iblk0 V c 3 t) (iblk0 V c 4 t) (iblk0 V c 5 t) xo7

/-- What the first-point run leaves in output window 6's buffer: its pieces read back. -/
def outA6 (c : Dev nD) (t : Fin cfg0.N) (h0 : t.val % 8 = 0) : Vec F S512x1 .f32 :=
  VO0_6.read (Elt F) (VO0_6.writes (Elt F) VO0_6.junk (runA V c t h0).1)
/-- What a later-point run leaves in output window 6's buffer. -/
def outB6 (c : Dev nD) (t : Fin cfg0.N) (h0 : ¬ t.val % 8 = 0) (xo7 : Vec F S1x4096 .f32) : Vec F S512x1 .f32 :=
  VO0_6.read (Elt F) (VO0_6.writes (Elt F) VO0_6.junk (runB V c t h0 xo7).1)
/-- What the first-point run leaves in output window 7's buffer: its pieces read back. -/
def outA7 (c : Dev nD) (t : Fin cfg0.N) (h0 : t.val % 8 = 0) : Vec F S1x4096 .f32 :=
  VO0_7.read (Elt F) (VO0_7.writes (Elt F) VO0_7.junk (runA V c t h0).2.1)
/-- What a later-point run leaves in output window 7's buffer. -/
def outB7 (c : Dev nD) (t : Fin cfg0.N) (h0 : ¬ t.val % 8 = 0) (xo7 : Vec F S1x4096 .f32) : Vec F S1x4096 .f32 :=
  VO0_7.read (Elt F) (VO0_7.writes (Elt F) VO0_7.junk (runB V c t h0 xo7).2.1)
/-- What the first-point run leaves in output window 8's buffer: its pieces read back. -/
def outA8 (c : Dev nD) (t : Fin cfg0.N) (h0 : t.val % 8 = 0) : Vec F S512x32 .f32 :=
  VO0_8.read (Elt F) (VO0_8.writes (Elt F) VO0_8.junk (runA V c t h0).2.2.1)
/-- What a later-point run leaves in output window 8's buffer. -/
def outB8 (c : Dev nD) (t : Fin cfg0.N) (h0 : ¬ t.val % 8 = 0) (xo7 : Vec F S1x4096 .f32) : Vec F S512x32 .f32 :=
  VO0_8.read (Elt F) (VO0_8.writes (Elt F) VO0_8.junk (runB V c t h0 xo7).2.2.1)
/-- What the first-point run leaves in output window 9's buffer: its pieces read back. -/
def outA9 (c : Dev nD) (t : Fin cfg0.N) (h0 : t.val % 8 = 0) : Vec F S512x32 .f32 :=
  VO0_9.read (Elt F) (VO0_9.writes (Elt F) VO0_9.junk (runA V c t h0).2.2.2.1)
/-- What a later-point run leaves in output window 9's buffer. -/
def outB9 (c : Dev nD) (t : Fin cfg0.N) (h0 : ¬ t.val % 8 = 0) (xo7 : Vec F S1x4096 .f32) : Vec F S512x32 .f32 :=
  VO0_9.read (Elt F) (VO0_9.writes (Elt F) VO0_9.junk (runB V c t h0 xo7).2.2.2.1)

/-- THE ACCUMULATION: the column-degree buffer after the body at position `n` — the first point's column sums, then
    each later point's added to what the point before left. -/
def acc0 (c : Dev nD) : (n : ℕ) → n < cfg0.N → Vec F S1x4096 .f32
  | 0, hn => outA7 V c ⟨0, hn⟩ (Nat.zero_mod _)
  | n + 1, hn =>
    if h0 : (n + 1) % 8 = 0 then outA7 V c ⟨n + 1, hn⟩ h0
    else outB7 V c ⟨n + 1, hn⟩ h0 (acc0 c n (Nat.lt_of_succ_lt hn))

/-- The accumulator as the point before left it (at the first point: irrelevant). -/
abbrev prev0 (c : Dev nD) (t : Fin cfg0.N) : Vec F S1x4096 .f32 :=
  acc0 V c (t.val - 1) (Nat.lt_of_le_of_lt (Nat.sub_le _ _) t.isLt)

theorem acc0_A (c : Dev nD) (t : Fin cfg0.N) (h0 : t.val % 8 = 0) : acc0 V c t.val t.isLt = outA7 V c t h0 := by
  obtain ⟨n, hn⟩ := t
  cases n with
  | zero => exact rfl
  | succ n => exact (dif_pos h0).trans rfl

theorem acc0_B (c : Dev nD) (t : Fin cfg0.N) (h0 : ¬ t.val % 8 = 0) : acc0 V c t.val t.isLt = outB7 V c t h0 (prev0 V c t) := by
  obtain ⟨n, hn⟩ := t
  cases n with
  | zero => exact (by exfalso; (try dsimp only at h0); exact absurd (Nat.zero_mod _) h0)
  | succ n => exact (dif_neg h0).trans rfl

/-- Output window 6's buffer after the body at point `t`. -/
def out6At (c : Dev nD) (t : Fin cfg0.N) : Vec F S512x1 .f32 :=
  if h0 : t.val % 8 = 0 then outA6 V c t h0 else outB6 V c t h0 (prev0 V c t)
theorem out6At_A (c : Dev nD) (t : Fin cfg0.N) (h0 : t.val % 8 = 0) : out6At V c t = outA6 V c t h0 := dif_pos h0
theorem out6At_B (c : Dev nD) (t : Fin cfg0.N) (h0 : ¬ t.val % 8 = 0) : out6At V c t = outB6 V c t h0 (prev0 V c t) := dif_neg h0
/-- Output window 8's buffer after the body at point `t`. -/
def out8At (c : Dev nD) (t : Fin cfg0.N) : Vec F S512x32 .f32 :=
  if h0 : t.val % 8 = 0 then outA8 V c t h0 else outB8 V c t h0 (prev0 V c t)
theorem out8At_A (c : Dev nD) (t : Fin cfg0.N) (h0 : t.val % 8 = 0) : out8At V c t = outA8 V c t h0 := dif_pos h0
theorem out8At_B (c : Dev nD) (t : Fin cfg0.N) (h0 : ¬ t.val % 8 = 0) : out8At V c t = outB8 V c t h0 (prev0 V c t) := dif_neg h0
/-- Output window 9's buffer after the body at point `t`. -/
def out9At (c : Dev nD) (t : Fin cfg0.N) : Vec F S512x32 .f32 :=
  if h0 : t.val % 8 = 0 then outA9 V c t h0 else outB9 V c t h0 (prev0 V c t)
theorem out9At_A (c : Dev nD) (t : Fin cfg0.N) (h0 : t.val % 8 = 0) : out9At V c t = outA9 V c t h0 := dif_pos h0
theorem out9At_B (c : Dev nD) (t : Fin cfg0.N) (h0 : ¬ t.val % 8 = 0) : out9At V c t = outB9 V c t h0 (prev0 V c t) := dif_neg h0

/-! ## The proof data -/

/-- The region's proof data on core `c`: the arrays as the region finds them; after the body at point `t` each input's
    buffer at its block, each output's at what the point's run leaves; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out6At V c t
    | ⟨7, _⟩ => acc0 V c t.val t.isLt
    | ⟨8, _⟩ => out8At V c t
    | ⟨9, _⟩ => out9At V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out6At V c t := by dsimp only [dat0]
theorem after0_7 (c : Dev nD) (t : Fin cfg0.N) : (dat0 V c).after 7 t = acc0 V c t.val t.isLt := by dsimp only [dat0]
theorem after0_8 (c : Dev nD) (t : Fin cfg0.N) : (dat0 V c).after 8 t = out8At V c t := by dsimp only [dat0]
theorem after0_9 (c : Dev nD) (t : Fin cfg0.N) : (dat0 V c).after 9 t = out9At V c t := by dsimp only [dat0]

/-- Input window 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Input window 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Input window 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
/-- Input window 3's current staging buffer holds its block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
/-- Input window 4's current staging buffer holds its block at every point, fetched there or not. -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
/-- Input window 5's current staging buffer holds its block at every point, fetched there or not. -/
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

/-- At a later point the accumulator's buffer holds what the body left at the point before: it is written back only
    after the last point. -/
theorem before0_7_B (c : Dev nD) (t : Fin cfg0.N) (h0 : ¬ t.val % 8 = 0) (d) :
    (dat0 V c).before 7 t d = prev0 V c t := by
  have hN : t.val < 8 := lt_of_lt_of_eq t.isLt (show cfg0.N = 8 from N_0)
  rw [Dat.before_out_kept _ 7 rfl t (by omega) (Bool.eq_false_iff.mpr fun h => by have := (flush0_7 _).mp h; dsimp only at this; omega)
    live0_7 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- What the body hands back: every window's buffer as the point leaves it (no window is idle, so each is at its
    contents after the body). -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

theorem leaves0_0 (c : Dev nD) (t : Fin cfg0.N) :
    (dat0 V c).leavesExact 0 t = owns (c : Thread nD τ) (ms0_0 t) fullShare ((dat0 V c).after 0 t) := by
  unfold Dat.leavesExact; rw [liveAt0_0 t]
theorem leaves0_1 (c : Dev nD) (t : Fin cfg0.N) :
    (dat0 V c).leavesExact 1 t = owns (c : Thread nD τ) (ms0_1 t) fullShare ((dat0 V c).after 1 t) := by
  unfold Dat.leavesExact; rw [liveAt0_1 t]
theorem leaves0_2 (c : Dev nD) (t : Fin cfg0.N) :
    (dat0 V c).leavesExact 2 t = owns (c : Thread nD τ) (ms0_2 t) fullShare ((dat0 V c).after 2 t) := by
  unfold Dat.leavesExact; rw [liveAt0_2 t]
theorem leaves0_3 (c : Dev nD) (t : Fin cfg0.N) :
    (dat0 V c).leavesExact 3 t = owns (c : Thread nD τ) (ms0_3 t) fullShare ((dat0 V c).after 3 t) := by
  unfold Dat.leavesExact; rw [liveAt0_3 t]
theorem leaves0_4 (c : Dev nD) (t : Fin cfg0.N) :
    (dat0 V c).leavesExact 4 t = owns (c : Thread nD τ) (ms0_4 t) fullShare ((dat0 V c).after 4 t) := by
  unfold Dat.leavesExact; rw [liveAt0_4 t]
theorem leaves0_5 (c : Dev nD) (t : Fin cfg0.N) :
    (dat0 V c).leavesExact 5 t = owns (c : Thread nD τ) (ms0_5 t) fullShare ((dat0 V c).after 5 t) := by
  unfold Dat.leavesExact; rw [liveAt0_5 t]
theorem leaves0_6 (c : Dev nD) (t : Fin cfg0.N) :
    (dat0 V c).leavesExact 6 t = owns (c : Thread nD τ) (ms0_6 t) fullShare ((dat0 V c).after 6 t) := by
  unfold Dat.leavesExact; rw [liveAt0_6 t]
theorem leaves0_7 (c : Dev nD) (t : Fin cfg0.N) :
    (dat0 V c).leavesExact 7 t = owns (c : Thread nD τ) (ms0_7 t) fullShare ((dat0 V c).after 7 t) := by
  unfold Dat.leavesExact; rw [liveAt0_7 t]
theorem leaves0_8 (c : Dev nD) (t : Fin cfg0.N) :
    (dat0 V c).leavesExact 8 t = owns (c : Thread nD τ) (ms0_8 t) fullShare ((dat0 V c).after 8 t) := by
  unfold Dat.leavesExact; rw [liveAt0_8 t]
theorem leaves0_9 (c : Dev nD) (t : Fin cfg0.N) :
    (dat0 V c).leavesExact 9 t = owns (c : Thread nD τ) (ms0_9 t) fullShare ((dat0 V c).after 9 t) := by
  unfold Dat.leavesExact; rw [liveAt0_9 t]

set_option maxHeartbeats 1600000 in
/-- The body at any point: the inputs' buffers hold their blocks; the point is the first or a later one; at a later one
    the accumulator's buffer holds what the point before left; so that point's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [leaves0_0, leaves0_1, leaves0_2, leaves0_3, leaves0_4, leaves0_5, leaves0_6, leaves0_7, leaves0_8, leaves0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  by_cases h0 : t.val % 8 = 0
  · rw [out6At_A V c t h0, acc0_A V c t h0, out8At_A V c t h0, out9At_A V c t h0]
    unfold outA6 outA7 outA8 outA9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA V c t h0).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    iintro ⟨H0, H1, H2, H3, H4, H5, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _)
  · rw [out6At_B V c t h0, acc0_B V c t h0, out8At_B V c t h0, out9At_B V c t h0]
    simp only [before0_7_B V c t h0]
    unfold outB6 outB7 outB8 outB9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB V c t h0 (prev0 V c t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexists _; iexact H8
    isplitl [H9]; · iexists _; iexact H9
    iintro ⟨H0, H1, H2, H3, H4, H5, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _)
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _)

end Data

end Cert.KernelIdeal.Hand

end
-- ==== Proof.R0Obl.lean ====
import proofs.«139708_g36129264894619_cont_8to1_b_1456_17_alg».proof.Proof.R0Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree-and-projection region: the body obligation in the library's form -/

variable (V : (c : Dev nD) → (b : Ref sig .tc) → Buf (Elt F) ((c : Thread nD τ).loc b))

set_option maxHeartbeats 1600000 in
/-- The library's body obligation, at every point: its statement, the windows conjoined one by one, is `sound_body0`'s. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Conds.lean ====
import proofs.«139708_g36129264894619_cont_8to1_b_1456_17_alg».proof.Proof.Gen.KernelIdeal.Launch
import proofs.«139708_g36129264894619_cont_8to1_b_1456_17_alg».proof.Proof.Gen.KernelIdeal.Skeleton
import proofs.«139708_g36129264894619_cont_8to1_b_1456_17_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The new-source-features region: which branch a grid point takes

The first grid point overwrites the transposed-product accumulator; every later point adds into it. -/

/-- The first conditional of the body (overwrite the accumulator) is taken at the first point only. -/
theorem hcond1_1 : ∀ t : Fin cfg1.N, k1_cond1 (grid1.coords t) = 1#1 ↔ t.val % 8 = 0 :=
  (by decide +kernel : ∀ t : Fin grid1.N, k1_cond1 (grid1.coords t) = 1#1 ↔ t.val % 8 = 0)

/-- The second conditional (add into the accumulator) is taken at every point but the first. -/
theorem hcond1_2 : ∀ t : Fin cfg1.N, k1_cond2 (grid1.coords t) = 1#1 ↔ ¬ t.val % 8 = 0 :=
  (by decide +kernel : ∀ t : Fin grid1.N, k1_cond2 (grid1.coords t) = 1#1 ↔ ¬ t.val % 8 = 0)

end Cert.KernelIdeal.Hand

end
-- ==== Proof.R1RunA.lean ====
import proofs.«139708_g36129264894619_cont_8to1_b_1456_17_alg».proof.Proof.R1Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The new-source-features body at the FIRST grid point

The body loads the two adjacency row blocks, the whole projected features of both sides, the two degree columns, and the
512-row slices of the source features and of the row-degree column at this block's row offset; it stores the new
feature block whole and OVERWRITES the transposed-product accumulator with this block's contribution. What each output
buffer ends with is found by running the body. -/

set_option maxHeartbeats 4000000 in
/-- What the body's stores leave in each output's staging buffer, as pieces, at a point where the overwrite branch
    is taken and the accumulate branch is not — with the proof that the body runs from whole staging buffers (the
    inputs at their contents, the outputs at anything) to the inputs unchanged and the outputs with those pieces written. -/
noncomputable def kernelRun1_A (c : Dev nD) (i : grid1.Coords) (arg1 : Memref sig .tc .vmem S512x4096 .f32) (harg1 : arg1.IsWhole) (arg2 : Memref sig .tc .vmem S512x4096 .f32) (harg2 : arg2.IsWhole) (arg3 : Memref sig .tc .vmem S4096x32 .f32) (harg3 : arg3.IsWhole) (arg4 : Memref sig .tc .vmem S4096x32 .f32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S512x32 .f32) (harg7 : arg7.IsWhole) (arg8 : Memref sig .tc .vmem S4096x32 .f32) (harg8 : arg8.IsWhole) (hc1 : k1_cond1 i = 1#1) (hc2 : ¬ k1_cond2 i = 1#1)
    (x0 : Vec F S512x4096 .f32) (x1 : Vec F S512x4096 .f32) (x2 : Vec F S4096x32 .f32) (x3 : Vec F S4096x32 .f32) (x4 : Vec F S4096x1 .f32) (x5 : Vec F S4096x1 .f32) :
    Σ' (L6 : List (View.Piece (Elt F) S512x32 .f32)), { L7 : List (View.Piece (Elt F) S4096x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)) -∗ K ⟨⟩))
          ⊢ wp frame (wpE (defs₀ (F := F)) Variants.none c none) E (cc1__xnew_kernel i arg1 harg1 arg2 harg2 arg3 harg3 arg4 harg4 arg5 harg5 arg6 harg6 arg7 harg7 arg8 harg8) K } := by
  refine ⟨?_, ?_, fun E K => ?run⟩
  case run =>
    simp only [cc1__xnew_kernel_eq_skeleton]; unfold cc1__xnew_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.KernelIdeal.Hand

end
-- ==== Proof.R1RunB.lean ====
import proofs.«139708_g36129264894619_cont_8to1_b_1456_17_alg».proof.Proof.R1Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The new-source-features body at a LATER grid point

As at the first point, except that the transposed-product accumulator is read and this block's contribution is ADDED
to what the point before left in it. -/

set_option maxHeartbeats 4000000 in
/-- What the body's stores leave in each output's staging buffer, as pieces, at a point where the accumulate
    branch is taken and the overwrite branch is not: the accumulator's buffer enters at its running contents. -/
noncomputable def kernelRun1_B (c : Dev nD) (i : grid1.Coords) (arg1 : Memref sig .tc .vmem S512x4096 .f32) (harg1 : arg1.IsWhole) (arg2 : Memref sig .tc .vmem S512x4096 .f32) (harg2 : arg2.IsWhole) (arg3 : Memref sig .tc .vmem S4096x32 .f32) (harg3 : arg3.IsWhole) (arg4 : Memref sig .tc .vmem S4096x32 .f32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S512x32 .f32) (harg7 : arg7.IsWhole) (arg8 : Memref sig .tc .vmem S4096x32 .f32) (harg8 : arg8.IsWhole) (hc1 : ¬ k1_cond1 i = 1#1) (hc2 : k1_cond2 i = 1#1)
    (x0 : Vec F S512x4096 .f32) (x1 : Vec F S512x4096 .f32) (x2 : Vec F S4096x32 .f32) (x3 : Vec F S4096x32 .f32) (x4 : Vec F S4096x1 .f32) (x5 : Vec F S4096x1 .f32) (xo7 : Vec F S4096x32 .f32) :
    Σ' (L6 : List (View.Piece (Elt F) S512x32 .f32)), { L7 : List (View.Piece (Elt F) S4096x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)) -∗ K ⟨⟩))
          ⊢ wp frame (wpE (defs₀ (F := F)) Variants.none c none) E (cc1__xnew_kernel i arg1 harg1 arg2 harg2 arg3 harg3 arg4 harg4 arg5 harg5 arg6 harg6 arg7 harg7 arg8 harg8) K } := by
  refine ⟨?_, ?_, fun E K => ?run⟩
  case run =>
    simp only [cc1__xnew_kernel_eq_skeleton]; unfold cc1__xnew_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.KernelIdeal.Hand

end
-- ==== Proof.R1Frame.lean ====
import proofs.«139708_g36129264894619_cont_8to1_b_1456_17_alg».proof.Proof.R1RunA
import proofs.«139708_g36129264894619_cont_8to1_b_1456_17_alg».proof.Proof.R1RunB
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The new-source-features region: what its buffers hold point by point, and its body obligation

The grid has eight points, one per block of 512 rows. At every point the body stores the new feature block whole; the
transposed-product accumulator is overwritten at the first point and added to afterwards, and is written back once,
after the last point. -/

abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S4096x32 .f32 := win1_7.stage (cfg1.slots t 7)
abbrev hs1_7 (t : Fin cfg1.N) : (ms1_7 t).IsWhole := hstage1_7 ((cfg1.slots t 7).cast nbuf1_7)

/-- One staging buffer of each output window, through which its contents are stated. -/
abbrev VO1_6 : View sig .tc .vmem S512x32 .f32 := (Memref.whole cc1_stg6_0 : Memref sig .tc .vmem S512x32 .f32).view
abbrev VO1_7 : View sig .tc .vmem S4096x32 .f32 := (Memref.whole cc1_stg7_0 : Memref sig .tc .vmem S4096x32 .f32).view

/-- The accumulator's window is live at every grid point: one of the two branches that store it is always taken. -/
theorem live1_7 : ∀ i : grid1.Coords, cfg1.idle 7 i = false := by decide +kernel

/-- No window is idle at any grid point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel

/-! ## The pieces each branch writes cover each output buffer -/

theorem cover1_A_6 (c : Dev nD) (i : grid1.Coords) (arg1 : Memref sig .tc .vmem S512x4096 .f32) (harg1 : arg1.IsWhole) (arg2 : Memref sig .tc .vmem S512x4096 .f32) (harg2 : arg2.IsWhole) (arg3 : Memref sig .tc .vmem S4096x32 .f32) (harg3 : arg3.IsWhole) (arg4 : Memref sig .tc .vmem S4096x32 .f32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S512x32 .f32) (harg7 : arg7.IsWhole) (arg8 : Memref sig .tc .vmem S4096x32 .f32) (harg8 : arg8.IsWhole) (hc1 : k1_cond1 i = 1#1) (hc2 : ¬ k1_cond2 i = 1#1)
    (x0 : Vec F S512x4096 .f32) (x1 : Vec F S512x4096 .f32) (x2 : Vec F S4096x32 .f32) (x3 : Vec F S4096x32 .f32) (x4 : Vec F S4096x1 .f32) (x5 : Vec F S4096x1 .f32) (y : S512x32.Idx) :
    ∃ pc ∈ (kernelRun1_A c i arg1 harg1 arg2 harg2 arg3 harg3 arg4 harg4 arg5 harg5 arg6 harg6 arg7 harg7 arg8 harg8 hc1 hc2 x0 x1 x2 x3 x4 x5).1, y ∈ pc.1.set :=
  View.cover_of_tiledL (kernelRun1_A c i arg1 harg1 arg2 harg2 arg3 harg3 arg4 harg4 arg5 harg5 arg6 harg6 arg7 harg7 arg8 harg8 hc1 hc2 x0 x1 x2 x3 x4 x5).1 S512x32.size (by sl_kernel_rfl) y

theorem cover1_B_6 (c : Dev nD) (i : grid1.Coords) (arg1 : Memref sig .tc .vmem S512x4096 .f32) (harg1 : arg1.IsWhole) (arg2 : Memref sig .tc .vmem S512x4096 .f32) (harg2 : arg2.IsWhole) (arg3 : Memref sig .tc .vmem S4096x32 .f32) (harg3 : arg3.IsWhole) (arg4 : Memref sig .tc .vmem S4096x32 .f32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S512x32 .f32) (harg7 : arg7.IsWhole) (arg8 : Memref sig .tc .vmem S4096x32 .f32) (harg8 : arg8.IsWhole) (hc1 : ¬ k1_cond1 i = 1#1) (hc2 : k1_cond2 i = 1#1)
    (x0 : Vec F S512x4096 .f32) (x1 : Vec F S512x4096 .f32) (x2 : Vec F S4096x32 .f32) (x3 : Vec F S4096x32 .f32) (x4 : Vec F S4096x1 .f32) (x5 : Vec F S4096x1 .f32) (xo7 : Vec F S4096x32 .f32) (y : S512x32.Idx) :
    ∃ pc ∈ (kernelRun1_B c i arg1 harg1 arg2 harg2 arg3 harg3 arg4 harg4 arg5 harg5 arg6 harg6 arg7 harg7 arg8 harg8 hc1 hc2 x0 x1 x2 x3 x4 x5 xo7).1, y ∈ pc.1.set :=
  View.cover_of_tiledL (kernelRun1_B c i arg1 harg1 arg2 harg2 arg3 harg3 arg4 harg4 arg5 harg5 arg6 harg6 arg7 harg7 arg8 harg8 hc1 hc2 x0 x1 x2 x3 x4 x5 xo7).1 S512x32.size (by sl_kernel_rfl) y

theorem cover1_A_7 (c : Dev nD) (i : grid1.Coords) (arg1 : Memref sig .tc .vmem S512x4096 .f32) (harg1 : arg1.IsWhole) (arg2 : Memref sig .tc .vmem S512x4096 .f32) (harg2 : arg2.IsWhole) (arg3 : Memref sig .tc .vmem S4096x32 .f32) (harg3 : arg3.IsWhole) (arg4 : Memref sig .tc .vmem S4096x32 .f32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S512x32 .f32) (harg7 : arg7.IsWhole) (arg8 : Memref sig .tc .vmem S4096x32 .f32) (harg8 : arg8.IsWhole) (hc1 : k1_cond1 i = 1#1) (hc2 : ¬ k1_cond2 i = 1#1)
    (x0 : Vec F S512x4096 .f32) (x1 : Vec F S512x4096 .f32) (x2 : Vec F S4096x32 .f32) (x3 : Vec F S4096x32 .f32) (x4 : Vec F S4096x1 .f32) (x5 : Vec F S4096x1 .f32) (y : S4096x32.Idx) :
    ∃ pc ∈ (kernelRun1_A c i arg1 harg1 arg2 harg2 arg3 harg3 arg4 harg4 arg5 harg5 arg6 harg6 arg7 harg7 arg8 harg8 hc1 hc2 x0 x1 x2 x3 x4 x5).2.1, y ∈ pc.1.set :=
  View.cover_of_tiledL (kernelRun1_A c i arg1 harg1 arg2 harg2 arg3 harg3 arg4 harg4 arg5 harg5 arg6 harg6 arg7 harg7 arg8 harg8 hc1 hc2 x0 x1 x2 x3 x4 x5).2.1 S4096x32.size (by sl_kernel_rfl) y

theorem cover1_B_7 (c : Dev nD) (i : grid1.Coords) (arg1 : Memref sig .tc .vmem S512x4096 .f32) (harg1 : arg1.IsWhole) (arg2 : Memref sig .tc .vmem S512x4096 .f32) (harg2 : arg2.IsWhole) (arg3 : Memref sig .tc .vmem S4096x32 .f32) (harg3 : arg3.IsWhole) (arg4 : Memref sig .tc .vmem S4096x32 .f32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S512x32 .f32) (harg7 : arg7.IsWhole) (arg8 : Memref sig .tc .vmem S4096x32 .f32) (harg8 : arg8.IsWhole) (hc1 : ¬ k1_cond1 i = 1#1) (hc2 : k1_cond2 i = 1#1)
    (x0 : Vec F S512x4096 .f32) (x1 : Vec F S512x4096 .f32) (x2 : Vec F S4096x32 .f32) (x3 : Vec F S4096x32 .f32) (x4 : Vec F S4096x1 .f32) (x5 : Vec F S4096x1 .f32) (xo7 : Vec F S4096x32 .f32) (y : S4096x32.Idx) :
    ∃ pc ∈ (kernelRun1_B c i arg1 harg1 arg2 harg2 arg3 harg3 arg4 harg4 arg5 harg5 arg6 harg6 arg7 harg7 arg8 harg8 hc1 hc2 x0 x1 x2 x3 x4 x5 xo7).2.1, y ∈ pc.1.set :=
  View.cover_of_tiledL (kernelRun1_B c i arg1 harg1 arg2 harg2 arg3 harg3 arg4 harg4 arg5 harg5 arg6 harg6 arg7 harg7 arg8 harg8 hc1 hc2 x0 x1 x2 x3 x4 x5 xo7).2.1 S4096x32.size (by sl_kernel_rfl) y

section Data

-- the buffers' contents when the region is entered: the parameter everything below is stated at
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's run at the first point, on that point's staging buffers and input blocks. -/
abbrev run1A (c : Dev nD) (t : Fin cfg1.N) (h0 : t.val % 8 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_1 t).mpr h0) (fun h => ((hcond1_2 t).mp h) h0) (iblk1 V c 0 t) (iblk1 V c 1 t) (iblk1 V c 2 t) (iblk1 V c 3 t) (iblk1 V c 4 t) (iblk1 V c 5 t)

/-- The body's run at a later point, the accumulator's buffer entering at `xo7`. -/
abbrev run1B (c : Dev nD) (t : Fin cfg1.N) (h0 : ¬ t.val % 8 = 0) (xo7 : Vec F S4096x32 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_1 t).mp h)) ((hcond1_2 t).mpr h0) (iblk1 V c 0 t) (iblk1 V c 1 t) (iblk1 V c 2 t) (iblk1 V c 3 t) (iblk1 V c 4 t) (iblk1 V c 5 t) xo7

/-- What the first-point run leaves in the new-feature block's buffer: its pieces read back. -/
def o1A6 (c : Dev nD) (t : Fin cfg1.N) (h0 : t.val % 8 = 0) : Vec F S512x32 .f32 :=
  VO1_6.read (Elt F) (VO1_6.writes (Elt F) VO1_6.junk (run1A V c t h0).1)
/-- What a later-point run leaves in the new-feature block's buffer. -/
def o1B6 (c : Dev nD) (t : Fin cfg1.N) (h0 : ¬ t.val % 8 = 0) (xo7 : Vec F S4096x32 .f32) : Vec F S512x32 .f32 :=
  VO1_6.read (Elt F) (VO1_6.writes (Elt F) VO1_6.junk (run1B V c t h0 xo7).1)
/-- What the first-point run leaves in the accumulator's buffer: its pieces read back. -/
def o1A7 (c : Dev nD) (t : Fin cfg1.N) (h0 : t.val % 8 = 0) : Vec F S4096x32 .f32 :=
  VO1_7.read (Elt F) (VO1_7.writes (Elt F) VO1_7.junk (run1A V c t h0).2.1)
/-- What a later-point run leaves in the accumulator's buffer. -/
def o1B7 (c : Dev nD) (t : Fin cfg1.N) (h0 : ¬ t.val % 8 = 0) (xo7 : Vec F S4096x32 .f32) : Vec F S4096x32 .f32 :=
  VO1_7.read (Elt F) (VO1_7.writes (Elt F) VO1_7.junk (run1B V c t h0 xo7).2.1)

/-- THE ACCUMULATION: the transposed-product buffer after the body at position `n` — the first point's contribution,
    then each later point's added to what the point before left. -/
def acc1 (c : Dev nD) : (n : ℕ) → n < cfg1.N → Vec F S4096x32 .f32
  | 0, hn => o1A7 V c ⟨0, hn⟩ (Nat.zero_mod _)
  | n + 1, hn =>
    if h0 : (n + 1) % 8 = 0 then o1A7 V c ⟨n + 1, hn⟩ h0
    else o1B7 V c ⟨n + 1, hn⟩ h0 (acc1 c n (Nat.lt_of_succ_lt hn))

/-- The accumulator as the point before left it (at the first point: irrelevant). -/
abbrev prev1 (c : Dev nD) (t : Fin cfg1.N) : Vec F S4096x32 .f32 :=
  acc1 V c (t.val - 1) (Nat.lt_of_le_of_lt (Nat.sub_le _ _) t.isLt)

theorem acc1_A (c : Dev nD) (t : Fin cfg1.N) (h0 : t.val % 8 = 0) : acc1 V c t.val t.isLt = o1A7 V c t h0 := by
  obtain ⟨n, hn⟩ := t
  cases n with
  | zero => exact rfl
  | succ n => exact (dif_pos h0).trans rfl

theorem acc1_B (c : Dev nD) (t : Fin cfg1.N) (h0 : ¬ t.val % 8 = 0) : acc1 V c t.val t.isLt = o1B7 V c t h0 (prev1 V c t) := by
  obtain ⟨n, hn⟩ := t
  cases n with
  | zero => exact (by exfalso; (try dsimp only at h0); exact absurd (Nat.zero_mod _) h0)
  | succ n => exact (dif_neg h0).trans rfl

/-- The new-feature block's buffer after the body at point `t`. -/
def out1_6At (c : Dev nD) (t : Fin cfg1.N) : Vec F S512x32 .f32 :=
  if h0 : t.val % 8 = 0 then o1A6 V c t h0 else o1B6 V c t h0 (prev1 V c t)
theorem out1_6At_A (c : Dev nD) (t : Fin cfg1.N) (h0 : t.val % 8 = 0) : out1_6At V c t = o1A6 V c t h0 := dif_pos h0
theorem out1_6At_B (c : Dev nD) (t : Fin cfg1.N) (h0 : ¬ t.val % 8 = 0) : out1_6At V c t = o1B6 V c t h0 (prev1 V c t) := dif_neg h0

/-! ## The proof data -/

/-- The region's proof data on core `c`: the arrays as the region finds them; after the body at point `t` each input's
    buffer at its block, each output's at what the point's run leaves; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6At V c t
    | ⟨7, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6At V c t := by dsimp only [dat1]
theorem after1_7 (c : Dev nD) (t : Fin cfg1.N) : (dat1 V c).after 7 t = acc1 V c t.val t.isLt := by dsimp only [dat1]

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- Input window 3's current staging buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- Input window 4's current staging buffer holds its block at every point, fetched there or not. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
/-- Input window 5's current staging buffer holds its block at every point, fetched there or not. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-- At a later point the accumulator's buffer holds what the body left at the point before: it is written back only
    after the last point. -/
theorem before1_7_B (c : Dev nD) (t : Fin cfg1.N) (h0 : ¬ t.val % 8 = 0) (d) :
    (dat1 V c).before 7 t d = prev1 V c t := by
  have hN : t.val < 8 := lt_of_lt_of_eq t.isLt (show cfg1.N = 8 from N_1)
  rw [Dat.before_out_kept _ 7 rfl t (by omega) (Bool.eq_false_iff.mpr fun h => by have := (flush1_7 _).mp h; dsimp only at this; omega)
    live1_7 (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- What the body hands back: every window's buffer as the point leaves it (no window is idle). -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem leaves1_0 (c : Dev nD) (t : Fin cfg1.N) :
    (dat1 V c).leavesExact 0 t = owns (c : Thread nD τ) (ms1_0 t) fullShare ((dat1 V c).after 0 t) := by
  unfold Dat.leavesExact; rw [liveAt1_0 t]
theorem leaves1_1 (c : Dev nD) (t : Fin cfg1.N) :
    (dat1 V c).leavesExact 1 t = owns (c : Thread nD τ) (ms1_1 t) fullShare ((dat1 V c).after 1 t) := by
  unfold Dat.leavesExact; rw [liveAt1_1 t]
theorem leaves1_2 (c : Dev nD) (t : Fin cfg1.N) :
    (dat1 V c).leavesExact 2 t = owns (c : Thread nD τ) (ms1_2 t) fullShare ((dat1 V c).after 2 t) := by
  unfold Dat.leavesExact; rw [liveAt1_2 t]
theorem leaves1_3 (c : Dev nD) (t : Fin cfg1.N) :
    (dat1 V c).leavesExact 3 t = owns (c : Thread nD τ) (ms1_3 t) fullShare ((dat1 V c).after 3 t) := by
  unfold Dat.leavesExact; rw [liveAt1_3 t]
theorem leaves1_4 (c : Dev nD) (t : Fin cfg1.N) :
    (dat1 V c).leavesExact 4 t = owns (c : Thread nD τ) (ms1_4 t) fullShare ((dat1 V c).after 4 t) := by
  unfold Dat.leavesExact; rw [liveAt1_4 t]
theorem leaves1_5 (c : Dev nD) (t : Fin cfg1.N) :
    (dat1 V c).leavesExact 5 t = owns (c : Thread nD τ) (ms1_5 t) fullShare ((dat1 V c).after 5 t) := by
  unfold Dat.leavesExact; rw [liveAt1_5 t]
theorem leaves1_6 (c : Dev nD) (t : Fin cfg1.N) :
    (dat1 V c).leavesExact 6 t = owns (c : Thread nD τ) (ms1_6 t) fullShare ((dat1 V c).after 6 t) := by
  unfold Dat.leavesExact; rw [liveAt1_6 t]
theorem leaves1_7 (c : Dev nD) (t : Fin cfg1.N) :
    (dat1 V c).leavesExact 7 t = owns (c : Thread nD τ) (ms1_7 t) fullShare ((dat1 V c).after 7 t) := by
  unfold Dat.leavesExact; rw [liveAt1_7 t]

set_option maxHeartbeats 1600000 in
/-- The body at any point: the inputs' buffers hold their blocks; the point is the first or a later one; at a later one
    the accumulator's buffer holds what the point before left; so that point's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [leaves1_0, leaves1_1, leaves1_2, leaves1_3, leaves1_4, leaves1_5, leaves1_6, leaves1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  by_cases h0 : t.val % 8 = 0
  · rw [out1_6At_A V c t h0, acc1_A V c t h0]
    unfold o1A6 o1A7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run1A V c t h0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_A_6 c _ _ _ _ _ _ _ _ _ _ _ _ _ _ _ _ _ _ _ _ _ _ _ _ _)
    unfold owns; iexists _; isplitr
    swap; · iexact H7
    ipureintro; exact View.read_writes_of_cover _ _ _ _ _ (cover1_A_7 c _ _ _ _ _ _ _ _ _ _ _ _ _ _ _ _ _ _ _ _ _ _ _ _ _)
  · rw [out1_6At_B V c t h0, acc1_B V c t h0]
    simp only [before1_7_B V c t h0]
    unfold o1B6 o1B7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run1B V c t h0 (prev1 V c t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_B_6 c _ _ _ _ _ _ _ _ _ _ _ _ _ _ _ _ _ _ _ _ _ _ _ _ _ _)
    unfold owns; iexists _; isplitr
    swap; · iexact H7
    ipureintro; exact View.read_writes_of_cover _ _ _ _ _ (cover1_B_7 c _ _ _ _ _ _ _ _ _ _ _ _ _ _ _ _ _ _ _ _ _ _ _ _ _ _)

end Data

end Cert.KernelIdeal.Hand

end
-- ==== Proof.R1Obl.lean ====
import proofs.«139708_g36129264894619_cont_8to1_b_1456_17_alg».proof.Proof.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The new-source-features region: the body obligation in the library's form -/

variable (V : (c : Dev nD) → (b : Ref sig .tc) → Buf (Elt F) ((c : Thread nD τ).loc b))

set_option maxHeartbeats 1600000 in
/-- The library's body obligation, at every point: its statement, the windows conjoined one by one, is `sound_body1`'s. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.R2Run.lean ====
import proofs.«139708_g36129264894619_cont_8to1_b_1456_17_alg».proof.Proof.Gen.KernelIdeal.Launch
import proofs.«139708_g36129264894619_cont_8to1_b_1456_17_alg».proof.Proof.Gen.KernelIdeal.Skeleton
import proofs.«139708_g36129264894619_cont_8to1_b_1456_17_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The new-target-features body at a grid point

The body loads the row block of the target-side adjacency matrix, the whole projected target features, the whole
column-degree column and the whole transposed term, and again the 512-row slices of the last three at this block's
row offset; it stores the new feature block whole. There is no branch: one run serves every point. What the output
buffer ends with is found by running the body. -/

set_option maxHeartbeats 4000000 in
/-- What the body's store leaves in the output's staging buffer, as pieces — with the proof that the body runs from
    whole staging buffers (the inputs at their contents, the output at anything) to the inputs unchanged and the
    output with those pieces written. -/
noncomputable def kernelRun2 (c : Dev nD) (i : grid2.Coords) (arg1 : Memref sig .tc .vmem S512x4096 .f32) (harg1 : arg1.IsWhole) (arg2 : Memref sig .tc .vmem S4096x32 .f32) (harg2 : arg2.IsWhole) (arg3 : Memref sig .tc .vmem S4096x1 .f32) (harg3 : arg3.IsWhole) (arg4 : Memref sig .tc .vmem S4096x32 .f32) (harg4 : arg4.IsWhole) (arg5 : Memref sig .tc .vmem S512x32 .f32) (harg5 : arg5.IsWhole)
    (x0 : Vec F S512x4096 .f32) (x1 : Vec F S4096x32 .f32) (x2 : Vec F S4096x1 .f32) (x3 : Vec F S4096x32 .f32) :
    { L4 : List (View.Piece (Elt F) S512x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)) -∗ K ⟨⟩))
          ⊢ wp frame (wpE (defs₀ (F := F)) Variants.none c none) E (cc2__ynew_kernel i arg1 harg1 arg2 harg2 arg3 harg3 arg4 harg4 arg5 harg5) K } := by
  refine ⟨?_, fun E K => ?run⟩
  case run =>
    simp only [cc2__ynew_kernel_eq_skeleton]; unfold cc2__ynew_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2
    obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Hand

end
-- ==== Proof.R2Frame.lean ====
import proofs.«139708_g36129264894619_cont_8to1_b_1456_17_alg».proof.Proof.R2Run
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The new-target-features region: what its buffers hold point by point, and its body obligation

The grid has eight points, one per block of 512 rows. At every point the body stores the output block whole; the four
inputs are only read. -/

abbrev ms2_0 (t : Fin cfg2.N) : Memref sig .tc .vmem S512x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x32 .f32 := win2_4.stage (cfg2.slots t 4)
abbrev hs2_4 (t : Fin cfg2.N) : (ms2_4 t).IsWhole := hstage2_4 ((cfg2.slots t 4).cast nbuf2_4)

/-- One staging buffer of the output window, through which its contents are stated. -/
abbrev VO2_4 : View sig .tc .vmem S512x32 .f32 := (Memref.whole cc2_stg4_0 : Memref sig .tc .vmem S512x32 .f32).view

/-- No window is idle at any grid point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel

/-- The pieces the body writes cover the output buffer. -/
theorem cover2_4 (c : Dev nD) (i : grid2.Coords) (arg1 : Memref sig .tc .vmem S512x4096 .f32) (harg1 : arg1.IsWhole) (arg2 : Memref sig .tc .vmem S4096x32 .f32) (harg2 : arg2.IsWhole) (arg3 : Memref sig .tc .vmem S4096x1 .f32) (harg3 : arg3.IsWhole) (arg4 : Memref sig .tc .vmem S4096x32 .f32) (harg4 : arg4.IsWhole) (arg5 : Memref sig .tc .vmem S512x32 .f32) (harg5 : arg5.IsWhole)
    (x0 : Vec F S512x4096 .f32) (x1 : Vec F S4096x32 .f32) (x2 : Vec F S4096x1 .f32) (x3 : Vec F S4096x32 .f32) (y : S512x32.Idx) :
    ∃ pc ∈ (kernelRun2 c i arg1 harg1 arg2 harg2 arg3 harg3 arg4 harg4 arg5 harg5 x0 x1 x2 x3).1, y ∈ pc.1.set :=
  View.cover_of_tiledL (kernelRun2 c i arg1 harg1 arg2 harg2 arg3 harg3 arg4 harg4 arg5 harg5 x0 x1 x2 x3).1 S512x32.size (by sl_kernel_rfl) y

section Data

-- the buffers' contents when the region is entered: the parameter everything below is stated at
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's run at point `t`, on that point's staging buffers and input blocks. -/
abbrev run2 (c : Dev nD) (t : Fin cfg2.N) :=
  kernelRun2 (F := F) c (grid2.coords t) (ms2_0 t) (hs2_0 t) (ms2_1 t) (hs2_1 t) (ms2_2 t) (hs2_2 t) (ms2_3 t) (hs2_3 t) (ms2_4 t) (hs2_4 t) (iblk2 V c 0 t) (iblk2 V c 1 t) (iblk2 V c 2 t) (iblk2 V c 3 t)

/-- What the run at point `t` leaves in the output window's buffer: its pieces read back. -/
def out2_4 (c : Dev nD) (t : Fin cfg2.N) : Vec F S512x32 .f32 :=
  VO2_4.read (Elt F) (VO2_4.writes (Elt F) VO2_4.junk (run2 V c t).1)

/-! ## The proof data -/

/-- The region's proof data on core `c`: the arrays as the region finds them; after the body at point `t` each input's
    buffer at its block, the output's at what the point's run leaves; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 V c t := by dsimp only [dat2]

/-- Input window 0's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
/-- Input window 1's current staging buffer holds its block at every point, fetched there or not. -/
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
/-- Input window 2's current staging buffer holds its block at every point, fetched there or not. -/
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
/-- Input window 3's current staging buffer holds its block at every point, fetched there or not. -/
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- What the body hands back: every window's buffer as the point leaves it (no window is idle). -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) :
    (dat2 V c).leavesExact 0 t = owns (c : Thread nD τ) (ms2_0 t) fullShare ((dat2 V c).after 0 t) := by
  unfold Dat.leavesExact; rw [liveAt2_0 t]
theorem leaves2_1 (c : Dev nD) (t : Fin cfg2.N) :
    (dat2 V c).leavesExact 1 t = owns (c : Thread nD τ) (ms2_1 t) fullShare ((dat2 V c).after 1 t) := by
  unfold Dat.leavesExact; rw [liveAt2_1 t]
theorem leaves2_2 (c : Dev nD) (t : Fin cfg2.N) :
    (dat2 V c).leavesExact 2 t = owns (c : Thread nD τ) (ms2_2 t) fullShare ((dat2 V c).after 2 t) := by
  unfold Dat.leavesExact; rw [liveAt2_2 t]
theorem leaves2_3 (c : Dev nD) (t : Fin cfg2.N) :
    (dat2 V c).leavesExact 3 t = owns (c : Thread nD τ) (ms2_3 t) fullShare ((dat2 V c).after 3 t) := by
  unfold Dat.leavesExact; rw [liveAt2_3 t]
theorem leaves2_4 (c : Dev nD) (t : Fin cfg2.N) :
    (dat2 V c).leavesExact 4 t = owns (c : Thread nD τ) (ms2_4 t) fullShare ((dat2 V c).after 4 t) := by
  unfold Dat.leavesExact; rw [liveAt2_4 t]

set_option maxHeartbeats 1600000 in
/-- The body at any point: the inputs' buffers hold their blocks, so the run applies; the output's buffer ends at the
    run's pieces read back, which cover it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [leaves2_0, leaves2_1, leaves2_2, leaves2_3, leaves2_4]
  rw [show (dat2 V c).Φ t.succ = (dat2 V c).Φ t.castSucc from rfl,
    show (dat2 V c).owesAt () t.succ = (dat2 V c).owesAt () t.castSucc from rfl,
    after2_0, after2_1, after2_2, after2_3, after2_4]
  unfold out2_4
  iintro ⟨HΦ, Ho, ⟨%d0, H0⟩, ⟨%d1, H1⟩, ⟨%d2, H2⟩, ⟨%d3, H3⟩, ⟨%d4, H4⟩⟩
  iapply ((run2 V c t).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2_4 c _ _ _ _ _ _ _ _ _ _ _ _ _ _ _)

end Data

end Cert.KernelIdeal.Hand

end
-- ==== Proof.R2Obl.lean ====
import proofs.«139708_g36129264894619_cont_8to1_b_1456_17_alg».proof.Proof.R2Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The new-target-features region: the body obligation in the library's form -/

variable (V : (c : Dev nD) → (b : Ref sig .tc) → Buf (Elt F) ((c : Thread nD τ).loc b))

set_option maxHeartbeats 1600000 in
/-- The library's body obligation, at every point: its statement, the windows conjoined one by one, is `sound_body2`'s. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Assemble.lean ====
import proofs.«139708_g36129264894619_cont_8to1_b_1456_17_alg».proof.Proof.R0Obl
import proofs.«139708_g36129264894619_cont_8to1_b_1456_17_alg».proof.Proof.R1Obl
import proofs.«139708_g36129264894619_cont_8to1_b_1456_17_alg».proof.Proof.R2Obl
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program: three regions and one reshape between the first two

The buffers' contents at each boundary are a fold through the program: the launch memory; after the degree-and-projection
region its four output arrays hold what its write-backs leave; the reshape of the column degrees into a column; after the
new-source-features region its two outputs; after the new-target-features region its one. Every unscoped buffer is held
whole at these contents between items, and the last boundary is read off the final memory. -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves (the inputs as entered, each output's write-backs folded),
    every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the reshape (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At region 1's exit: its arrays at what the pipeline leaves (the inputs as entered, each output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- The reshape as an item over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps1_fresh' : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as items -/

-- `iapply` of a library lemma stated over `pin pcs a p` unifies with the pinned configuration only when unification may
-- unfold plain definitions in a metavariable's type
set_option backward.isDefEq.respectTransparency.types false in
/-- Region 0 over the thread state: entered from every unscoped buffer at `W0`, left at `W1`. Its arrays are split
    out of the unscoped buffers and put back at the exit contents; the generator register goes into the region's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer at `W2`, left at `W3`. Its arrays are split
    out of the unscoped buffers and put back at the exit contents; the generator register goes into the region's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered from every unscoped buffer at `W3`, left at `W4`. Its arrays are split
    out of the unscoped buffers and put back at the exit contents; the generator register goes into the region's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and in every final state each core's unscoped buffers hold the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.Frames.lean ====
import proofs.«139708_g36129264894619_cont_8to1_b_1456_17_alg».proof.Proof.Assemble

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # The arguments end as launched

No item of the program writes an argument array: the reshape writes the column-degree column only, and every region
reads the arguments through input windows, whose arrays the pipeline leaves as it found them. So the fold of boundary
contents, read at an argument's buffer, walks back to the launch memory. -/

/-- `main_arg0` ends as launched: the reshape does not write it, and a region reads it through an input window or not at all. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 3).trans (((dat0 (V0 m ρ) c).arrAt_in 3 rfl _).trans (A_eq0 (V0 m ρ) c 3))
    _ = m ((c : Thread nD τ).loc main_arg0) := rfl

/-- `main_arg1` ends as launched: the reshape does not write it, and a region reads it through an input window or not at all. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 4).trans (((dat0 (V0 m ρ) c).arrAt_in 4 rfl _).trans (A_eq0 (V0 m ρ) c 4))
    _ = m ((c : Thread nD τ).loc main_arg1) := rfl

/-- `main_arg2` ends as launched: the reshape does not write it, and a region reads it through an input window or not at all. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := (W3_arr m ρ c 0).trans (((dat1 (V2 m ρ) c).arrAt_in 0 rfl _).trans (A_eq1 (V2 m ρ) c 0))
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := (W1_arr m ρ c 0).trans (((dat0 (V0 m ρ) c).arrAt_in 0 rfl _).trans (A_eq0 (V0 m ρ) c 0))
    _ = m ((c : Thread nD τ).loc main_arg2) := rfl

/-- `main_arg3` ends as launched: the reshape does not write it, and a region reads it through an input window or not at all. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := (W3_arr m ρ c 1).trans (((dat1 (V2 m ρ) c).arrAt_in 1 rfl _).trans (A_eq1 (V2 m ρ) c 1))
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl

/-- `main_arg4` ends as launched: the reshape does not write it, and a region reads it through an input window or not at all. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 0).trans (((dat2 (V3 m ρ) c).arrAt_in 0 rfl _).trans (A_eq2 (V3 m ρ) c 0))
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := (W1_arr m ρ c 2).trans (((dat0 (V0 m ρ) c).arrAt_in 2 rfl _).trans (A_eq0 (V0 m ρ) c 2))
    _ = m ((c : Thread nD τ).loc main_arg4) := rfl

/-- `main_arg5` ends as launched: the reshape does not write it, and a region reads it through an input window or not at all. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := (W1_arr m ρ c 5).trans (((dat0 (V0 m ρ) c).arrAt_in 5 rfl _).trans (A_eq0 (V0 m ρ) c 5))
    _ = m ((c : Thread nD τ).loc main_arg5) := rfl

/-- THE FRAME: every weakly fair execution terminates, nothing faulting, and every final state has the six argument
    arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩)
    (run_all m ρ)

end Cert.KernelIdeal.Hand

end
-- ==== Proof.KR0Conds.lean ====
import proofs.«139708_g36129264894619_cont_8to1_b_1456_17_alg».proof.Proof.Gen.Kernel.Launch
import proofs.«139708_g36129264894619_cont_8to1_b_1456_17_alg».proof.Proof.Gen.Kernel.Skeleton
import proofs.«139708_g36129264894619_cont_8to1_b_1456_17_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree-and-projection region: which branch a grid point takes

The first grid point overwrites the column-sum accumulator; every later point adds into it. -/

/-- The first conditional of the body (overwrite the accumulator) is taken at the first point only. -/
theorem hcond0_1 : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second conditional (add into the accumulator) is taken at every point but the first. -/
theorem hcond0_2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

end Cert.Kernel.Hand

end
-- ==== Proof.KR0RunA.lean ====
import proofs.«139708_g36129264894619_cont_8to1_b_1456_17_alg».proof.Proof.KR0Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree-and-projection body at the FIRST grid point

The body loads the three adjacency row blocks, the two feature row blocks and the weight; it stores the row-degree
block, OVERWRITES the column-degree accumulator with this block's column sums, and stores the two projected
blocks. What each output buffer ends with is found by running the body. -/

set_option maxHeartbeats 4000000 in
/-- What the body's stores leave in each output's staging buffer, as pieces, at a point where the overwrite branch
    is taken and the accumulate branch is not — with the proof that the body runs from whole staging buffers (the
    inputs at their contents, the outputs at anything) to the inputs unchanged and the outputs with those pieces written. -/
noncomputable def kernelRun0_A (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : k0_cond1 i = 1#1) (hc2 : ¬ k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) :
    Σ' (L6 : List (View.Piece (Elt F) S512x1 .f32)) (L7 : List (View.Piece (Elt F) S1x4096 .f32)) (L8 : List (View.Piece (Elt F) S512x32 .f32)), { L9 : List (View.Piece (Elt F) S512x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)) -∗ K ⟨⟩))
          ⊢ wp frame (wpE (defs₀ (F := F)) Variants.none c none) E (cc0__deg_proj_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__deg_proj_kernel_eq_skeleton]; unfold cc0__deg_proj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; iexact H9

end Cert.Kernel.Hand

end
-- ==== Proof.KR0RunB.lean ====
import proofs.«139708_g36129264894619_cont_8to1_b_1456_17_alg».proof.Proof.KR0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree-and-projection body at a LATER grid point

As at the first point, except that the column-degree accumulator is read and this block's column sums are ADDED to
what the point before left in it. -/

set_option maxHeartbeats 4000000 in
/-- What the body's stores leave in each output's staging buffer, as pieces, at a point where the accumulate
    branch is taken and the overwrite branch is not: the accumulator's buffer enters at its running contents. -/
noncomputable def kernelRun0_B (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : ¬ k0_cond1 i = 1#1) (hc2 : k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) (xo7 : Vec F S1x4096 .f32) :
    Σ' (L6 : List (View.Piece (Elt F) S512x1 .f32)) (L7 : List (View.Piece (Elt F) S1x4096 .f32)) (L8 : List (View.Piece (Elt F) S512x32 .f32)), { L9 : List (View.Piece (Elt F) S512x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xo7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)) -∗ K ⟨⟩))
          ⊢ wp frame (wpE (defs₀ (F := F)) Variants.none c none) E (cc0__deg_proj_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__deg_proj_kernel_eq_skeleton]; unfold cc0__deg_proj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; iexact H9

end Cert.Kernel.Hand

end
-- ==== Proof.KR0Frame.lean ====
import proofs.«139708_g36129264894619_cont_8to1_b_1456_17_alg».proof.Proof.KR0RunB
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree-and-projection region: what its buffers hold point by point, and its body obligation

The grid has eight points, one per block of 512 rows. At every point the body stores the row-degree block and the two
projected blocks whole; the column-degree accumulator is overwritten at the first point and added to afterwards, and is
written back once, after the last point. -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x32 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x32 .f32 := win0_9.stage (cfg0.slots t 9)
abbrev hs0_9 (t : Fin cfg0.N) : (ms0_9 t).IsWhole := hstage0_9 ((cfg0.slots t 9).cast nbuf0_9)

/-- One staging buffer of each output window, through which its contents are stated. -/
abbrev VO0_6 : View sig .tc .vmem S512x1 .f32 := (Memref.whole cc0_stg6_0 : Memref sig .tc .vmem S512x1 .f32).view
abbrev VO0_7 : View sig .tc .vmem S1x4096 .f32 := (Memref.whole cc0_stg7_0 : Memref sig .tc .vmem S1x4096 .f32).view
abbrev VO0_8 : View sig .tc .vmem S512x32 .f32 := (Memref.whole cc0_stg8_0 : Memref sig .tc .vmem S512x32 .f32).view
abbrev VO0_9 : View sig .tc .vmem S512x32 .f32 := (Memref.whole cc0_stg9_0 : Memref sig .tc .vmem S512x32 .f32).view

/-- The accumulator's window is live at every grid point: one of the two branches that store it is always taken. -/
theorem live0_7 : ∀ i : grid0.Coords, cfg0.idle 7 i = false := by decide +kernel

/-- No window is idle at any grid point: the inputs never are, three outputs are stored at every point, and the accumulator
    is stored by one of its two branches at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel

/-! ## The pieces each branch writes cover each output buffer -/

theorem cover0_A_6 (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : k0_cond1 i = 1#1) (hc2 : ¬ k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) (y : S512x1.Idx) :
    ∃ pc ∈ (kernelRun0_A c i arg1 harg1 arg2 harg2 arg3 harg3 arg4 harg4 arg5 harg5 arg6 harg6 arg7 harg7 arg8 harg8 arg9 harg9 arg10 harg10 hc1 hc2 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 hc1 hc2 x0 x1 x2 x3 x4 x5).1 S512x1.size (by sl_kernel_rfl) y

theorem cover0_B_6 (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : ¬ k0_cond1 i = 1#1) (hc2 : k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) (xo7 : Vec F S1x4096 .f32) (y : S512x1.Idx) :
    ∃ pc ∈ (kernelRun0_B c i arg1 harg1 arg2 harg2 arg3 harg3 arg4 harg4 arg5 harg5 arg6 harg6 arg7 harg7 arg8 harg8 arg9 harg9 arg10 harg10 hc1 hc2 x0 x1 x2 x3 x4 x5 xo7).1, y ∈ pc.1.set :=
  View.cover_of_tiledL (kernelRun0_B c i arg1 harg1 arg2 harg2 arg3 harg3 arg4 harg4 arg5 harg5 arg6 harg6 arg7 harg7 arg8 harg8 arg9 harg9 arg10 harg10 hc1 hc2 x0 x1 x2 x3 x4 x5 xo7).1 S512x1.size (by sl_kernel_rfl) y

theorem cover0_A_7 (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : k0_cond1 i = 1#1) (hc2 : ¬ k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) (y : S1x4096.Idx) :
    ∃ pc ∈ (kernelRun0_A c i arg1 harg1 arg2 harg2 arg3 harg3 arg4 harg4 arg5 harg5 arg6 harg6 arg7 harg7 arg8 harg8 arg9 harg9 arg10 harg10 hc1 hc2 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 hc1 hc2 x0 x1 x2 x3 x4 x5).2.1 S1x4096.size (by sl_kernel_rfl) y

theorem cover0_B_7 (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : ¬ k0_cond1 i = 1#1) (hc2 : k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) (xo7 : Vec F S1x4096 .f32) (y : S1x4096.Idx) :
    ∃ pc ∈ (kernelRun0_B c i arg1 harg1 arg2 harg2 arg3 harg3 arg4 harg4 arg5 harg5 arg6 harg6 arg7 harg7 arg8 harg8 arg9 harg9 arg10 harg10 hc1 hc2 x0 x1 x2 x3 x4 x5 xo7).2.1, y ∈ pc.1.set :=
  View.cover_of_tiledL (kernelRun0_B c i arg1 harg1 arg2 harg2 arg3 harg3 arg4 harg4 arg5 harg5 arg6 harg6 arg7 harg7 arg8 harg8 arg9 harg9 arg10 harg10 hc1 hc2 x0 x1 x2 x3 x4 x5 xo7).2.1 S1x4096.size (by sl_kernel_rfl) y

theorem cover0_A_8 (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : k0_cond1 i = 1#1) (hc2 : ¬ k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) (y : S512x32.Idx) :
    ∃ pc ∈ (kernelRun0_A c i arg1 harg1 arg2 harg2 arg3 harg3 arg4 harg4 arg5 harg5 arg6 harg6 arg7 harg7 arg8 harg8 arg9 harg9 arg10 harg10 hc1 hc2 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc1 hc2 x0 x1 x2 x3 x4 x5).2.2.1 S512x32.size (by sl_kernel_rfl) y

theorem cover0_B_8 (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : ¬ k0_cond1 i = 1#1) (hc2 : k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) (xo7 : Vec F S1x4096 .f32) (y : S512x32.Idx) :
    ∃ pc ∈ (kernelRun0_B c i arg1 harg1 arg2 harg2 arg3 harg3 arg4 harg4 arg5 harg5 arg6 harg6 arg7 harg7 arg8 harg8 arg9 harg9 arg10 harg10 hc1 hc2 x0 x1 x2 x3 x4 x5 xo7).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc1 hc2 x0 x1 x2 x3 x4 x5 xo7).2.2.1 S512x32.size (by sl_kernel_rfl) y

theorem cover0_A_9 (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : k0_cond1 i = 1#1) (hc2 : ¬ k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) (y : S512x32.Idx) :
    ∃ pc ∈ (kernelRun0_A c i arg1 harg1 arg2 harg2 arg3 harg3 arg4 harg4 arg5 harg5 arg6 harg6 arg7 harg7 arg8 harg8 arg9 harg9 arg10 harg10 hc1 hc2 x0 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc1 hc2 x0 x1 x2 x3 x4 x5).2.2.2.1 S512x32.size (by sl_kernel_rfl) y

theorem cover0_B_9 (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x32 .f32) (harg6 : arg6.IsWhole) (arg7 : Memref sig .tc .vmem S512x1 .f32) (harg7 : arg7.IsWhole) (arg8 : Memref sig .tc .vmem S1x4096 .f32) (harg8 : arg8.IsWhole) (arg9 : Memref sig .tc .vmem S512x32 .f32) (harg9 : arg9.IsWhole) (arg10 : Memref sig .tc .vmem S512x32 .f32) (harg10 : arg10.IsWhole) (hc1 : ¬ k0_cond1 i = 1#1) (hc2 : k0_cond2 i = 1#1)
    (x0 : Vec F S512x4096 .f32) (x1 : Vec F S512x4096 .f32) (x2 : Vec F S512x4096 .f32) (x3 : Vec F S512x128 .f32) (x4 : Vec F S512x128 .f32) (x5 : Vec F S128x32 .f32) (xo7 : Vec F S1x4096 .f32) (y : S512x32.Idx) :
    ∃ pc ∈ (kernelRun0_B c i arg1 harg1 arg2 harg2 arg3 harg3 arg4 harg4 arg5 harg5 arg6 harg6 arg7 harg7 arg8 harg8 arg9 harg9 arg10 harg10 hc1 hc2 x0 x1 x2 x3 x4 x5 xo7).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc1 hc2 x0 x1 x2 x3 x4 x5 xo7).2.2.2.1 S512x32.size (by sl_kernel_rfl) y

section Data

-- the buffers' contents when the region is entered: the parameter everything below is stated at
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's run at the first point, on that point's staging buffers and input blocks. -/
abbrev runA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_1 t).mpr h0) (fun h => ((hcond0_2 t).mp h) h0) (iblk0 V c 0 t) (iblk0 V c 1 t) (iblk0 V c 2 t) (iblk0 V c 3 t) (iblk0 V c 4 t) (iblk0 V c 5 t)

/-- The body's run at a later point, the accumulator's buffer entering at `xo7`. -/
abbrev runB (c : Dev nD) (t : Fin cfg0.N) (h0 : ¬ t.val % 8 = 0) (xo7 : Vec F S1x4096 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_1 t).mp h)) ((hcond0_2 t).mpr h0) (iblk0 V c 0 t) (iblk0 V c 1 t) (iblk0 V c 2 t) (iblk0 V c 3 t) (iblk0 V c 4 t) (iblk0 V c 5 t) xo7

/-- What the first-point run leaves in output window 6's buffer: its pieces read back. -/
def outA6 (c : Dev nD) (t : Fin cfg0.N) (h0 : t.val % 8 = 0) : Vec F S512x1 .f32 :=
  VO0_6.read (Elt F) (VO0_6.writes (Elt F) VO0_6.junk (runA V c t h0).1)
/-- What a later-point run leaves in output window 6's buffer. -/
def outB6 (c : Dev nD) (t : Fin cfg0.N) (h0 : ¬ t.val % 8 = 0) (xo7 : Vec F S1x4096 .f32) : Vec F S512x1 .f32 :=
  VO0_6.read (Elt F) (VO0_6.writes (Elt F) VO0_6.junk (runB V c t h0 xo7).1)
/-- What the first-point run leaves in output window 7's buffer: its pieces read back. -/
def outA7 (c : Dev nD) (t : Fin cfg0.N) (h0 : t.val % 8 = 0) : Vec F S1x4096 .f32 :=
  VO0_7.read (Elt F) (VO0_7.writes (Elt F) VO0_7.junk (runA V c t h0).2.1)
/-- What a later-point run leaves in output window 7's buffer. -/
def outB7 (c : Dev nD) (t : Fin cfg0.N) (h0 : ¬ t.val % 8 = 0) (xo7 : Vec F S1x4096 .f32) : Vec F S1x4096 .f32 :=
  VO0_7.read (Elt F) (VO0_7.writes (Elt F) VO0_7.junk (runB V c t h0 xo7).2.1)
/-- What the first-point run leaves in output window 8's buffer: its pieces read back. -/
def outA8 (c : Dev nD) (t : Fin cfg0.N) (h0 : t.val % 8 = 0) : Vec F S512x32 .f32 :=
  VO0_8.read (Elt F) (VO0_8.writes (Elt F) VO0_8.junk (runA V c t h0).2.2.1)
/-- What a later-point run leaves in output window 8's buffer. -/
def outB8 (c : Dev nD) (t : Fin cfg0.N) (h0 : ¬ t.val % 8 = 0) (xo7 : Vec F S1x4096 .f32) : Vec F S512x32 .f32 :=
  VO0_8.read (Elt F) (VO0_8.writes (Elt F) VO0_8.junk (runB V c t h0 xo7).2.2.1)
/-- What the first-point run leaves in output window 9's buffer: its pieces read back. -/
def outA9 (c : Dev nD) (t : Fin cfg0.N) (h0 : t.val % 8 = 0) : Vec F S512x32 .f32 :=
  VO0_9.read (Elt F) (VO0_9.writes (Elt F) VO0_9.junk (runA V c t h0).2.2.2.1)
/-- What a later-point run leaves in output window 9's buffer. -/
def outB9 (c : Dev nD) (t : Fin cfg0.N) (h0 : ¬ t.val % 8 = 0) (xo7 : Vec F S1x4096 .f32) : Vec F S512x32 .f32 :=
  VO0_9.read (Elt F) (VO0_9.writes (Elt F) VO0_9.junk (runB V c t h0 xo7).2.2.2.1)

/-- THE ACCUMULATION: the column-degree buffer after the body at position `n` — the first point's column sums, then
    each later point's added to what the point before left. -/
def acc0 (c : Dev nD) : (n : ℕ) → n < cfg0.N → Vec F S1x4096 .f32
  | 0, hn => outA7 V c ⟨0, hn⟩ (Nat.zero_mod _)
  | n + 1, hn =>
    if h0 : (n + 1) % 8 = 0 then outA7 V c ⟨n + 1, hn⟩ h0
    else outB7 V c ⟨n + 1, hn⟩ h0 (acc0 c n (Nat.lt_of_succ_lt hn))

/-- The accumulator as the point before left it (at the first point: irrelevant). -/
abbrev prev0 (c : Dev nD) (t : Fin cfg0.N) : Vec F S1x4096 .f32 :=
  acc0 V c (t.val - 1) (Nat.lt_of_le_of_lt (Nat.sub_le _ _) t.isLt)

theorem acc0_A (c : Dev nD) (t : Fin cfg0.N) (h0 : t.val % 8 = 0) : acc0 V c t.val t.isLt = outA7 V c t h0 := by
  obtain ⟨n, hn⟩ := t
  cases n with
  | zero => exact rfl
  | succ n => exact (dif_pos h0).trans rfl

theorem acc0_B (c : Dev nD) (t : Fin cfg0.N) (h0 : ¬ t.val % 8 = 0) : acc0 V c t.val t.isLt = outB7 V c t h0 (prev0 V c t) := by
  obtain ⟨n, hn⟩ := t
  cases n with
  | zero => exact (by exfalso; (try dsimp only at h0); exact absurd (Nat.zero_mod _) h0)
  | succ n => exact (dif_neg h0).trans rfl

/-- Output window 6's buffer after the body at point `t`. -/
def out6At (c : Dev nD) (t : Fin cfg0.N) : Vec F S512x1 .f32 :=
  if h0 : t.val % 8 = 0 then outA6 V c t h0 else outB6 V c t h0 (prev0 V c t)
theorem out6At_A (c : Dev nD) (t : Fin cfg0.N) (h0 : t.val % 8 = 0) : out6At V c t = outA6 V c t h0 := dif_pos h0
theorem out6At_B (c : Dev nD) (t : Fin cfg0.N) (h0 : ¬ t.val % 8 = 0) : out6At V c t = outB6 V c t h0 (prev0 V c t) := dif_neg h0
/-- Output window 8's buffer after the body at point `t`. -/
def out8At (c : Dev nD) (t : Fin cfg0.N) : Vec F S512x32 .f32 :=
  if h0 : t.val % 8 = 0 then outA8 V c t h0 else outB8 V c t h0 (prev0 V c t)
theorem out8At_A (c : Dev nD) (t : Fin cfg0.N) (h0 : t.val % 8 = 0) : out8At V c t = outA8 V c t h0 := dif_pos h0
theorem out8At_B (c : Dev nD) (t : Fin cfg0.N) (h0 : ¬ t.val % 8 = 0) : out8At V c t = outB8 V c t h0 (prev0 V c t) := dif_neg h0
/-- Output window 9's buffer after the body at point `t`. -/
def out9At (c : Dev nD) (t : Fin cfg0.N) : Vec F S512x32 .f32 :=
  if h0 : t.val % 8 = 0 then outA9 V c t h0 else outB9 V c t h0 (prev0 V c t)
theorem out9At_A (c : Dev nD) (t : Fin cfg0.N) (h0 : t.val % 8 = 0) : out9At V c t = outA9 V c t h0 := dif_pos h0
theorem out9At_B (c : Dev nD) (t : Fin cfg0.N) (h0 : ¬ t.val % 8 = 0) : out9At V c t = outB9 V c t h0 (prev0 V c t) := dif_neg h0

/-! ## The proof data -/

/-- The region's proof data on core `c`: the arrays as the region finds them; after the body at point `t` each input's
    buffer at its block, each output's at what the point's run leaves; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out6At V c t
    | ⟨7, _⟩ => acc0 V c t.val t.isLt
    | ⟨8, _⟩ => out8At V c t
    | ⟨9, _⟩ => out9At V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out6At V c t := by dsimp only [dat0]
theorem after0_7 (c : Dev nD) (t : Fin cfg0.N) : (dat0 V c).after 7 t = acc0 V c t.val t.isLt := by dsimp only [dat0]
theorem after0_8 (c : Dev nD) (t : Fin cfg0.N) : (dat0 V c).after 8 t = out8At V c t := by dsimp only [dat0]
theorem after0_9 (c : Dev nD) (t : Fin cfg0.N) : (dat0 V c).after 9 t = out9At V c t := by dsimp only [dat0]

/-- Input window 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Input window 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Input window 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
/-- Input window 3's current staging buffer holds its block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
/-- Input window 4's current staging buffer holds its block at every point, fetched there or not. -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
/-- Input window 5's current staging buffer holds its block at every point, fetched there or not. -/
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

/-- At a later point the accumulator's buffer holds what the body left at the point before: it is written back only
    after the last point. -/
theorem before0_7_B (c : Dev nD) (t : Fin cfg0.N) (h0 : ¬ t.val % 8 = 0) (d) :
    (dat0 V c).before 7 t d = prev0 V c t := by
  have hN : t.val < 8 := lt_of_lt_of_eq t.isLt (show cfg0.N = 8 from N_0)
  rw [Dat.before_out_kept _ 7 rfl t (by omega) (Bool.eq_false_iff.mpr fun h => by have := (flush0_7 _).mp h; dsimp only at this; omega)
    live0_7 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- What the body hands back: every window's buffer as the point leaves it (no window is idle, so each is at its
    contents after the body). -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

theorem leaves0_0 (c : Dev nD) (t : Fin cfg0.N) :
    (dat0 V c).leavesExact 0 t = owns (c : Thread nD τ) (ms0_0 t) fullShare ((dat0 V c).after 0 t) := by
  unfold Dat.leavesExact; rw [liveAt0_0 t]
theorem leaves0_1 (c : Dev nD) (t : Fin cfg0.N) :
    (dat0 V c).leavesExact 1 t = owns (c : Thread nD τ) (ms0_1 t) fullShare ((dat0 V c).after 1 t) := by
  unfold Dat.leavesExact; rw [liveAt0_1 t]
theorem leaves0_2 (c : Dev nD) (t : Fin cfg0.N) :
    (dat0 V c).leavesExact 2 t = owns (c : Thread nD τ) (ms0_2 t) fullShare ((dat0 V c).after 2 t) := by
  unfold Dat.leavesExact; rw [liveAt0_2 t]
theorem leaves0_3 (c : Dev nD) (t : Fin cfg0.N) :
    (dat0 V c).leavesExact 3 t = owns (c : Thread nD τ) (ms0_3 t) fullShare ((dat0 V c).after 3 t) := by
  unfold Dat.leavesExact; rw [liveAt0_3 t]
theorem leaves0_4 (c : Dev nD) (t : Fin cfg0.N) :
    (dat0 V c).leavesExact 4 t = owns (c : Thread nD τ) (ms0_4 t) fullShare ((dat0 V c).after 4 t) := by
  unfold Dat.leavesExact; rw [liveAt0_4 t]
theorem leaves0_5 (c : Dev nD) (t : Fin cfg0.N) :
    (dat0 V c).leavesExact 5 t = owns (c : Thread nD τ) (ms0_5 t) fullShare ((dat0 V c).after 5 t) := by
  unfold Dat.leavesExact; rw [liveAt0_5 t]
theorem leaves0_6 (c : Dev nD) (t : Fin cfg0.N) :
    (dat0 V c).leavesExact 6 t = owns (c : Thread nD τ) (ms0_6 t) fullShare ((dat0 V c).after 6 t) := by
  unfold Dat.leavesExact; rw [liveAt0_6 t]
theorem leaves0_7 (c : Dev nD) (t : Fin cfg0.N) :
    (dat0 V c).leavesExact 7 t = owns (c : Thread nD τ) (ms0_7 t) fullShare ((dat0 V c).after 7 t) := by
  unfold Dat.leavesExact; rw [liveAt0_7 t]
theorem leaves0_8 (c : Dev nD) (t : Fin cfg0.N) :
    (dat0 V c).leavesExact 8 t = owns (c : Thread nD τ) (ms0_8 t) fullShare ((dat0 V c).after 8 t) := by
  unfold Dat.leavesExact; rw [liveAt0_8 t]
theorem leaves0_9 (c : Dev nD) (t : Fin cfg0.N) :
    (dat0 V c).leavesExact 9 t = owns (c : Thread nD τ) (ms0_9 t) fullShare ((dat0 V c).after 9 t) := by
  unfold Dat.leavesExact; rw [liveAt0_9 t]

set_option maxHeartbeats 1600000 in
/-- The body at any point: the inputs' buffers hold their blocks; the point is the first or a later one; at a later one
    the accumulator's buffer holds what the point before left; so that point's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [leaves0_0, leaves0_1, leaves0_2, leaves0_3, leaves0_4, leaves0_5, leaves0_6, leaves0_7, leaves0_8, leaves0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  by_cases h0 : t.val % 8 = 0
  · rw [out6At_A V c t h0, acc0_A V c t h0, out8At_A V c t h0, out9At_A V c t h0]
    unfold outA6 outA7 outA8 outA9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA V c t h0).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    iintro ⟨H0, H1, H2, H3, H4, H5, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _)
  · rw [out6At_B V c t h0, acc0_B V c t h0, out8At_B V c t h0, out9At_B V c t h0]
    simp only [before0_7_B V c t h0]
    unfold outB6 outB7 outB8 outB9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB V c t h0 (prev0 V c t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexists _; iexact H8
    isplitl [H9]; · iexists _; iexact H9
    iintro ⟨H0, H1, H2, H3, H4, H5, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _)
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _)

end Data

end Cert.Kernel.Hand

end
-- ==== Proof.KR0Obl.lean ====
import proofs.«139708_g36129264894619_cont_8to1_b_1456_17_alg».proof.Proof.KR0Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree-and-projection region: the body obligation in the library's form -/

variable (V : (c : Dev nD) → (b : Ref sig .tc) → Buf (Elt F) ((c : Thread nD τ).loc b))

set_option maxHeartbeats 1600000 in
/-- The library's body obligation, at every point: its statement, the windows conjoined one by one, is `sound_body0`'s. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1Conds.lean ====
import proofs.«139708_g36129264894619_cont_8to1_b_1456_17_alg».proof.Proof.Gen.Kernel.Launch
import proofs.«139708_g36129264894619_cont_8to1_b_1456_17_alg».proof.Proof.Gen.Kernel.Skeleton
import proofs.«139708_g36129264894619_cont_8to1_b_1456_17_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The new-source-features region: which branch a grid point takes

The first grid point overwrites the transposed-product accumulator; every later point adds into it. -/

/-- The first conditional of the body (overwrite the accumulator) is taken at the first point only. -/
theorem hcond1_1 : ∀ t : Fin cfg1.N, k1_cond1 (grid1.coords t) = 1#1 ↔ t.val % 8 = 0 :=
  (by decide +kernel : ∀ t : Fin grid1.N, k1_cond1 (grid1.coords t) = 1#1 ↔ t.val % 8 = 0)

/-- The second conditional (add into the accumulator) is taken at every point but the first. -/
theorem hcond1_2 : ∀ t : Fin cfg1.N, k1_cond2 (grid1.coords t) = 1#1 ↔ ¬ t.val % 8 = 0 :=
  (by decide +kernel : ∀ t : Fin grid1.N, k1_cond2 (grid1.coords t) = 1#1 ↔ ¬ t.val % 8 = 0)

end Cert.Kernel.Hand

end
-- ==== Proof.KR1RunA.lean ====
import proofs.«139708_g36129264894619_cont_8to1_b_1456_17_alg».proof.Proof.KR1Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The new-source-features body at the FIRST grid point

The body loads the two adjacency row blocks, the whole projected features of both sides, the two degree columns, and the
512-row slices of the source features and of the row-degree column at this block's row offset; it stores the new
feature block whole and OVERWRITES the transposed-product accumulator with this block's contribution. What each output
buffer ends with is found by running the body. -/

set_option maxHeartbeats 4000000 in
/-- What the body's stores leave in each output's staging buffer, as pieces, at a point where the overwrite branch
    is taken and the accumulate branch is not — with the proof that the body runs from whole staging buffers (the
    inputs at their contents, the outputs at anything) to the inputs unchanged and the outputs with those pieces written. -/
noncomputable def kernelRun1_A (c : Dev nD) (i : grid1.Coords) (arg1 : Memref sig .tc .vmem S512x4096 .f32) (harg1 : arg1.IsWhole) (arg2 : Memref sig .tc .vmem S512x4096 .f32) (harg2 : arg2.IsWhole) (arg3 : Memref sig .tc .vmem S4096x32 .f32) (harg3 : arg3.IsWhole) (arg4 : Memref sig .tc .vmem S4096x32 .f32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S512x32 .f32) (harg7 : arg7.IsWhole) (arg8 : Memref sig .tc .vmem S4096x32 .f32) (harg8 : arg8.IsWhole) (hc1 : k1_cond1 i = 1#1) (hc2 : ¬ k1_cond2 i = 1#1)
    (x0 : Vec F S512x4096 .f32) (x1 : Vec F S512x4096 .f32) (x2 : Vec F S4096x32 .f32) (x3 : Vec F S4096x32 .f32) (x4 : Vec F S4096x1 .f32) (x5 : Vec F S4096x1 .f32) :
    Σ' (L6 : List (View.Piece (Elt F) S512x32 .f32)), { L7 : List (View.Piece (Elt F) S4096x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)) -∗ K ⟨⟩))
          ⊢ wp frame (wpE (defs₀ (F := F)) Variants.none c none) E (cc1__xnew_kernel i arg1 harg1 arg2 harg2 arg3 harg3 arg4 harg4 arg5 harg5 arg6 harg6 arg7 harg7 arg8 harg8) K } := by
  refine ⟨?_, ?_, fun E K => ?run⟩
  case run =>
    simp only [cc1__xnew_kernel_eq_skeleton]; unfold cc1__xnew_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.Kernel.Hand

end
-- ==== Proof.KR1RunB.lean ====
import proofs.«139708_g36129264894619_cont_8to1_b_1456_17_alg».proof.Proof.KR1Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The new-source-features body at a LATER grid point

As at the first point, except that the transposed-product accumulator is read and this block's contribution is ADDED
to what the point before left in it. -/

set_option maxHeartbeats 4000000 in
/-- What the body's stores leave in each output's staging buffer, as pieces, at a point where the accumulate
    branch is taken and the overwrite branch is not: the accumulator's buffer enters at its running contents. -/
noncomputable def kernelRun1_B (c : Dev nD) (i : grid1.Coords) (arg1 : Memref sig .tc .vmem S512x4096 .f32) (harg1 : arg1.IsWhole) (arg2 : Memref sig .tc .vmem S512x4096 .f32) (harg2 : arg2.IsWhole) (arg3 : Memref sig .tc .vmem S4096x32 .f32) (harg3 : arg3.IsWhole) (arg4 : Memref sig .tc .vmem S4096x32 .f32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S512x32 .f32) (harg7 : arg7.IsWhole) (arg8 : Memref sig .tc .vmem S4096x32 .f32) (harg8 : arg8.IsWhole) (hc1 : ¬ k1_cond1 i = 1#1) (hc2 : k1_cond2 i = 1#1)
    (x0 : Vec F S512x4096 .f32) (x1 : Vec F S512x4096 .f32) (x2 : Vec F S4096x32 .f32) (x3 : Vec F S4096x32 .f32) (x4 : Vec F S4096x1 .f32) (x5 : Vec F S4096x1 .f32) (xo7 : Vec F S4096x32 .f32) :
    Σ' (L6 : List (View.Piece (Elt F) S512x32 .f32)), { L7 : List (View.Piece (Elt F) S4096x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)) -∗ K ⟨⟩))
          ⊢ wp frame (wpE (defs₀ (F := F)) Variants.none c none) E (cc1__xnew_kernel i arg1 harg1 arg2 harg2 arg3 harg3 arg4 harg4 arg5 harg5 arg6 harg6 arg7 harg7 arg8 harg8) K } := by
  refine ⟨?_, ?_, fun E K => ?run⟩
  case run =>
    simp only [cc1__xnew_kernel_eq_skeleton]; unfold cc1__xnew_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.Kernel.Hand

end
-- ==== Proof.KR1Frame.lean ====
import proofs.«139708_g36129264894619_cont_8to1_b_1456_17_alg».proof.Proof.KR1RunA
import proofs.«139708_g36129264894619_cont_8to1_b_1456_17_alg».proof.Proof.KR1RunB
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The new-source-features region: what its buffers hold point by point, and its body obligation

The grid has eight points, one per block of 512 rows. At every point the body stores the new feature block whole; the
transposed-product accumulator is overwritten at the first point and added to afterwards, and is written back once,
after the last point. -/

abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S4096x32 .f32 := win1_7.stage (cfg1.slots t 7)
abbrev hs1_7 (t : Fin cfg1.N) : (ms1_7 t).IsWhole := hstage1_7 ((cfg1.slots t 7).cast nbuf1_7)

/-- One staging buffer of each output window, through which its contents are stated. -/
abbrev VO1_6 : View sig .tc .vmem S512x32 .f32 := (Memref.whole cc1_stg6_0 : Memref sig .tc .vmem S512x32 .f32).view
abbrev VO1_7 : View sig .tc .vmem S4096x32 .f32 := (Memref.whole cc1_stg7_0 : Memref sig .tc .vmem S4096x32 .f32).view

/-- The accumulator's window is live at every grid point: one of the two branches that store it is always taken. -/
theorem live1_7 : ∀ i : grid1.Coords, cfg1.idle 7 i = false := by decide +kernel

/-- No window is idle at any grid point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel

/-! ## The pieces each branch writes cover each output buffer -/

theorem cover1_A_6 (c : Dev nD) (i : grid1.Coords) (arg1 : Memref sig .tc .vmem S512x4096 .f32) (harg1 : arg1.IsWhole) (arg2 : Memref sig .tc .vmem S512x4096 .f32) (harg2 : arg2.IsWhole) (arg3 : Memref sig .tc .vmem S4096x32 .f32) (harg3 : arg3.IsWhole) (arg4 : Memref sig .tc .vmem S4096x32 .f32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S512x32 .f32) (harg7 : arg7.IsWhole) (arg8 : Memref sig .tc .vmem S4096x32 .f32) (harg8 : arg8.IsWhole) (hc1 : k1_cond1 i = 1#1) (hc2 : ¬ k1_cond2 i = 1#1)
    (x0 : Vec F S512x4096 .f32) (x1 : Vec F S512x4096 .f32) (x2 : Vec F S4096x32 .f32) (x3 : Vec F S4096x32 .f32) (x4 : Vec F S4096x1 .f32) (x5 : Vec F S4096x1 .f32) (y : S512x32.Idx) :
    ∃ pc ∈ (kernelRun1_A c i arg1 harg1 arg2 harg2 arg3 harg3 arg4 harg4 arg5 harg5 arg6 harg6 arg7 harg7 arg8 harg8 hc1 hc2 x0 x1 x2 x3 x4 x5).1, y ∈ pc.1.set :=
  View.cover_of_tiledL (kernelRun1_A c i arg1 harg1 arg2 harg2 arg3 harg3 arg4 harg4 arg5 harg5 arg6 harg6 arg7 harg7 arg8 harg8 hc1 hc2 x0 x1 x2 x3 x4 x5).1 S512x32.size (by sl_kernel_rfl) y

theorem cover1_B_6 (c : Dev nD) (i : grid1.Coords) (arg1 : Memref sig .tc .vmem S512x4096 .f32) (harg1 : arg1.IsWhole) (arg2 : Memref sig .tc .vmem S512x4096 .f32) (harg2 : arg2.IsWhole) (arg3 : Memref sig .tc .vmem S4096x32 .f32) (harg3 : arg3.IsWhole) (arg4 : Memref sig .tc .vmem S4096x32 .f32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S512x32 .f32) (harg7 : arg7.IsWhole) (arg8 : Memref sig .tc .vmem S4096x32 .f32) (harg8 : arg8.IsWhole) (hc1 : ¬ k1_cond1 i = 1#1) (hc2 : k1_cond2 i = 1#1)
    (x0 : Vec F S512x4096 .f32) (x1 : Vec F S512x4096 .f32) (x2 : Vec F S4096x32 .f32) (x3 : Vec F S4096x32 .f32) (x4 : Vec F S4096x1 .f32) (x5 : Vec F S4096x1 .f32) (xo7 : Vec F S4096x32 .f32) (y : S512x32.Idx) :
    ∃ pc ∈ (kernelRun1_B c i arg1 harg1 arg2 harg2 arg3 harg3 arg4 harg4 arg5 harg5 arg6 harg6 arg7 harg7 arg8 harg8 hc1 hc2 x0 x1 x2 x3 x4 x5 xo7).1, y ∈ pc.1.set :=
  View.cover_of_tiledL (kernelRun1_B c i arg1 harg1 arg2 harg2 arg3 harg3 arg4 harg4 arg5 harg5 arg6 harg6 arg7 harg7 arg8 harg8 hc1 hc2 x0 x1 x2 x3 x4 x5 xo7).1 S512x32.size (by sl_kernel_rfl) y

theorem cover1_A_7 (c : Dev nD) (i : grid1.Coords) (arg1 : Memref sig .tc .vmem S512x4096 .f32) (harg1 : arg1.IsWhole) (arg2 : Memref sig .tc .vmem S512x4096 .f32) (harg2 : arg2.IsWhole) (arg3 : Memref sig .tc .vmem S4096x32 .f32) (harg3 : arg3.IsWhole) (arg4 : Memref sig .tc .vmem S4096x32 .f32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S512x32 .f32) (harg7 : arg7.IsWhole) (arg8 : Memref sig .tc .vmem S4096x32 .f32) (harg8 : arg8.IsWhole) (hc1 : k1_cond1 i = 1#1) (hc2 : ¬ k1_cond2 i = 1#1)
    (x0 : Vec F S512x4096 .f32) (x1 : Vec F S512x4096 .f32) (x2 : Vec F S4096x32 .f32) (x3 : Vec F S4096x32 .f32) (x4 : Vec F S4096x1 .f32) (x5 : Vec F S4096x1 .f32) (y : S4096x32.Idx) :
    ∃ pc ∈ (kernelRun1_A c i arg1 harg1 arg2 harg2 arg3 harg3 arg4 harg4 arg5 harg5 arg6 harg6 arg7 harg7 arg8 harg8 hc1 hc2 x0 x1 x2 x3 x4 x5).2.1, y ∈ pc.1.set :=
  View.cover_of_tiledL (kernelRun1_A c i arg1 harg1 arg2 harg2 arg3 harg3 arg4 harg4 arg5 harg5 arg6 harg6 arg7 harg7 arg8 harg8 hc1 hc2 x0 x1 x2 x3 x4 x5).2.1 S4096x32.size (by sl_kernel_rfl) y

theorem cover1_B_7 (c : Dev nD) (i : grid1.Coords) (arg1 : Memref sig .tc .vmem S512x4096 .f32) (harg1 : arg1.IsWhole) (arg2 : Memref sig .tc .vmem S512x4096 .f32) (harg2 : arg2.IsWhole) (arg3 : Memref sig .tc .vmem S4096x32 .f32) (harg3 : arg3.IsWhole) (arg4 : Memref sig .tc .vmem S4096x32 .f32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S512x32 .f32) (harg7 : arg7.IsWhole) (arg8 : Memref sig .tc .vmem S4096x32 .f32) (harg8 : arg8.IsWhole) (hc1 : ¬ k1_cond1 i = 1#1) (hc2 : k1_cond2 i = 1#1)
    (x0 : Vec F S512x4096 .f32) (x1 : Vec F S512x4096 .f32) (x2 : Vec F S4096x32 .f32) (x3 : Vec F S4096x32 .f32) (x4 : Vec F S4096x1 .f32) (x5 : Vec F S4096x1 .f32) (xo7 : Vec F S4096x32 .f32) (y : S4096x32.Idx) :
    ∃ pc ∈ (kernelRun1_B c i arg1 harg1 arg2 harg2 arg3 harg3 arg4 harg4 arg5 harg5 arg6 harg6 arg7 harg7 arg8 harg8 hc1 hc2 x0 x1 x2 x3 x4 x5 xo7).2.1, y ∈ pc.1.set :=
  View.cover_of_tiledL (kernelRun1_B c i arg1 harg1 arg2 harg2 arg3 harg3 arg4 harg4 arg5 harg5 arg6 harg6 arg7 harg7 arg8 harg8 hc1 hc2 x0 x1 x2 x3 x4 x5 xo7).2.1 S4096x32.size (by sl_kernel_rfl) y

section Data

-- the buffers' contents when the region is entered: the parameter everything below is stated at
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's run at the first point, on that point's staging buffers and input blocks. -/
abbrev run1A (c : Dev nD) (t : Fin cfg1.N) (h0 : t.val % 8 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_1 t).mpr h0) (fun h => ((hcond1_2 t).mp h) h0) (iblk1 V c 0 t) (iblk1 V c 1 t) (iblk1 V c 2 t) (iblk1 V c 3 t) (iblk1 V c 4 t) (iblk1 V c 5 t)

/-- The body's run at a later point, the accumulator's buffer entering at `xo7`. -/
abbrev run1B (c : Dev nD) (t : Fin cfg1.N) (h0 : ¬ t.val % 8 = 0) (xo7 : Vec F S4096x32 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_1 t).mp h)) ((hcond1_2 t).mpr h0) (iblk1 V c 0 t) (iblk1 V c 1 t) (iblk1 V c 2 t) (iblk1 V c 3 t) (iblk1 V c 4 t) (iblk1 V c 5 t) xo7

/-- What the first-point run leaves in the new-feature block's buffer: its pieces read back. -/
def o1A6 (c : Dev nD) (t : Fin cfg1.N) (h0 : t.val % 8 = 0) : Vec F S512x32 .f32 :=
  VO1_6.read (Elt F) (VO1_6.writes (Elt F) VO1_6.junk (run1A V c t h0).1)
/-- What a later-point run leaves in the new-feature block's buffer. -/
def o1B6 (c : Dev nD) (t : Fin cfg1.N) (h0 : ¬ t.val % 8 = 0) (xo7 : Vec F S4096x32 .f32) : Vec F S512x32 .f32 :=
  VO1_6.read (Elt F) (VO1_6.writes (Elt F) VO1_6.junk (run1B V c t h0 xo7).1)
/-- What the first-point run leaves in the accumulator's buffer: its pieces read back. -/
def o1A7 (c : Dev nD) (t : Fin cfg1.N) (h0 : t.val % 8 = 0) : Vec F S4096x32 .f32 :=
  VO1_7.read (Elt F) (VO1_7.writes (Elt F) VO1_7.junk (run1A V c t h0).2.1)
/-- What a later-point run leaves in the accumulator's buffer. -/
def o1B7 (c : Dev nD) (t : Fin cfg1.N) (h0 : ¬ t.val % 8 = 0) (xo7 : Vec F S4096x32 .f32) : Vec F S4096x32 .f32 :=
  VO1_7.read (Elt F) (VO1_7.writes (Elt F) VO1_7.junk (run1B V c t h0 xo7).2.1)

/-- THE ACCUMULATION: the transposed-product buffer after the body at position `n` — the first point's contribution,
    then each later point's added to what the point before left. -/
def acc1 (c : Dev nD) : (n : ℕ) → n < cfg1.N → Vec F S4096x32 .f32
  | 0, hn => o1A7 V c ⟨0, hn⟩ (Nat.zero_mod _)
  | n + 1, hn =>
    if h0 : (n + 1) % 8 = 0 then o1A7 V c ⟨n + 1, hn⟩ h0
    else o1B7 V c ⟨n + 1, hn⟩ h0 (acc1 c n (Nat.lt_of_succ_lt hn))

/-- The accumulator as the point before left it (at the first point: irrelevant). -/
abbrev prev1 (c : Dev nD) (t : Fin cfg1.N) : Vec F S4096x32 .f32 :=
  acc1 V c (t.val - 1) (Nat.lt_of_le_of_lt (Nat.sub_le _ _) t.isLt)

theorem acc1_A (c : Dev nD) (t : Fin cfg1.N) (h0 : t.val % 8 = 0) : acc1 V c t.val t.isLt = o1A7 V c t h0 := by
  obtain ⟨n, hn⟩ := t
  cases n with
  | zero => exact rfl
  | succ n => exact (dif_pos h0).trans rfl

theorem acc1_B (c : Dev nD) (t : Fin cfg1.N) (h0 : ¬ t.val % 8 = 0) : acc1 V c t.val t.isLt = o1B7 V c t h0 (prev1 V c t) := by
  obtain ⟨n, hn⟩ := t
  cases n with
  | zero => exact (by exfalso; (try dsimp only at h0); exact absurd (Nat.zero_mod _) h0)
  | succ n => exact (dif_neg h0).trans rfl

/-- The new-feature block's buffer after the body at point `t`. -/
def out1_6At (c : Dev nD) (t : Fin cfg1.N) : Vec F S512x32 .f32 :=
  if h0 : t.val % 8 = 0 then o1A6 V c t h0 else o1B6 V c t h0 (prev1 V c t)
theorem out1_6At_A (c : Dev nD) (t : Fin cfg1.N) (h0 : t.val % 8 = 0) : out1_6At V c t = o1A6 V c t h0 := dif_pos h0
theorem out1_6At_B (c : Dev nD) (t : Fin cfg1.N) (h0 : ¬ t.val % 8 = 0) : out1_6At V c t = o1B6 V c t h0 (prev1 V c t) := dif_neg h0

/-! ## The proof data -/

/-- The region's proof data on core `c`: the arrays as the region finds them; after the body at point `t` each input's
    buffer at its block, each output's at what the point's run leaves; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6At V c t
    | ⟨7, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6At V c t := by dsimp only [dat1]
theorem after1_7 (c : Dev nD) (t : Fin cfg1.N) : (dat1 V c).after 7 t = acc1 V c t.val t.isLt := by dsimp only [dat1]

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- Input window 3's current staging buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- Input window 4's current staging buffer holds its block at every point, fetched there or not. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
/-- Input window 5's current staging buffer holds its block at every point, fetched there or not. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-- At a later point the accumulator's buffer holds what the body left at the point before: it is written back only
    after the last point. -/
theorem before1_7_B (c : Dev nD) (t : Fin cfg1.N) (h0 : ¬ t.val % 8 = 0) (d) :
    (dat1 V c).before 7 t d = prev1 V c t := by
  have hN : t.val < 8 := lt_of_lt_of_eq t.isLt (show cfg1.N = 8 from N_1)
  rw [Dat.before_out_kept _ 7 rfl t (by omega) (Bool.eq_false_iff.mpr fun h => by have := (flush1_7 _).mp h; dsimp only at this; omega)
    live1_7 (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- What the body hands back: every window's buffer as the point leaves it (no window is idle). -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem leaves1_0 (c : Dev nD) (t : Fin cfg1.N) :
    (dat1 V c).leavesExact 0 t = owns (c : Thread nD τ) (ms1_0 t) fullShare ((dat1 V c).after 0 t) := by
  unfold Dat.leavesExact; rw [liveAt1_0 t]
theorem leaves1_1 (c : Dev nD) (t : Fin cfg1.N) :
    (dat1 V c).leavesExact 1 t = owns (c : Thread nD τ) (ms1_1 t) fullShare ((dat1 V c).after 1 t) := by
  unfold Dat.leavesExact; rw [liveAt1_1 t]
theorem leaves1_2 (c : Dev nD) (t : Fin cfg1.N) :
    (dat1 V c).leavesExact 2 t = owns (c : Thread nD τ) (ms1_2 t) fullShare ((dat1 V c).after 2 t) := by
  unfold Dat.leavesExact; rw [liveAt1_2 t]
theorem leaves1_3 (c : Dev nD) (t : Fin cfg1.N) :
    (dat1 V c).leavesExact 3 t = owns (c : Thread nD τ) (ms1_3 t) fullShare ((dat1 V c).after 3 t) := by
  unfold Dat.leavesExact; rw [liveAt1_3 t]
theorem leaves1_4 (c : Dev nD) (t : Fin cfg1.N) :
    (dat1 V c).leavesExact 4 t = owns (c : Thread nD τ) (ms1_4 t) fullShare ((dat1 V c).after 4 t) := by
  unfold Dat.leavesExact; rw [liveAt1_4 t]
theorem leaves1_5 (c : Dev nD) (t : Fin cfg1.N) :
    (dat1 V c).leavesExact 5 t = owns (c : Thread nD τ) (ms1_5 t) fullShare ((dat1 V c).after 5 t) := by
  unfold Dat.leavesExact; rw [liveAt1_5 t]
theorem leaves1_6 (c : Dev nD) (t : Fin cfg1.N) :
    (dat1 V c).leavesExact 6 t = owns (c : Thread nD τ) (ms1_6 t) fullShare ((dat1 V c).after 6 t) := by
  unfold Dat.leavesExact; rw [liveAt1_6 t]
theorem leaves1_7 (c : Dev nD) (t : Fin cfg1.N) :
    (dat1 V c).leavesExact 7 t = owns (c : Thread nD τ) (ms1_7 t) fullShare ((dat1 V c).after 7 t) := by
  unfold Dat.leavesExact; rw [liveAt1_7 t]

set_option maxHeartbeats 1600000 in
/-- The body at any point: the inputs' buffers hold their blocks; the point is the first or a later one; at a later one
    the accumulator's buffer holds what the point before left; so that point's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [leaves1_0, leaves1_1, leaves1_2, leaves1_3, leaves1_4, leaves1_5, leaves1_6, leaves1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  by_cases h0 : t.val % 8 = 0
  · rw [out1_6At_A V c t h0, acc1_A V c t h0]
    unfold o1A6 o1A7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run1A V c t h0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_A_6 c _ _ _ _ _ _ _ _ _ _ _ _ _ _ _ _ _ _ _ _ _ _ _ _ _)
    unfold owns; iexists _; isplitr
    swap; · iexact H7
    ipureintro; exact View.read_writes_of_cover _ _ _ _ _ (cover1_A_7 c _ _ _ _ _ _ _ _ _ _ _ _ _ _ _ _ _ _ _ _ _ _ _ _ _)
  · rw [out1_6At_B V c t h0, acc1_B V c t h0]
    simp only [before1_7_B V c t h0]
    unfold o1B6 o1B7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run1B V c t h0 (prev1 V c t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_B_6 c _ _ _ _ _ _ _ _ _ _ _ _ _ _ _ _ _ _ _ _ _ _ _ _ _ _)
    unfold owns; iexists _; isplitr
    swap; · iexact H7
    ipureintro; exact View.read_writes_of_cover _ _ _ _ _ (cover1_B_7 c _ _ _ _ _ _ _ _ _ _ _ _ _ _ _ _ _ _ _ _ _ _ _ _ _ _)

end Data

end Cert.Kernel.Hand

end
-- ==== Proof.KR1Obl.lean ====
import proofs.«139708_g36129264894619_cont_8to1_b_1456_17_alg».proof.Proof.KR1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The new-source-features region: the body obligation in the library's form -/

variable (V : (c : Dev nD) → (b : Ref sig .tc) → Buf (Elt F) ((c : Thread nD τ).loc b))

set_option maxHeartbeats 1600000 in
/-- The library's body obligation, at every point: its statement, the windows conjoined one by one, is `sound_body1`'s. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KR2Run.lean ====
import proofs.«139708_g36129264894619_cont_8to1_b_1456_17_alg».proof.Proof.Gen.Kernel.Launch
import proofs.«139708_g36129264894619_cont_8to1_b_1456_17_alg».proof.Proof.Gen.Kernel.Skeleton
import proofs.«139708_g36129264894619_cont_8to1_b_1456_17_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The new-target-features body at a grid point

The body loads the row block of the target-side adjacency matrix, the whole projected target features, the whole
column-degree column and the whole transposed term, and again the 512-row slices of the last three at this block's
row offset; it stores the new feature block whole. There is no branch: one run serves every point. What the output
buffer ends with is found by running the body. -/

set_option maxHeartbeats 4000000 in
/-- What the body's store leaves in the output's staging buffer, as pieces — with the proof that the body runs from
    whole staging buffers (the inputs at their contents, the output at anything) to the inputs unchanged and the
    output with those pieces written. -/
noncomputable def kernelRun2 (c : Dev nD) (i : grid2.Coords) (arg1 : Memref sig .tc .vmem S512x4096 .f32) (harg1 : arg1.IsWhole) (arg2 : Memref sig .tc .vmem S4096x32 .f32) (harg2 : arg2.IsWhole) (arg3 : Memref sig .tc .vmem S4096x1 .f32) (harg3 : arg3.IsWhole) (arg4 : Memref sig .tc .vmem S4096x32 .f32) (harg4 : arg4.IsWhole) (arg5 : Memref sig .tc .vmem S512x32 .f32) (harg5 : arg5.IsWhole)
    (x0 : Vec F S512x4096 .f32) (x1 : Vec F S4096x32 .f32) (x2 : Vec F S4096x1 .f32) (x3 : Vec F S4096x32 .f32) :
    { L4 : List (View.Piece (Elt F) S512x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)) -∗ K ⟨⟩))
          ⊢ wp frame (wpE (defs₀ (F := F)) Variants.none c none) E (cc2__ynew_kernel i arg1 harg1 arg2 harg2 arg3 harg3 arg4 harg4 arg5 harg5) K } := by
  refine ⟨?_, fun E K => ?run⟩
  case run =>
    simp only [cc2__ynew_kernel_eq_skeleton]; unfold cc2__ynew_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2
    obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Hand

end
-- ==== Proof.KR2Frame.lean ====
import proofs.«139708_g36129264894619_cont_8to1_b_1456_17_alg».proof.Proof.KR2Run
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The new-target-features region: what its buffers hold point by point, and its body obligation

The grid has eight points, one per block of 512 rows. At every point the body stores the output block whole; the four
inputs are only read. -/

abbrev ms2_0 (t : Fin cfg2.N) : Memref sig .tc .vmem S512x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x32 .f32 := win2_4.stage (cfg2.slots t 4)
abbrev hs2_4 (t : Fin cfg2.N) : (ms2_4 t).IsWhole := hstage2_4 ((cfg2.slots t 4).cast nbuf2_4)

/-- One staging buffer of the output window, through which its contents are stated. -/
abbrev VO2_4 : View sig .tc .vmem S512x32 .f32 := (Memref.whole cc2_stg4_0 : Memref sig .tc .vmem S512x32 .f32).view

/-- No window is idle at any grid point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel

/-- The pieces the body writes cover the output buffer. -/
theorem cover2_4 (c : Dev nD) (i : grid2.Coords) (arg1 : Memref sig .tc .vmem S512x4096 .f32) (harg1 : arg1.IsWhole) (arg2 : Memref sig .tc .vmem S4096x32 .f32) (harg2 : arg2.IsWhole) (arg3 : Memref sig .tc .vmem S4096x1 .f32) (harg3 : arg3.IsWhole) (arg4 : Memref sig .tc .vmem S4096x32 .f32) (harg4 : arg4.IsWhole) (arg5 : Memref sig .tc .vmem S512x32 .f32) (harg5 : arg5.IsWhole)
    (x0 : Vec F S512x4096 .f32) (x1 : Vec F S4096x32 .f32) (x2 : Vec F S4096x1 .f32) (x3 : Vec F S4096x32 .f32) (y : S512x32.Idx) :
    ∃ pc ∈ (kernelRun2 c i arg1 harg1 arg2 harg2 arg3 harg3 arg4 harg4 arg5 harg5 x0 x1 x2 x3).1, y ∈ pc.1.set :=
  View.cover_of_tiledL (kernelRun2 c i arg1 harg1 arg2 harg2 arg3 harg3 arg4 harg4 arg5 harg5 x0 x1 x2 x3).1 S512x32.size (by sl_kernel_rfl) y

section Data

-- the buffers' contents when the region is entered: the parameter everything below is stated at
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's run at point `t`, on that point's staging buffers and input blocks. -/
abbrev run2 (c : Dev nD) (t : Fin cfg2.N) :=
  kernelRun2 (F := F) c (grid2.coords t) (ms2_0 t) (hs2_0 t) (ms2_1 t) (hs2_1 t) (ms2_2 t) (hs2_2 t) (ms2_3 t) (hs2_3 t) (ms2_4 t) (hs2_4 t) (iblk2 V c 0 t) (iblk2 V c 1 t) (iblk2 V c 2 t) (iblk2 V c 3 t)

/-- What the run at point `t` leaves in the output window's buffer: its pieces read back. -/
def out2_4 (c : Dev nD) (t : Fin cfg2.N) : Vec F S512x32 .f32 :=
  VO2_4.read (Elt F) (VO2_4.writes (Elt F) VO2_4.junk (run2 V c t).1)

/-! ## The proof data -/

/-- The region's proof data on core `c`: the arrays as the region finds them; after the body at point `t` each input's
    buffer at its block, the output's at what the point's run leaves; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 V c t := by dsimp only [dat2]

/-- Input window 0's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
/-- Input window 1's current staging buffer holds its block at every point, fetched there or not. -/
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
/-- Input window 2's current staging buffer holds its block at every point, fetched there or not. -/
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
/-- Input window 3's current staging buffer holds its block at every point, fetched there or not. -/
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- What the body hands back: every window's buffer as the point leaves it (no window is idle). -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) :
    (dat2 V c).leavesExact 0 t = owns (c : Thread nD τ) (ms2_0 t) fullShare ((dat2 V c).after 0 t) := by
  unfold Dat.leavesExact; rw [liveAt2_0 t]
theorem leaves2_1 (c : Dev nD) (t : Fin cfg2.N) :
    (dat2 V c).leavesExact 1 t = owns (c : Thread nD τ) (ms2_1 t) fullShare ((dat2 V c).after 1 t) := by
  unfold Dat.leavesExact; rw [liveAt2_1 t]
theorem leaves2_2 (c : Dev nD) (t : Fin cfg2.N) :
    (dat2 V c).leavesExact 2 t = owns (c : Thread nD τ) (ms2_2 t) fullShare ((dat2 V c).after 2 t) := by
  unfold Dat.leavesExact; rw [liveAt2_2 t]
theorem leaves2_3 (c : Dev nD) (t : Fin cfg2.N) :
    (dat2 V c).leavesExact 3 t = owns (c : Thread nD τ) (ms2_3 t) fullShare ((dat2 V c).after 3 t) := by
  unfold Dat.leavesExact; rw [liveAt2_3 t]
theorem leaves2_4 (c : Dev nD) (t : Fin cfg2.N) :
    (dat2 V c).leavesExact 4 t = owns (c : Thread nD τ) (ms2_4 t) fullShare ((dat2 V c).after 4 t) := by
  unfold Dat.leavesExact; rw [liveAt2_4 t]

set_option maxHeartbeats 1600000 in
/-- The body at any point: the inputs' buffers hold their blocks, so the run applies; the output's buffer ends at the
    run's pieces read back, which cover it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [leaves2_0, leaves2_1, leaves2_2, leaves2_3, leaves2_4]
  rw [show (dat2 V c).Φ t.succ = (dat2 V c).Φ t.castSucc from rfl,
    show (dat2 V c).owesAt () t.succ = (dat2 V c).owesAt () t.castSucc from rfl,
    after2_0, after2_1, after2_2, after2_3, after2_4]
  unfold out2_4
  iintro ⟨HΦ, Ho, ⟨%d0, H0⟩, ⟨%d1, H1⟩, ⟨%d2, H2⟩, ⟨%d3, H3⟩, ⟨%d4, H4⟩⟩
  iapply ((run2 V c t).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2_4 c _ _ _ _ _ _ _ _ _ _ _ _ _ _ _)

end Data

end Cert.Kernel.Hand

end
-- ==== Proof.KR2Obl.lean ====
import proofs.«139708_g36129264894619_cont_8to1_b_1456_17_alg».proof.Proof.KR2Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The new-target-features region: the body obligation in the library's form -/

variable (V : (c : Dev nD) → (b : Ref sig .tc) → Buf (Elt F) ((c : Thread nD τ).loc b))

set_option maxHeartbeats 1600000 in
/-- The library's body obligation, at every point: its statement, the windows conjoined one by one, is `sound_body2`'s. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KAssemble.lean ====
import proofs.«139708_g36129264894619_cont_8to1_b_1456_17_alg».proof.Proof.KR0Obl
import proofs.«139708_g36129264894619_cont_8to1_b_1456_17_alg».proof.Proof.KR1Obl
import proofs.«139708_g36129264894619_cont_8to1_b_1456_17_alg».proof.Proof.KR2Obl
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program: three regions and one reshape between the first two

The buffers' contents at each boundary are a fold through the program: the launch memory; after the degree-and-projection
region its four output arrays hold what its write-backs leave; the reshape of the column degrees into a column; after the
new-source-features region its two outputs; after the new-target-features region its one. Every unscoped buffer is held
whole at these contents between items, and the last boundary is read off the final memory. -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves (the inputs as entered, each output's write-backs folded),
    every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the reshape (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At region 1's exit: its arrays at what the pipeline leaves (the inputs as entered, each output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- The reshape as an item over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps1_fresh' : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as items -/

-- `iapply` of a library lemma stated over `pin pcs a p` unifies with the pinned configuration only when unification may
-- unfold plain definitions in a metavariable's type
set_option backward.isDefEq.respectTransparency.types false in
/-- Region 0 over the thread state: entered from every unscoped buffer at `W0`, left at `W1`. Its arrays are split
    out of the unscoped buffers and put back at the exit contents; the generator register goes into the region's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer at `W2`, left at `W3`. Its arrays are split
    out of the unscoped buffers and put back at the exit contents; the generator register goes into the region's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered from every unscoped buffer at `W3`, left at `W4`. Its arrays are split
    out of the unscoped buffers and put back at the exit contents; the generator register goes into the region's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and in every final state each core's unscoped buffers hold the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.KFrames.lean ====
import proofs.«139708_g36129264894619_cont_8to1_b_1456_17_alg».proof.Proof.KAssemble

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # The arguments end as launched

No item of the program writes an argument array: the reshape writes the column-degree column only, and every region
reads the arguments through input windows, whose arrays the pipeline leaves as it found them. So the fold of boundary
contents, read at an argument's buffer, walks back to the launch memory. -/

/-- `main_arg0` ends as launched: the reshape does not write it, and a region reads it through an input window or not at all. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 3).trans (((dat0 (V0 m ρ) c).arrAt_in 3 rfl _).trans (A_eq0 (V0 m ρ) c 3))
    _ = m ((c : Thread nD τ).loc main_arg0) := rfl

/-- `main_arg1` ends as launched: the reshape does not write it, and a region reads it through an input window or not at all. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 4).trans (((dat0 (V0 m ρ) c).arrAt_in 4 rfl _).trans (A_eq0 (V0 m ρ) c 4))
    _ = m ((c : Thread nD τ).loc main_arg1) := rfl

/-- `main_arg2` ends as launched: the reshape does not write it, and a region reads it through an input window or not at all. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := (W3_arr m ρ c 0).trans (((dat1 (V2 m ρ) c).arrAt_in 0 rfl _).trans (A_eq1 (V2 m ρ) c 0))
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := (W1_arr m ρ c 0).trans (((dat0 (V0 m ρ) c).arrAt_in 0 rfl _).trans (A_eq0 (V0 m ρ) c 0))
    _ = m ((c : Thread nD τ).loc main_arg2) := rfl

/-- `main_arg3` ends as launched: the reshape does not write it, and a region reads it through an input window or not at all. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := (W3_arr m ρ c 1).trans (((dat1 (V2 m ρ) c).arrAt_in 1 rfl _).trans (A_eq1 (V2 m ρ) c 1))
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl

/-- `main_arg4` ends as launched: the reshape does not write it, and a region reads it through an input window or not at all. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 0).trans (((dat2 (V3 m ρ) c).arrAt_in 0 rfl _).trans (A_eq2 (V3 m ρ) c 0))
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := (W1_arr m ρ c 2).trans (((dat0 (V0 m ρ) c).arrAt_in 2 rfl _).trans (A_eq0 (V0 m ρ) c 2))
    _ = m ((c : Thread nD τ).loc main_arg4) := rfl

/-- `main_arg5` ends as launched: the reshape does not write it, and a region reads it through an input window or not at all. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := (W1_arr m ρ c 5).trans (((dat0 (V0 m ρ) c).arrAt_in 5 rfl _).trans (A_eq0 (V0 m ρ) c 5))
    _ = m ((c : Thread nD τ).loc main_arg5) := rfl

/-- THE FRAME: every weakly fair execution terminates, nothing faulting, and every final state has the six argument
    arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩)
    (run_all m ρ)

end Cert.Kernel.Hand

end
-- ==== Proof.ValLib.lean ====
import proofs.«139708_g36129264894619_cont_8to1_b_1456_17_alg».proof.Proof.Gen.KernelIdeal
import Idealize.ShloMosaic.Lib.ValueIdx
import Idealize.ShloMosaic.PureOps.Ideal.Laws

/-!
# Small facts the value lemmas share

The spelling of the zero offsets, the float word of one, and a 512×4096 block times a 4096×32 matrix read at an entry.
-/

set_option maxRecDepth 16384

noncomputable section

open scoped BigOperators

namespace Cert.KernelIdeal.Val

open Cert.KernelIdeal Idealize.ShloMosaic Idealize.ShloMosaic.ValueIdx

/-- The two zero offsets of a whole-buffer rectangle, as a constant function. -/
theorem hz2 : (![0, 0] : Fin 2 → Nat) = fun _ => 0 := funext fun a => by fin_cases a <;> rfl

/-- The float word `0x3F800000` is the number one. -/
theorem one_f32 : Ideal.ofBits .f32 0x3F800000#32 = 1 := by
  simp [Ideal.ofBits, Ideal.ieee]
  first
    | (rw [← EReal.coe_mul]; norm_num)
    | (norm_cast; norm_num)

theorem mmL0 (i : S512x32.Idx) (q : dot_S512x4096_S4096x32_S512x32_1_0_0_1_n_n.contr.Idx) : (dot_S512x4096_S4096x32_S512x32_1_0_0_1_n_n.lhsIdx i q 0).val = (i 0).val := by
  unfold DotDims.lhsIdx
  rw [dif_neg (show ¬(0 : Fin S512x4096.rank) ∈ dot_S512x4096_S4096x32_S512x32_1_0_0_1_n_n.lhsBatch by decide), dif_pos (show (0 : Fin S512x4096.rank) ∈ dot_S512x4096_S4096x32_S512x32_1_0_0_1_n_n.lhsNonContracting by decide)]
  rfl
theorem mmL1 (i : S512x32.Idx) (q : dot_S512x4096_S4096x32_S512x32_1_0_0_1_n_n.contr.Idx) : (dot_S512x4096_S4096x32_S512x32_1_0_0_1_n_n.lhsIdx i q 1).val = (q ⟨0, by decide⟩).val :=
  dot_S512x4096_S4096x32_S512x32_1_0_0_1_n_n.lhsIdx_val_of_single rfl i q
theorem mmR0 (i : S512x32.Idx) (q : dot_S512x4096_S4096x32_S512x32_1_0_0_1_n_n.contr.Idx) : (dot_S512x4096_S4096x32_S512x32_1_0_0_1_n_n.rhsIdx i q 0).val = (q ⟨0, by decide⟩).val :=
  dot_S512x4096_S4096x32_S512x32_1_0_0_1_n_n.rhsIdx_val_of_single rfl i q
theorem mmR1 (i : S512x32.Idx) (q : dot_S512x4096_S4096x32_S512x32_1_0_0_1_n_n.contr.Idx) : (dot_S512x4096_S4096x32_S512x32_1_0_0_1_n_n.rhsIdx i q 1).val = (i 1).val := by
  unfold DotDims.rhsIdx
  rw [dif_neg (show ¬(1 : Fin S4096x32.rank) ∈ dot_S512x4096_S4096x32_S512x32_1_0_0_1_n_n.rhsBatch by decide), dif_pos (show (1 : Fin S4096x32.rank) ∈ dot_S512x4096_S4096x32_S512x32_1_0_0_1_n_n.rhsNonContracting by decide)]
  rfl

/-- Entry `(p, o)` of the product into a zero accumulator is the sum over the 4096 shared coordinates. -/
theorem mm_apply (A : FVec Ideal S512x4096 .f32) (B : FVec Ideal S4096x32 .f32) (p : Fin 512) (o : Fin 32) :
    matmul dot_S512x4096_S4096x32_S512x32_1_0_0_1_n_n none A B (constant (F := Ideal) S512x32 .f32 0x00000000#32) (ix2 p o)
      = ∑ k : Fin 4096, A (ix2 p k) * B (ix2 k o) := by
  simp only [matmul]
  rw [Ideal.matmul_constant_zero_apply, ← Equiv.sum_comp (contrEquiv1 dot_S512x4096_S4096x32_S512x32_1_0_0_1_n_n 4096 rfl rfl).symm]
  refine Finset.sum_congr rfl fun k _ => ?_
  have hk := contrEquiv1_symm_val dot_S512x4096_S4096x32_S512x32_1_0_0_1_n_n 4096 rfl rfl k
  have el : dot_S512x4096_S4096x32_S512x32_1_0_0_1_n_n.lhsIdx (ix2 p o) ((contrEquiv1 dot_S512x4096_S4096x32_S512x32_1_0_0_1_n_n 4096 rfl rfl).symm k) = ix2 p k := funext fun a => Fin.ext (by
    match a with
    | ⟨0, _⟩ => exact mmL0 _ _
    | ⟨1, _⟩ => exact (mmL1 _ _).trans hk)
  have er : dot_S512x4096_S4096x32_S512x32_1_0_0_1_n_n.rhsIdx (ix2 p o) ((contrEquiv1 dot_S512x4096_S4096x32_S512x32_1_0_0_1_n_n 4096 rfl rfl).symm k) = ix2 k o := funext fun a => Fin.ext (by
    match a with
    | ⟨0, _⟩ => exact (mmR0 _ _).trans hk
    | ⟨1, _⟩ => exact mmR1 _ _)
  rw [el, er]

end Cert.KernelIdeal.Val

end
-- ==== Proof.Spec.lean ====
import Idealize.ShloMosaic.PureOps.Ideal
import Idealize.ShloMosaic.Lib.ValueIdx

/-!
# A two-sided dense graph convolution, entry by entry, on the extended reals

Three dense `4096 × 4096` adjacency matrices `A`, `As`, `At`, two feature matrices `Xs`, `Xt` (`4096 × 128`) and a weight
`W` (`128 × 32`). With `x = Xs·W`, `y = Xt·W`, the row degrees `ds i = ∑ⱼ A i j + ∑ⱼ As i j`, the column degrees
`dt j = ∑ᵢ A i j + ∑ᵢ At i j` and the roots `rs = √(ds + 1)`, `rt = √(dt + 1)`, the layer computes

* `x' = relu (x / rs + (As / rs / rsᵀ)·x + (A / rs / rtᵀ)·y)`,
* `y' = relu (y / rt + (At / rtᵀ / rt)·y + (A / rs / rtᵀ)ᵀ·x')`.

The NORMALISED-MATRIX form (`xnR`, `ynR`) divides every adjacency entry first; the SCALED-FEATURE form (`xnK`, `ypK`,
`ynK`) divides the narrow feature matrices instead and the whole bracket once at the end. Everything here is a function
of explicit coordinates `i : Fin 4096`, `o : Fin 32`; arrays are functions on the index sets of literal shapes.
-/

noncomputable section

open scoped BigOperators

namespace Cert.Spec

open Idealize.ShloMosaic Idealize.ShloMosaic.ValueIdx

abbrev SNN : Shape := ⟨2, ![4096, 4096]⟩
abbrev SND : Shape := ⟨2, ![4096, 128]⟩
abbrev SDO : Shape := ⟨2, ![128, 32]⟩
abbrev SNO : Shape := ⟨2, ![4096, 32]⟩
abbrev SN1 : Shape := ⟨2, ![4096, 1]⟩
abbrev S1N : Shape := ⟨2, ![1, 4096]⟩

/-- The projected features `(X·W) i o`. -/
def proj (X : SND.Idx → EReal) (W : SDO.Idx → EReal) (i : Fin 4096) (o : Fin 32) : EReal :=
  ∑ k : Fin 128, X (ix2 i k) * W (ix2 k o)

/-- The row degree of `i`: the row sums of the two matrices that act on the source side. -/
def degRow (A As : SNN.Idx → EReal) (i : Fin 4096) : EReal :=
  (∑ j : Fin 4096, A (ix2 i j)) + ∑ j : Fin 4096, As (ix2 i j)

/-- The column degree of `j`: the column sums of the two matrices that act on the target side. -/
def degCol (A At : SNN.Idx → EReal) (j : Fin 4096) : EReal :=
  (∑ i : Fin 4096, A (ix2 i j)) + ∑ i : Fin 4096, At (ix2 i j)

/-- The root of a degree plus one. -/
def root (d : EReal) : EReal := Ideal.sqrt (d + 1)

/-! ## The scaled-feature form -/

/-- New source features at `(i, o)`: the bracket `x i + ∑ⱼ As i j · (x j / rs j) + ∑ⱼ A i j · (y j / rt j)` divided once by
    `rs i`, then clamped at zero. -/
def xnK (A As : SNN.Idx → EReal) (x y : Fin 4096 → Fin 32 → EReal) (rs rt : Fin 4096 → EReal) (i : Fin 4096) (o : Fin 32) : EReal :=
  max (Ideal.div (x i o + ((∑ j : Fin 4096, As (ix2 i j) * Ideal.div (x j o) (rs j))
    + ∑ j : Fin 4096, A (ix2 i j) * Ideal.div (y j o) (rt j))) (rs i)) 0

/-- The transposed term `(Aᵀ·(x' / rs)) j o`. -/
def ypK (A : SNN.Idx → EReal) (xn : Fin 4096 → Fin 32 → EReal) (rs : Fin 4096 → EReal) (j : Fin 4096) (o : Fin 32) : EReal :=
  ∑ i : Fin 4096, A (ix2 i j) * Ideal.div (xn i o) (rs i)

/-- New target features at `(i, o)`: `(y i + ∑ⱼ At i j · (y j / rt j)) + yp i` divided once by `rt i`, clamped at zero. -/
def ynK (At : SNN.Idx → EReal) (y yp : Fin 4096 → Fin 32 → EReal) (rt : Fin 4096 → EReal) (i : Fin 4096) (o : Fin 32) : EReal :=
  max (Ideal.div ((y i o + ∑ j : Fin 4096, At (ix2 i j) * Ideal.div (y j o) (rt j)) + yp i o) (rt i)) 0

/-! ## The normalised-matrix form -/

/-- New source features with every adjacency entry divided by both roots first. -/
def xnR (A As : SNN.Idx → EReal) (x y : Fin 4096 → Fin 32 → EReal) (rs rt : Fin 4096 → EReal) (i : Fin 4096) (o : Fin 32) : EReal :=
  max ((Ideal.div (x i o) (rs i)
      + ∑ j : Fin 4096, Ideal.div (Ideal.div (As (ix2 i j)) (rs i)) (rs j) * x j o)
    + ∑ j : Fin 4096, Ideal.div (Ideal.div (A (ix2 i j)) (rs i)) (rt j) * y j o) 0

/-- New target features with every adjacency entry divided by both roots first; the last sum runs down column `i` of the
    normalised `A`. -/
def ynR (A At : SNN.Idx → EReal) (y xn : Fin 4096 → Fin 32 → EReal) (rs rt : Fin 4096 → EReal) (i : Fin 4096) (o : Fin 32) : EReal :=
  max ((Ideal.div (y i o) (rt i)
      + ∑ j : Fin 4096, Ideal.div (Ideal.div (At (ix2 i j)) (rt j)) (rt i) * y j o)
    + ∑ j : Fin 4096, Ideal.div (Ideal.div (A (ix2 j i)) (rs j)) (rt i) * xn j o) 0

end Cert.Spec

end
-- ==== Proof.R2Value.lean ====
import proofs.«139708_g36129264894619_cont_8to1_b_1456_17_alg».proof.Proof.R2Frame
import proofs.«139708_g36129264894619_cont_8to1_b_1456_17_alg».proof.Proof.ValLib
import proofs.«139708_g36129264894619_cont_8to1_b_1456_17_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

open Cert.KernelIdeal.Val
open scoped BigOperators

namespace R2

/-! # The new-target-features region: what its output array holds

At every grid point the body stores one block of 512 rows: row `i` of the block is the row's own projected features,
plus row `i` of the target-side adjacency matrix against the projected features each divided by its root, plus the
transposed term, all divided by the row's root and clamped at zero. The eight blocks tile the array. -/

/-- A column `[4096,1]` broadcast along 32 lanes, read at `(k, o)`, is the column at `k`. -/
theorem bcol4096 (x : S4096x1.Idx → EReal) (h : S4096x1.Broadcasts S4096x32) (k : Fin 4096) (o : Fin 32) :
    broadcastTo S4096x32 x h (ix2 k o) = x (ix2 k (0 : Fin 1)) :=
  broadcastTo_apply x h (ix2 k o) (ix2 k (0 : Fin 1)) fun a => by
    match a with
    | ⟨0, _⟩ => rfl
    | ⟨1, _⟩ => rfl

/-- A column `[512,1]` broadcast along 32 lanes, read at `(p, o)`, is the column at `p`. -/
theorem bcol512 (x : S512x1.Idx → EReal) (h : S512x1.Broadcasts S512x32) (p : Fin 512) (o : Fin 32) :
    broadcastTo S512x32 x h (ix2 p o) = x (ix2 p (0 : Fin 1)) :=
  broadcastTo_apply x h (ix2 p o) (ix2 p (0 : Fin 1)) fun a => by
    match a with
    | ⟨0, _⟩ => rfl
    | ⟨1, _⟩ => rfl

set_option maxHeartbeats 800000 in
/-- The body's arithmetic at entry `(p, o)` of the block. -/
theorem pay2_apply (v0 : Vec Ideal S4096x1 .f32) (v5 : Vec Ideal S4096x32 .f32) (v9 : Vec Ideal S512x4096 .f32)
    (v13 v17 : Vec Ideal S512x32 .f32) (v21 : Vec Ideal S512x1 .f32) (p : Fin 512) (o : Fin 32) :
    k2_pay1 (F := Ideal) v0 v5 v9 v13 v17 v21 (ix2 p o)
      = max (Ideal.div ((v13 (ix2 p o) + ∑ k : Fin 4096, v9 (ix2 p k) * Ideal.div (v5 (ix2 k o)) (Cert.Spec.root (v0 (ix2 k (0 : Fin 1)))))
          + v17 (ix2 p o)) (Cert.Spec.root (v21 (ix2 p (0 : Fin 1))))) 0 := by
  unfold k2_pay1
  simp only [shapeCast_self]
  rw [maximumf_apply, divf_apply, addf_apply, addf_apply, broadcast_apply, bcol512, mm_apply]
  have h1 : (FloatOps.ofBits (F := Ideal) FTy.f32 1065353216#32) = (1 : EReal) := one_f32
  have h0 : (FloatOps.ofBits (F := Ideal) FTy.f32 0#32) = (0 : EReal) := Ideal.ofBits_zero_f32
  simp only [divf_apply, bcol4096, h1, h0]
  rfl

section
variable {F : FTy → Type} [FloatOps F]
variable (V : (c : Dev nD) → (b : Ref sig .tc) → Buf (Elt F) ((c : Thread nD τ).loc b))

/-- The 512 rows of the projected target features at this block's row offset. -/
abbrev ySl (c : Dev nD) (t : Fin cfg2.N) : Vec F S512x32 .f32 :=
  View.ld (iblk2 V c 1 t) (Rect.unit (s := S4096x32) (k2_off1 (grid2.coords t)) S512x32.size (k2_off1_inb (grid2.coords t)))
/-- The 512 rows of the transposed term at this block's row offset. -/
abbrev ypSl (c : Dev nD) (t : Fin cfg2.N) : Vec F S512x32 .f32 :=
  View.ld (iblk2 V c 3 t) (Rect.unit (s := S4096x32) (k2_off1 (grid2.coords t)) S512x32.size (k2_off1_inb (grid2.coords t)))
/-- The 512 rows of the column-degree column at this block's row offset. -/
abbrev dSl (c : Dev nD) (t : Fin cfg2.N) : Vec F S512x1 .f32 :=
  View.ld (iblk2 V c 2 t) (Rect.unit (s := S4096x1) (k2_off2 (grid2.coords t)) S512x1.size (k2_off2_inb (grid2.coords t)))

set_option maxHeartbeats 1600000 in
/-- The output buffer after the body at point `t` is the body's one payload of that point's input blocks and of the
    three 512-row slices at the block's row offset. -/
theorem out2_4_eq (c : Dev nD) (t : Fin cfg2.N) :
    out2_4 V c t = k2_pay1 (iblk2 V c 2 t) (iblk2 V c 1 t) (iblk2 V c 0 t) (ySl V c t) (ypSl V c t) (dSl V c t) := by
  unfold out2_4
  rw [View.read_writes_eq_canon _ _ _ (cover2_4 c _ _ _ _ _ _ _ _ _ _ _ _ _ _ _)]
  unfold kernelRun2
  dsimp only
  rw [View.canon_unit_zero hz2]
  simp only [View.readAt_eq_ld, (hs2_0 t).read_unread, (hs2_1 t).read_unread, (hs2_2 t).read_unread, (hs2_3 t).read_unread,
    View.ld_unit_zero (S := S512x4096) hz2, View.ld_unit_zero (S := S4096x32) hz2, View.ld_unit_zero (S := S4096x1) hz2]
  rfl

end

section AtIdeal
variable (V : (c : Dev nD) → (b : Ref sig .tc) → Buf (Elt Ideal) ((c : Thread nD τ).loc b))

/-- The printed index maps and slice offsets, decided over the grid: the row-block windows sit at block `t`, the
    whole-array windows at block zero, and the slices start at row `512·t`. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ k2_off1 (grid2.coords t) (0 : Fin 2) = 512 * t.val ∧ k2_off1 (grid2.coords t) (1 : Fin 2) = 0
    ∧ k2_off2 (grid2.coords t) (0 : Fin 2) = 512 * t.val ∧ k2_off2 (grid2.coords t) (1 : Fin 2) = 0 :=
  (by decide +kernel : ∀ t : Fin grid2.N, _)

/-- Row `p` of block `t`, as a row of the whole array. -/
abbrev row2 (t : Fin cfg2.N) (p : Fin 512) : Fin 4096 :=
  ⟨512 * t.val + p.val, by have := t.isLt; have h8 : cfg2.N = 8 := N_2; have := p.isLt; omega⟩

theorem rd2_0 (c : Dev nD) (t : Fin cfg2.N) (p : Fin 512) (k : Fin 4096) :
    (iblk2 V c 0 t : Vec Ideal S512x4096 .f32) (ix2 p k) = V c main_arg4 (ix2 (row2 t p) k) := by
  obtain ⟨e0, e1, -⟩ := idx2 t
  show V c main_arg4 (((cfg2.win 0).blk t).view.emb (ix2 p k)) = V c main_arg4 (ix2 (row2 t p) k)
  refine congrArg (V c main_arg4) (funext fun a => Fin.ext ?_)
  match a with
  | ⟨0, _⟩ => show win2_0.index t (0 : Fin 2) * 512 + 1 * p.val = 512 * t.val + p.val; rw [e0]; omega
  | ⟨1, _⟩ => show win2_0.index t (1 : Fin 2) * 4096 + 1 * k.val = k.val; rw [e1]; omega

theorem rd2_1 (c : Dev nD) (t : Fin cfg2.N) (k : Fin 4096) (o : Fin 32) :
    (iblk2 V c 1 t : Vec Ideal S4096x32 .f32) (ix2 k o) = V c main_v0_3 (ix2 k o) := by
  obtain ⟨-, -, e0, e1, -⟩ := idx2 t
  show V c main_v0_3 (((cfg2.win 1).blk t).view.emb (ix2 k o)) = V c main_v0_3 (ix2 k o)
  refine congrArg (V c main_v0_3) (funext fun a => Fin.ext ?_)
  match a with
  | ⟨0, _⟩ => show win2_1.index t (0 : Fin 2) * 4096 + 1 * k.val = k.val; rw [e0]; omega
  | ⟨1, _⟩ => show win2_1.index t (1 : Fin 2) * 32 + 1 * o.val = o.val; rw [e1]; omega

theorem rd2_2 (c : Dev nD) (t : Fin cfg2.N) (k : Fin 4096) (z : Fin 1) :
    (iblk2 V c 2 t : Vec Ideal S4096x1 .f32) (ix2 k z) = V c main_v1 (ix2 k z) := by
  obtain ⟨-, -, -, -, e0, e1, -⟩ := idx2 t
  show V c main_v1 (((cfg2.win 2).blk t).view.emb (ix2 k z)) = V c main_v1 (ix2 k z)
  refine congrArg (V c main_v1) (funext fun a => Fin.ext ?_)
  match a with
  | ⟨0, _⟩ => show win2_2.index t (0 : Fin 2) * 4096 + 1 * k.val = k.val; rw [e0]; omega
  | ⟨1, _⟩ => show win2_2.index t (1 : Fin 2) * 1 + 1 * z.val = z.val; rw [e1]; omega

theorem rd2_3 (c : Dev nD) (t : Fin cfg2.N) (k : Fin 4096) (o : Fin 32) :
    (iblk2 V c 3 t : Vec Ideal S4096x32 .f32) (ix2 k o) = V c main_v2_1 (ix2 k o) := by
  obtain ⟨-, -, -, -, -, -, e0, e1, -⟩ := idx2 t
  show V c main_v2_1 (((cfg2.win 3).blk t).view.emb (ix2 k o)) = V c main_v2_1 (ix2 k o)
  refine congrArg (V c main_v2_1) (funext fun a => Fin.ext ?_)
  match a with
  | ⟨0, _⟩ => show win2_3.index t (0 : Fin 2) * 4096 + 1 * k.val = k.val; rw [e0]; omega
  | ⟨1, _⟩ => show win2_3.index t (1 : Fin 2) * 32 + 1 * o.val = o.val; rw [e1]; omega

/-- The index a 512-row slice at the block's row offset reads, in the whole `[4096,32]` array. -/
theorem sl32_idx (t : Fin cfg2.N) (p : Fin 512) (o : Fin 32) :
    (Rect.unit (s := S4096x32) (k2_off1 (grid2.coords t)) S512x32.size (k2_off1_inb (grid2.coords t))).idx (ix2 p o) = ix2 (row2 t p) o := by
  obtain ⟨-, -, -, -, -, -, -, -, -, -, e0, e1, -⟩ := idx2 t
  refine funext fun a => Fin.ext ?_
  match a with
  | ⟨0, _⟩ => show k2_off1 (grid2.coords t) (0 : Fin 2) + 1 * p.val = 512 * t.val + p.val; rw [e0]; omega
  | ⟨1, _⟩ => show k2_off1 (grid2.coords t) (1 : Fin 2) + 1 * o.val = o.val; rw [e1]; omega

/-- The same for the `[4096,1]` column. -/
theorem sl1_idx (t : Fin cfg2.N) (p : Fin 512) (z : Fin 1) :
    (Rect.unit (s := S4096x1) (k2_off2 (grid2.coords t)) S512x1.size (k2_off2_inb (grid2.coords t))).idx (ix2 p z) = ix2 (row2 t p) z := by
  obtain ⟨-, -, -, -, -, -, -, -, -, -, -, -, e0, e1⟩ := idx2 t
  refine funext fun a => Fin.ext ?_
  match a with
  | ⟨0, _⟩ => show k2_off2 (grid2.coords t) (0 : Fin 2) + 1 * p.val = 512 * t.val + p.val; rw [e0]; omega
  | ⟨1, _⟩ => show k2_off2 (grid2.coords t) (1 : Fin 2) + 1 * z.val = z.val; rw [e1]; omega

theorem ySl_apply (c : Dev nD) (t : Fin cfg2.N) (p : Fin 512) (o : Fin 32) :
    ySl V c t (ix2 p o) = V c main_v0_3 (ix2 (row2 t p) o) := by
  show (iblk2 V c 1 t : Vec Ideal S4096x32 .f32) ((Rect.unit (s := S4096x32) (k2_off1 (grid2.coords t)) S512x32.size (k2_off1_inb (grid2.coords t))).idx (ix2 p o)) = _
  rw [sl32_idx, rd2_1]

theorem ypSl_apply (c : Dev nD) (t : Fin cfg2.N) (p : Fin 512) (o : Fin 32) :
    ypSl V c t (ix2 p o) = V c main_v2_1 (ix2 (row2 t p) o) := by
  show (iblk2 V c 3 t : Vec Ideal S4096x32 .f32) ((Rect.unit (s := S4096x32) (k2_off1 (grid2.coords t)) S512x32.size (k2_off1_inb (grid2.coords t))).idx (ix2 p o)) = _
  rw [sl32_idx, rd2_3]

theorem dSl_apply (c : Dev nD) (t : Fin cfg2.N) (p : Fin 512) (z : Fin 1) :
    dSl V c t (ix2 p z) = V c main_v1 (ix2 (row2 t p) z) := by
  show (iblk2 V c 2 t : Vec Ideal S4096x1 .f32) ((Rect.unit (s := S4096x1) (k2_off2 (grid2.coords t)) S512x1.size (k2_off2_inb (grid2.coords t))).idx (ix2 p z)) = _
  rw [sl1_idx, rd2_2]

/-- The whole output array as one function of the arrays the region finds. -/
def G2v (c : Dev nD) : S4096x32.Idx → EReal := fun i =>
  Cert.Spec.ynK (V c main_arg4) (fun i o => V c main_v0_3 (ix2 i o)) (fun i o => V c main_v2_1 (ix2 i o))
    (fun i => Cert.Spec.root (V c main_v1 (ix2 i (0 : Fin 1)))) (i 0) (i 1)

theorem emb2_4 (t : Fin cfg2.N) (p : Fin 512) (o : Fin 32) :
    ((cfg2.win 4).blk t).view.emb (ix2 p o) = ix2 (row2 t p) o := by
  obtain ⟨-, -, -, -, -, -, -, -, e0, e1, -⟩ := idx2 t
  refine funext fun a => Fin.ext ?_
  match a with
  | ⟨0, _⟩ => show win2_4.index t (0 : Fin 2) * 512 + 1 * p.val = 512 * t.val + p.val; rw [e0]; omega
  | ⟨1, _⟩ => show win2_4.index t (1 : Fin 2) * 32 + 1 * o.val = o.val; rw [e1]; omega

set_option maxHeartbeats 1600000 in
/-- What point `t` writes back is block `t` of that function. -/
theorem flushed2_eq (c : Dev nD) (t : Fin cfg2.N) :
    (dat2 V c).flushed 4 t = ((cfg2.win 4).blk t).view.read (Elt Ideal) (G2v V c) := by
  show (cfg2.win 4).cut (grid2.coords t) ((dat2 V c).after 4 t) = _
  rw [after2_4, out2_4_eq]
  funext y
  obtain ⟨p, o, rfl⟩ : ∃ (p : Fin 512) (o : Fin 32), y = ix2 p o := ⟨y 0, y 1, eq_ix2 y⟩
  show k2_pay1 (F := Ideal) (iblk2 V c 2 t) (iblk2 V c 1 t) (iblk2 V c 0 t) (ySl V c t) (ypSl V c t) (dSl V c t) (ix2 p o)
    = G2v V c (((cfg2.win 4).blk t).view.emb (ix2 p o))
  refine (pay2_apply (iblk2 V c 2 t) (iblk2 V c 1 t) (iblk2 V c 0 t) (ySl V c t) (ypSl V c t) (dSl V c t) p o).trans ?_
  rw [emb2_4]
  unfold G2v Cert.Spec.ynK
  simp only [ySl_apply, ypSl_apply, dSl_apply, rd2_0, rd2_1, rd2_2]

/-- An index of the array is in point `t`'s block iff each coordinate is in the block's range on its axis. -/
theorem mem_blk2_4 (t : Fin cfg2.N) (i : S4096x32.Idx) :
    i ∈ ((cfg2.win 4).blk t).view.set ↔ ∀ a : Fin 2, win2_4.index t a * S512x32.size a ≤ (i a).val ∧ (i a).val < win2_4.index t a * S512x32.size a + S512x32.size a := by
  show i ∈ ((View.whole main_v3).slice (win2_4.rect t)).set ↔ _
  rw [View.set_slice_whole, Rect.mem_set_unit]
  exact Iff.rfl

/-- The eight blocks tile the array, so after the run it is that function everywhere. -/
theorem final2 (c : Dev nD) : (dat2 V c).arrAt 4 cfg2.N = G2v V c :=
  (dat2 V c).arrAt_eq_of_cover 4 (G2v V c) (fun t _ => flushed2_eq V c t) fun i => by
    have hi0 : (i 0).val < 4096 := (i 0).isLt
    have hi1 : (i 1).val < 32 := (i 1).isLt
    have hN : cfg2.N = 8 := N_2
    refine ⟨⟨(i 0).val / 512, by omega⟩, flush2_4 _, ?_⟩
    rw [mem_blk2_4]
    obtain ⟨-, -, -, -, -, -, -, -, e0, e1, -⟩ := idx2 ⟨(i 0).val / 512, by omega⟩
    intro a
    match a with
    | ⟨0, _⟩ =>
      show win2_4.index ⟨(i 0).val / 512, _⟩ (0 : Fin 2) * 512 ≤ (i 0).val ∧ (i 0).val < win2_4.index ⟨(i 0).val / 512, _⟩ (0 : Fin 2) * 512 + 512
      rw [e0]; dsimp only; omega
    | ⟨1, _⟩ =>
      show win2_4.index ⟨(i 0).val / 512, _⟩ (1 : Fin 2) * 32 ≤ (i 1).val ∧ (i 1).val < win2_4.index ⟨(i 0).val / 512, _⟩ (1 : Fin 2) * 32 + 32
      rw [e1]; omega

/-- Entry `(i, o)` of the region's output array. -/
theorem r2_yn (c : Dev nD) (i : Fin 4096) (o : Fin 32) :
    (dat2 V c).arrAt 4 cfg2.N (ix2 i o)
      = Cert.Spec.ynK (V c main_arg4) (fun i o => V c main_v0_3 (ix2 i o)) (fun i o => V c main_v2_1 (ix2 i o))
          (fun i => Cert.Spec.root (V c main_v1 (ix2 i (0 : Fin 1)))) i o := by
  rw [final2]; rfl

end AtIdeal

end R2

end Cert.KernelIdeal.Hand

end
-- ==== Proof.R1Xn.lean ====
import proofs.«139708_g36129264894619_cont_8to1_b_1456_17_alg».proof.Proof.R1Frame
import proofs.«139708_g36129264894619_cont_8to1_b_1456_17_alg».proof.Proof.R2Value
import proofs.«139708_g36129264894619_cont_8to1_b_1456_17_alg».proof.Proof.ValLib
import proofs.«139708_g36129264894619_cont_8to1_b_1456_17_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

open Cert.KernelIdeal.Val
open scoped BigOperators

namespace R1X

/-! # The new-source-features region: what its block output array holds

At every grid point the body stores one block of 512 rows of the new source features: row `i` is the row's own
projected features, plus row `i` of the source-side adjacency matrix against the source features each divided by its
root, plus row `i` of the shared adjacency matrix against the target features each divided by its root, all divided
by the row's root and clamped at zero. The eight blocks tile the array. -/

section
variable {F : FTy → Type} [FloatOps F]
variable (V : (c : Dev nD) → (b : Ref sig .tc) → Buf (Elt F) ((c : Thread nD τ).loc b))

/-- The 512 rows of the row-degree column at this block's row offset. -/
abbrev dsoSl (c : Dev nD) (t : Fin cfg1.N) : Vec F S512x1 .f32 :=
  View.ld (iblk1 V c 4 t) (Rect.unit (s := S4096x1) (k1_off2 (grid1.coords t)) S512x1.size (k1_off2_inb (grid1.coords t)))
/-- The 512 rows of the projected source features at this block's row offset. -/
abbrev xSl (c : Dev nD) (t : Fin cfg1.N) : Vec F S512x32 .f32 :=
  View.ld (iblk1 V c 2 t) (Rect.unit (s := S4096x32) (k1_off1 (grid1.coords t)) S512x32.size (k1_off1_inb (grid1.coords t)))
/-- The bracket divided by the block's roots, before the clamp at zero. -/
abbrev preAt (c : Dev nD) (t : Fin cfg1.N) : FVec F S512x32 .f32 :=
  k1_pay5 (iblk1 V c 4 t) (iblk1 V c 5 t) (iblk1 V c 2 t) (iblk1 V c 3 t) (iblk1 V c 1 t) (iblk1 V c 0 t) (xSl V c t) (dsoSl V c t)

set_option maxHeartbeats 1600000 in
theorem o1A6_eq (c : Dev nD) (t : Fin cfg1.N) (h0 : t.val % 8 = 0) :
    o1A6 V c t h0 = k1_pay1 (preAt V c t) (Scalar.ofBits .f32 0x00000000#32) := by
  unfold o1A6
  rw [View.read_writes_eq_canon _ _ _ (cover1_A_6 c _ _ _ _ _ _ _ _ _ _ _ _ _ _ _ _ _ _ _ _ _ _ _ _ _)]
  unfold kernelRun1_A
  dsimp only
  rw [View.canon_unit_zero hz2]
  sl_unfold_words
  simp only [View.readAt_eq_ld, (hs1_0 t).read_unread, (hs1_1 t).read_unread, (hs1_2 t).read_unread, (hs1_3 t).read_unread, (hs1_4 t).read_unread, (hs1_5 t).read_unread,
    View.ld_unit_zero (S := S512x4096) hz2, View.ld_unit_zero (S := S4096x32) hz2, View.ld_unit_zero (S := S4096x1) hz2]
  rfl

set_option maxHeartbeats 1600000 in
theorem o1B6_eq (c : Dev nD) (t : Fin cfg1.N) (h0 : ¬ t.val % 8 = 0) (xo7 : Vec F S4096x32 .f32) :
    o1B6 V c t h0 xo7 = k1_pay1 (preAt V c t) (Scalar.ofBits .f32 0x00000000#32) := by
  unfold o1B6
  rw [View.read_writes_eq_canon _ _ _ (cover1_B_6 c _ _ _ _ _ _ _ _ _ _ _ _ _ _ _ _ _ _ _ _ _ _ _ _ _ _)]
  unfold kernelRun1_B
  dsimp only
  rw [View.canon_unit_zero hz2]
  sl_unfold_words
  simp only [View.readAt_eq_ld, (hs1_0 t).read_unread, (hs1_1 t).read_unread, (hs1_2 t).read_unread, (hs1_3 t).read_unread, (hs1_4 t).read_unread, (hs1_5 t).read_unread,
    View.ld_unit_zero (S := S512x4096) hz2, View.ld_unit_zero (S := S4096x32) hz2, View.ld_unit_zero (S := S4096x1) hz2]
  rfl

/-- The new-feature block's buffer after the body at any point: the bracket clamped at zero. -/
theorem out1_6At_eq (c : Dev nD) (t : Fin cfg1.N) :
    out1_6At V c t = k1_pay1 (preAt V c t) (Scalar.ofBits .f32 0x00000000#32) := by
  by_cases h0 : t.val % 8 = 0
  · rw [out1_6At_A V c t h0, o1A6_eq]
  · rw [out1_6At_B V c t h0, o1B6_eq]

end

set_option maxHeartbeats 1600000 in
/-- The bracket at entry `(p, o)` of the block. -/
theorem pay5_apply (v0 v5 : Vec Ideal S4096x1 .f32) (v10 v14 : Vec Ideal S4096x32 .f32) (v18 v20 : Vec Ideal S512x4096 .f32)
    (v25 : Vec Ideal S512x32 .f32) (v29 : Vec Ideal S512x1 .f32) (p : Fin 512) (o : Fin 32) :
    k1_pay5 (F := Ideal) v0 v5 v10 v14 v18 v20 v25 v29 (ix2 p o)
      = Ideal.div (v25 (ix2 p o) + ((∑ k : Fin 4096, v18 (ix2 p k) * Ideal.div (v10 (ix2 k o)) (Cert.Spec.root (v0 (ix2 k (0 : Fin 1)))))
          + ∑ k : Fin 4096, v20 (ix2 p k) * Ideal.div (v14 (ix2 k o)) (Cert.Spec.root (v5 (ix2 k (0 : Fin 1))))))
          (Cert.Spec.root (v29 (ix2 p (0 : Fin 1)))) := by
  unfold k1_pay5
  simp only [shapeCast_self]
  rw [divf_apply, addf_apply, addf_apply, R2.bcol512, mm_apply, mm_apply]
  unfold k1_pay4
  have h1 : (FloatOps.ofBits (F := Ideal) FTy.f32 1065353216#32) = (1 : EReal) := one_f32
  simp only [shapeCast_self, divf_apply, R2.bcol4096, h1]
  rfl

/-- The clamp at entry `(p, o)`. -/
theorem pay1_apply (X : FVec Ideal S512x32 .f32) (p : Fin 512) (o : Fin 32) :
    k1_pay1 (F := Ideal) X (Scalar.ofBits .f32 0x00000000#32) (ix2 p o) = max (X (ix2 p o)) 0 := by
  unfold k1_pay1
  rw [maximumf_apply, broadcast_apply]
  show max _ (Ideal.ofBits .f32 0x00000000#32) = _
  rw [Ideal.ofBits_zero_f32]

section AtIdeal
variable (V : (c : Dev nD) → (b : Ref sig .tc) → Buf (Elt Ideal) ((c : Thread nD τ).loc b))

/-- The printed index maps and slice offsets, decided over the grid. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ k1_off1 (grid1.coords t) (0 : Fin 2) = 512 * t.val ∧ k1_off1 (grid1.coords t) (1 : Fin 2) = 0
    ∧ k1_off2 (grid1.coords t) (0 : Fin 2) = 512 * t.val ∧ k1_off2 (grid1.coords t) (1 : Fin 2) = 0 :=
  (by decide +kernel : ∀ t : Fin grid1.N, _)

/-- Row `p` of block `t`, as a row of the whole array. -/
abbrev row1 (t : Fin cfg1.N) (p : Fin 512) : Fin 4096 :=
  ⟨512 * t.val + p.val, by have := t.isLt; have h8 : cfg1.N = 8 := N_1; have := p.isLt; omega⟩

theorem rd1_0 (c : Dev nD) (t : Fin cfg1.N) (p : Fin 512) (k : Fin 4096) :
    (iblk1 V c 0 t : Vec Ideal S512x4096 .f32) (ix2 p k) = V c main_arg2 (ix2 (row1 t p) k) := by
  have e := idx1 t
  show V c main_arg2 (((cfg1.win 0).blk t).view.emb (ix2 p k)) = V c main_arg2 (ix2 (row1 t p) k)
  refine congrArg (V c main_arg2) (funext fun a => Fin.ext ?_)
  match a with
  | ⟨0, _⟩ => show win1_0.index t (0 : Fin 2) * 512 + 1 * p.val = 512 * t.val + p.val; rw [e.1]; omega
  | ⟨1, _⟩ => show win1_0.index t (1 : Fin 2) * 4096 + 1 * k.val = k.val; rw [e.2.1]; omega

theorem rd1_1 (c : Dev nD) (t : Fin cfg1.N) (p : Fin 512) (k : Fin 4096) :
    (iblk1 V c 1 t : Vec Ideal S512x4096 .f32) (ix2 p k) = V c main_arg3 (ix2 (row1 t p) k) := by
  have e := idx1 t
  show V c main_arg3 (((cfg1.win 1).blk t).view.emb (ix2 p k)) = V c main_arg3 (ix2 (row1 t p) k)
  refine congrArg (V c main_arg3) (funext fun a => Fin.ext ?_)
  match a with
  | ⟨0, _⟩ => show win1_1.index t (0 : Fin 2) * 512 + 1 * p.val = 512 * t.val + p.val; rw [e.2.2.1]; omega
  | ⟨1, _⟩ => show win1_1.index t (1 : Fin 2) * 4096 + 1 * k.val = k.val; rw [e.2.2.2.1]; omega

theorem rd1_2 (c : Dev nD) (t : Fin cfg1.N) (k : Fin 4096) (o : Fin 32) :
    (iblk1 V c 2 t : Vec Ideal S4096x32 .f32) (ix2 k o) = V c main_v0_2 (ix2 k o) := by
  have e := idx1 t
  show V c main_v0_2 (((cfg1.win 2).blk t).view.emb (ix2 k o)) = V c main_v0_2 (ix2 k o)
  refine congrArg (V c main_v0_2) (funext fun a => Fin.ext ?_)
  match a with
  | ⟨0, _⟩ => show win1_2.index t (0 : Fin 2) * 4096 + 1 * k.val = k.val; rw [e.2.2.2.2.1]; omega
  | ⟨1, _⟩ => show win1_2.index t (1 : Fin 2) * 32 + 1 * o.val = o.val; rw [e.2.2.2.2.2.1]; omega

theorem rd1_3 (c : Dev nD) (t : Fin cfg1.N) (k : Fin 4096) (o : Fin 32) :
    (iblk1 V c 3 t : Vec Ideal S4096x32 .f32) (ix2 k o) = V c main_v0_3 (ix2 k o) := by
  have e := idx1 t
  show V c main_v0_3 (((cfg1.win 3).blk t).view.emb (ix2 k o)) = V c main_v0_3 (ix2 k o)
  refine congrArg (V c main_v0_3) (funext fun a => Fin.ext ?_)
  match a with
  | ⟨0, _⟩ => show win1_3.index t (0 : Fin 2) * 4096 + 1 * k.val = k.val; rw [e.2.2.2.2.2.2.1]; omega
  | ⟨1, _⟩ => show win1_3.index t (1 : Fin 2) * 32 + 1 * o.val = o.val; rw [e.2.2.2.2.2.2.2.1]; omega

theorem rd1_4 (c : Dev nD) (t : Fin cfg1.N) (k : Fin 4096) (o : Fin 1) :
    (iblk1 V c 4 t : Vec Ideal S4096x1 .f32) (ix2 k o) = V c main_v0_0 (ix2 k o) := by
  have e := idx1 t
  show V c main_v0_0 (((cfg1.win 4).blk t).view.emb (ix2 k o)) = V c main_v0_0 (ix2 k o)
  refine congrArg (V c main_v0_0) (funext fun a => Fin.ext ?_)
  match a with
  | ⟨0, _⟩ => show win1_4.index t (0 : Fin 2) * 4096 + 1 * k.val = k.val; rw [e.2.2.2.2.2.2.2.2.1]; omega
  | ⟨1, _⟩ => show win1_4.index t (1 : Fin 2) * 1 + 1 * o.val = o.val; rw [e.2.2.2.2.2.2.2.2.2.1]; omega

theorem rd1_5 (c : Dev nD) (t : Fin cfg1.N) (k : Fin 4096) (o : Fin 1) :
    (iblk1 V c 5 t : Vec Ideal S4096x1 .f32) (ix2 k o) = V c main_v1 (ix2 k o) := by
  have e := idx1 t
  show V c main_v1 (((cfg1.win 5).blk t).view.emb (ix2 k o)) = V c main_v1 (ix2 k o)
  refine congrArg (V c main_v1) (funext fun a => Fin.ext ?_)
  match a with
  | ⟨0, _⟩ => show win1_5.index t (0 : Fin 2) * 4096 + 1 * k.val = k.val; rw [e.2.2.2.2.2.2.2.2.2.2.1]; omega
  | ⟨1, _⟩ => show win1_5.index t (1 : Fin 2) * 1 + 1 * o.val = o.val; rw [e.2.2.2.2.2.2.2.2.2.2.2.1]; omega

/-- The index a 512-row slice at the block's row offset reads, in the whole `[4096,32]` array. -/
theorem sl32_idx (t : Fin cfg1.N) (p : Fin 512) (o : Fin 32) :
    (Rect.unit (s := S4096x32) (k1_off1 (grid1.coords t)) S512x32.size (k1_off1_inb (grid1.coords t))).idx (ix2 p o) = ix2 (row1 t p) o := by
  have e := idx1 t
  refine funext fun a => Fin.ext ?_
  match a with
  | ⟨0, _⟩ => show k1_off1 (grid1.coords t) (0 : Fin 2) + 1 * p.val = 512 * t.val + p.val; rw [e.2.2.2.2.2.2.2.2.2.2.2.2.2.2.1]; omega
  | ⟨1, _⟩ => show k1_off1 (grid1.coords t) (1 : Fin 2) + 1 * o.val = o.val; rw [e.2.2.2.2.2.2.2.2.2.2.2.2.2.2.2.1]; omega

/-- The same for the `[4096,1]` column. -/
theorem sl1_idx (t : Fin cfg1.N) (p : Fin 512) (z : Fin 1) :
    (Rect.unit (s := S4096x1) (k1_off2 (grid1.coords t)) S512x1.size (k1_off2_inb (grid1.coords t))).idx (ix2 p z) = ix2 (row1 t p) z := by
  have e := idx1 t
  refine funext fun a => Fin.ext ?_
  match a with
  | ⟨0, _⟩ => show k1_off2 (grid1.coords t) (0 : Fin 2) + 1 * p.val = 512 * t.val + p.val; rw [e.2.2.2.2.2.2.2.2.2.2.2.2.2.2.2.2.1]; omega
  | ⟨1, _⟩ => show k1_off2 (grid1.coords t) (1 : Fin 2) + 1 * z.val = z.val; rw [e.2.2.2.2.2.2.2.2.2.2.2.2.2.2.2.2.2]; omega

theorem xSl_apply (c : Dev nD) (t : Fin cfg1.N) (p : Fin 512) (o : Fin 32) :
    xSl V c t (ix2 p o) = V c main_v0_2 (ix2 (row1 t p) o) := by
  show (iblk1 V c 2 t : Vec Ideal S4096x32 .f32) ((Rect.unit (s := S4096x32) (k1_off1 (grid1.coords t)) S512x32.size (k1_off1_inb (grid1.coords t))).idx (ix2 p o)) = _
  rw [sl32_idx, rd1_2]

theorem dsoSl_apply (c : Dev nD) (t : Fin cfg1.N) (p : Fin 512) (z : Fin 1) :
    dsoSl V c t (ix2 p z) = V c main_v0_0 (ix2 (row1 t p) z) := by
  show (iblk1 V c 4 t : Vec Ideal S4096x1 .f32) ((Rect.unit (s := S4096x1) (k1_off2 (grid1.coords t)) S512x1.size (k1_off2_inb (grid1.coords t))).idx (ix2 p z)) = _
  rw [sl1_idx, rd1_4]

/-- The whole new-source-features array as one function of the arrays the region finds. -/
def XN (c : Dev nD) : Fin 4096 → Fin 32 → EReal :=
  Cert.Spec.xnK (V c main_arg2) (V c main_arg3) (fun i o => V c main_v0_2 (ix2 i o)) (fun i o => V c main_v0_3 (ix2 i o))
    (fun i => Cert.Spec.root (V c main_v0_0 (ix2 i (0 : Fin 1)))) (fun i => Cert.Spec.root (V c main_v1 (ix2 i (0 : Fin 1))))

set_option maxHeartbeats 1600000 in
/-- The block's buffer after the body at point `t`, entry `(p, o)`: the new source features of row `512·t + p`. -/
theorem blk_apply (c : Dev nD) (t : Fin cfg1.N) (p : Fin 512) (o : Fin 32) :
    out1_6At V c t (ix2 p o) = XN V c (row1 t p) o := by
  rw [out1_6At_eq]
  refine (pay1_apply (preAt V c t) p o).trans ?_
  refine (congrArg (fun x => max x (0 : EReal)) (pay5_apply (iblk1 V c 4 t) (iblk1 V c 5 t) (iblk1 V c 2 t) (iblk1 V c 3 t) (iblk1 V c 1 t) (iblk1 V c 0 t) (xSl V c t) (dsoSl V c t) p o)).trans ?_
  unfold XN Cert.Spec.xnK
  simp only [xSl_apply, dsoSl_apply, rd1_0, rd1_1, rd1_2, rd1_3, rd1_4, rd1_5]

theorem emb1_6 (t : Fin cfg1.N) (p : Fin 512) (o : Fin 32) :
    ((cfg1.win 6).blk t).view.emb (ix2 p o) = ix2 (row1 t p) o := by
  have e := idx1 t
  refine funext fun a => Fin.ext ?_
  match a with
  | ⟨0, _⟩ => show win1_6.index t (0 : Fin 2) * 512 + 1 * p.val = 512 * t.val + p.val; rw [e.2.2.2.2.2.2.2.2.2.2.2.2.1]; omega
  | ⟨1, _⟩ => show win1_6.index t (1 : Fin 2) * 32 + 1 * o.val = o.val; rw [e.2.2.2.2.2.2.2.2.2.2.2.2.2.1]; omega

/-- What point `t` writes back is block `t` of that function. -/
theorem flushed1_6_eq (c : Dev nD) (t : Fin cfg1.N) :
    (dat1 V c).flushed 6 t = ((cfg1.win 6).blk t).view.read (Elt Ideal) (fun i : S4096x32.Idx => XN V c (i 0) (i 1)) := by
  show (cfg1.win 6).cut (grid1.coords t) ((dat1 V c).after 6 t) = _
  rw [after1_6]
  funext y
  obtain ⟨p, o, rfl⟩ : ∃ (p : Fin 512) (o : Fin 32), y = ix2 p o := ⟨y 0, y 1, eq_ix2 y⟩
  show out1_6At V c t (ix2 p o) = (fun i : S4096x32.Idx => XN V c (i 0) (i 1)) (((cfg1.win 6).blk t).view.emb (ix2 p o))
  rw [emb1_6, blk_apply]

theorem mem_blk1_6 (t : Fin cfg1.N) (i : S4096x32.Idx) :
    i ∈ ((cfg1.win 6).blk t).view.set ↔ ∀ a : Fin 2, win1_6.index t a * S512x32.size a ≤ (i a).val ∧ (i a).val < win1_6.index t a * S512x32.size a + S512x32.size a := by
  show i ∈ ((View.whole main_v2_0).slice (win1_6.rect t)).set ↔ _
  rw [View.set_slice_whole, Rect.mem_set_unit]
  exact Iff.rfl

/-- The eight blocks tile the array, so after the run it is that function everywhere. -/
theorem final1_6 (c : Dev nD) : (dat1 V c).arrAt 6 cfg1.N = fun i : S4096x32.Idx => XN V c (i 0) (i 1) :=
  (dat1 V c).arrAt_eq_of_cover 6 (fun i : S4096x32.Idx => XN V c (i 0) (i 1)) (fun t _ => flushed1_6_eq V c t) fun i => by
    have hi0 : (i 0).val < 4096 := (i 0).isLt
    have hi1 : (i 1).val < 32 := (i 1).isLt
    have hN : cfg1.N = 8 := N_1
    refine ⟨⟨(i 0).val / 512, by omega⟩, flush1_6 _, ?_⟩
    rw [mem_blk1_6]
    have e := idx1 ⟨(i 0).val / 512, by omega⟩
    intro a
    match a with
    | ⟨0, _⟩ =>
      show win1_6.index ⟨(i 0).val / 512, _⟩ (0 : Fin 2) * 512 ≤ (i 0).val ∧ (i 0).val < win1_6.index ⟨(i 0).val / 512, _⟩ (0 : Fin 2) * 512 + 512
      rw [e.2.2.2.2.2.2.2.2.2.2.2.2.1]; dsimp only; omega
    | ⟨1, _⟩ =>
      show win1_6.index ⟨(i 0).val / 512, _⟩ (1 : Fin 2) * 32 ≤ (i 1).val ∧ (i 1).val < win1_6.index ⟨(i 0).val / 512, _⟩ (1 : Fin 2) * 32 + 32
      rw [e.2.2.2.2.2.2.2.2.2.2.2.2.2.1]; omega

/-- Entry `(i, o)` of the region's block output array. -/
theorem r1_xn (c : Dev nD) (i : Fin 4096) (o : Fin 32) : (dat1 V c).arrAt 6 cfg1.N (ix2 i o) = XN V c i o := by
  rw [final1_6]

end AtIdeal

end R1X

end Cert.KernelIdeal.Hand

end
-- ==== Proof.Compose.lean ====
import proofs.«139708_g36129264894619_cont_8to1_b_1456_17_alg».proof.Proof.Frames
import proofs.«139708_g36129264894619_cont_8to1_b_1456_17_alg».proof.Proof.R1Xn
import proofs.«139708_g36129264894619_cont_8to1_b_1456_17_alg».proof.Proof.R2Value
import proofs.«139708_g36129264894619_cont_8to1_b_1456_17_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.Spec (proj degRow degCol root xnK ypK ynK)
open scoped BigOperators

namespace Comp

/-! # The kernel's two results, entry by entry

Reading the boundary contents one item at a time: the first region leaves the row degrees, the column degrees and the two
projected feature matrices; the reshape turns the column degrees into a column; the second region leaves the new source
features and the transposed product; the third leaves the new target features. Substituting each into the next gives
the two results as the scaled-feature forms of the specification over the six argument arrays. -/

variable (m : (ℓ : Loc nD τ sig) → Buf (Elt Ideal) ℓ) (ρ : Dev nD → PrngReg)

-- what the first two regions leave, read at an entry (proved in their own modules; taken here as hypotheses so that this
-- module depends only on their statements)
variable
  (H6 : ∀ (V : (c : Dev nD) → (b : Ref sig .tc) → Buf (Elt Ideal) ((c : Thread nD τ).loc b)) (c : Dev nD) (i : Fin 4096) (z : Fin 1),
    (dat0 V c).arrAt 6 cfg0.N (ix2 i z) = degRow (V c main_arg2) (V c main_arg3) i)
  (H7 : ∀ (V : (c : Dev nD) → (b : Ref sig .tc) → Buf (Elt Ideal) ((c : Thread nD τ).loc b)) (c : Dev nD) (z : Fin 1) (j : Fin 4096),
    (dat0 V c).arrAt 7 cfg0.N (ix2 z j) = degCol (V c main_arg2) (V c main_arg4) j)
  (H8 : ∀ (V : (c : Dev nD) → (b : Ref sig .tc) → Buf (Elt Ideal) ((c : Thread nD τ).loc b)) (c : Dev nD) (i : Fin 4096) (o : Fin 32),
    (dat0 V c).arrAt 8 cfg0.N (ix2 i o) = proj (V c main_arg0) (V c main_arg5) i o)
  (H9 : ∀ (V : (c : Dev nD) → (b : Ref sig .tc) → Buf (Elt Ideal) ((c : Thread nD τ).loc b)) (c : Dev nD) (i : Fin 4096) (o : Fin 32),
    (dat0 V c).arrAt 9 cfg0.N (ix2 i o) = proj (V c main_arg1) (V c main_arg5) i o)
  (HYP : ∀ (V : (c : Dev nD) → (b : Ref sig .tc) → Buf (Elt Ideal) ((c : Thread nD τ).loc b)) (c : Dev nD) (XN : Fin 4096 → Fin 32 → EReal)
    (hXN : ∀ (t : Fin cfg1.N) (r : Fin 512) (o : Fin 32), out1_6At V c t (ix2 r o) = XN ⟨512 * t.val + r.val, by have := t.isLt; have h8 : cfg1.N = 8 := N_1; have := r.isLt; omega⟩ o)
    (j : Fin 4096) (o : Fin 32),
    (dat1 V c).arrAt 7 cfg1.N (ix2 j o) = ypK (V c main_arg2) XN (fun i => root (V c main_v0_0 (ix2 i (0 : Fin 1)))) j o)

/-- The six argument arrays as launched. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)

/-! ## After the first region -/

theorem W1_arg2 (c : Dev nD) : W1 m ρ c (Proc.devRef .tc main_arg2) = a2 m c :=
  (W1_arr m ρ c 0).trans (((dat0 (V0 m ρ) c).arrAt_in 0 rfl _).trans (A_eq0 (V0 m ρ) c 0))
theorem W1_arg3 (c : Dev nD) : W1 m ρ c (Proc.devRef .tc main_arg3) = a3 m c :=
  (W1_arr m ρ c 1).trans (((dat0 (V0 m ρ) c).arrAt_in 1 rfl _).trans (A_eq0 (V0 m ρ) c 1))
theorem W1_arg4 (c : Dev nD) : W1 m ρ c (Proc.devRef .tc main_arg4) = a4 m c :=
  (W1_arr m ρ c 2).trans (((dat0 (V0 m ρ) c).arrAt_in 2 rfl _).trans (A_eq0 (V0 m ρ) c 2))

include H6 in
theorem W1_dso (c : Dev nD) (i : Fin 4096) (z : Fin 1) : W1 m ρ c (Proc.devRef .tc main_v0_0) (ix2 i z) = degRow (a2 m c) (a3 m c) i :=
  (congrFun (W1_arr m ρ c 6) (ix2 i z)).trans (H6 (V0 m ρ) c i z)
include H7 in
theorem W1_dto (c : Dev nD) (z : Fin 1) (j : Fin 4096) : W1 m ρ c (Proc.devRef .tc main_v0_1) (ix2 z j) = degCol (a2 m c) (a4 m c) j :=
  (congrFun (W1_arr m ρ c 7) (ix2 z j)).trans (H7 (V0 m ρ) c z j)
include H8 in
theorem W1_x (c : Dev nD) (i : Fin 4096) (o : Fin 32) : W1 m ρ c (Proc.devRef .tc main_v0_2) (ix2 i o) = proj (a0 m c) (a5 m c) i o :=
  (congrFun (W1_arr m ρ c 8) (ix2 i o)).trans (H8 (V0 m ρ) c i o)
include H9 in
theorem W1_y (c : Dev nD) (i : Fin 4096) (o : Fin 32) : W1 m ρ c (Proc.devRef .tc main_v0_3) (ix2 i o) = proj (a1 m c) (a5 m c) i o :=
  (congrFun (W1_arr m ρ c 9) (ix2 i o)).trans (H9 (V0 m ρ) c i o)

/-! ## After the reshape -/

theorem W2_main_arg2 (c : Dev nD) : W2 m ρ c (Proc.devRef .tc main_arg2) = W1 m ρ c (Proc.devRef .tc main_arg2) :=
  StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_arg3 (c : Dev nD) : W2 m ρ c (Proc.devRef .tc main_arg3) = W1 m ρ c (Proc.devRef .tc main_arg3) :=
  StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_arg4 (c : Dev nD) : W2 m ρ c (Proc.devRef .tc main_arg4) = W1 m ρ c (Proc.devRef .tc main_arg4) :=
  StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_v0_0 (c : Dev nD) : W2 m ρ c (Proc.devRef .tc main_v0_0) = W1 m ρ c (Proc.devRef .tc main_v0_0) :=
  StableHlo.after_of_forall_not_mem (b := Proc.devRef .tc main_v0_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_v0_2 (c : Dev nD) : W2 m ρ c (Proc.devRef .tc main_v0_2) = W1 m ρ c (Proc.devRef .tc main_v0_2) :=
  StableHlo.after_of_forall_not_mem (b := Proc.devRef .tc main_v0_2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_v0_3 (c : Dev nD) : W2 m ρ c (Proc.devRef .tc main_v0_3) = W1 m ρ c (Proc.devRef .tc main_v0_3) :=
  StableHlo.after_of_forall_not_mem (b := Proc.devRef .tc main_v0_3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The reshape's result is the column-degree row re-read as a column. -/
theorem W2_v1_eq (c : Dev nD) : (W2 m ρ c (Proc.devRef .tc main_v1) : S4096x1.Idx → EReal)
    = shapeCast S4096x1 (W1 m ρ c (Proc.devRef .tc main_v0_1)) shapeCasts_S1x4096_S4096x1 := by
  dsimp only [W2, hostOps1]; after_results; rfl

/-- Entry `i` of the column is entry `i` of the row. -/
theorem W2_v1 (c : Dev nD) (i : Fin 4096) (z : Fin 1) :
    W2 m ρ c (Proc.devRef .tc main_v1) (ix2 i z) = W1 m ρ c (Proc.devRef .tc main_v0_1) (ix2 (0 : Fin 1) i) := by
  rw [W2_v1_eq]
  refine shapeCast_apply _ _ (ix2 i z) (ix2 (0 : Fin 1) i) ?_
  rw [Shape.rowMajor_val_two, Shape.rowMajor_val_two]
  have hz : z.val = 0 := by have := z.isLt; omega
  show 0 * 4096 + i.val = i.val * 1 + z.val
  omega

/-! ## What the second region reads, over the arguments -/

theorem V2_a2 (c : Dev nD) : V2 m ρ c main_arg2 = a2 m c := (W2_main_arg2 m ρ c).trans (W1_arg2 m ρ c)
theorem V2_a3 (c : Dev nD) : V2 m ρ c main_arg3 = a3 m c := (W2_main_arg3 m ρ c).trans (W1_arg3 m ρ c)

include H8 in
theorem x2 (c : Dev nD) : (fun (i : Fin 4096) (o : Fin 32) => V2 m ρ c main_v0_2 (ix2 i o)) = proj (a0 m c) (a5 m c) :=
  funext fun i => funext fun o => (congrFun (W2_main_v0_2 m ρ c) (ix2 i o)).trans (W1_x m ρ H8 c i o)
include H9 in
theorem y2 (c : Dev nD) : (fun (i : Fin 4096) (o : Fin 32) => V2 m ρ c main_v0_3 (ix2 i o)) = proj (a1 m c) (a5 m c) :=
  funext fun i => funext fun o => (congrFun (W2_main_v0_3 m ρ c) (ix2 i o)).trans (W1_y m ρ H9 c i o)
include H6 in
theorem rs2 (c : Dev nD) : (fun i : Fin 4096 => root (V2 m ρ c main_v0_0 (ix2 i (0 : Fin 1)))) = fun i => root (degRow (a2 m c) (a3 m c) i) :=
  funext fun i => congrArg root ((congrFun (W2_main_v0_0 m ρ c) (ix2 i (0 : Fin 1))).trans (W1_dso m ρ H6 c i 0))
include H7 in
theorem rt2 (c : Dev nD) : (fun i : Fin 4096 => root (V2 m ρ c main_v1 (ix2 i (0 : Fin 1)))) = fun j => root (degCol (a2 m c) (a4 m c) j) :=
  funext fun i => congrArg root ((W2_v1 m ρ c i 0).trans (W1_dto m ρ H7 c 0 i))

/-- The kernel's new source features, over the arguments. -/
def XK (c : Dev nD) : Fin 4096 → Fin 32 → EReal :=
  xnK (a2 m c) (a3 m c) (proj (a0 m c) (a5 m c)) (proj (a1 m c) (a5 m c))
    (fun i => root (degRow (a2 m c) (a3 m c) i)) (fun j => root (degCol (a2 m c) (a4 m c) j))

include H6 H7 H8 H9 in
theorem XN2 (c : Dev nD) : R1X.XN (V2 m ρ) c = XK m c := by
  unfold R1X.XN XK
  rw [V2_a2, V2_a3, x2 m ρ H8, y2 m ρ H9, rs2 m ρ H6, rt2 m ρ H7]

/-! ## After the second region -/

include H6 H7 H8 H9 in
theorem W3_xn (c : Dev nD) (i : Fin 4096) (o : Fin 32) : W3 m ρ c (Proc.devRef .tc main_v2_0) (ix2 i o) = XK m c i o :=
  (congrFun (W3_arr m ρ c 6) (ix2 i o)).trans ((R1X.r1_xn (V2 m ρ) c i o).trans (congrFun (congrFun (XN2 m ρ H6 H7 H8 H9 c) i) o))

include H6 H7 H8 H9 HYP in
theorem W3_yp (c : Dev nD) (j : Fin 4096) (o : Fin 32) : W3 m ρ c (Proc.devRef .tc main_v2_1) (ix2 j o)
    = ypK (a2 m c) (XK m c) (fun i => root (degRow (a2 m c) (a3 m c) i)) j o := by
  refine (congrFun (W3_arr m ρ c 7) (ix2 j o)).trans ?_
  refine (HYP (V2 m ρ) c (XK m c) (fun t r o => (R1X.blk_apply (V2 m ρ) c t r o).trans (congrFun (congrFun (XN2 m ρ H6 H7 H8 H9 c) _) o)) j o).trans ?_
  rw [V2_a2, rs2 m ρ H6]

theorem W3_main_arg4 (c : Dev nD) : W3 m ρ c (Proc.devRef .tc main_arg4) = W2 m ρ c (Proc.devRef .tc main_arg4) := W3_of_ne m ρ c main_arg4 (by decide)
theorem W3_main_v0_3 (c : Dev nD) : W3 m ρ c (Proc.devRef .tc main_v0_3) = W2 m ρ c (Proc.devRef .tc main_v0_3) :=
  (W3_arr m ρ c 3).trans (((dat1 (V2 m ρ) c).arrAt_in 3 rfl _).trans (A_eq1 (V2 m ρ) c 3))
theorem W3_main_v1 (c : Dev nD) : W3 m ρ c (Proc.devRef .tc main_v1) = W2 m ρ c (Proc.devRef .tc main_v1) :=
  (W3_arr m ρ c 5).trans (((dat1 (V2 m ρ) c).arrAt_in 5 rfl _).trans (A_eq1 (V2 m ρ) c 5))

/-! ## What the third region reads, over the arguments -/

theorem V3_a4 (c : Dev nD) : V3 m ρ c main_arg4 = a4 m c := (W3_main_arg4 m ρ c).trans ((W2_main_arg4 m ρ c).trans (W1_arg4 m ρ c))
include H9 in
theorem y3 (c : Dev nD) : (fun (i : Fin 4096) (o : Fin 32) => V3 m ρ c main_v0_3 (ix2 i o)) = proj (a1 m c) (a5 m c) :=
  funext fun i => funext fun o => (congrFun (W3_main_v0_3 m ρ c) (ix2 i o)).trans ((congrFun (W2_main_v0_3 m ρ c) (ix2 i o)).trans (W1_y m ρ H9 c i o))
include H6 H7 H8 H9 HYP in
theorem yp3 (c : Dev nD) : (fun (i : Fin 4096) (o : Fin 32) => V3 m ρ c main_v2_1 (ix2 i o))
    = ypK (a2 m c) (XK m c) (fun i => root (degRow (a2 m c) (a3 m c) i)) :=
  funext fun j => funext fun o => W3_yp m ρ H6 H7 H8 H9 HYP c j o
include H7 in
theorem rt3 (c : Dev nD) : (fun i : Fin 4096 => root (V3 m ρ c main_v1 (ix2 i (0 : Fin 1)))) = fun j => root (degCol (a2 m c) (a4 m c) j) :=
  funext fun i => congrArg root ((congrFun (W3_main_v1 m ρ c) (ix2 i (0 : Fin 1))).trans ((W2_v1 m ρ c i 0).trans (W1_dto m ρ H7 c 0 i)))

/-! ## The two results -/

include H6 H7 H8 H9 in
/-- The first result: the new source features. -/
theorem W4_xn (c : Dev nD) (i : Fin 4096) (o : Fin 32) : W4 m ρ c (Proc.devRef .tc main_v2_0) (ix2 i o) = XK m c i o :=
  (congrFun (W4_of_ne m ρ c main_v2_0 (by decide)) (ix2 i o)).trans (W3_xn m ρ H6 H7 H8 H9 c i o)

include H6 H7 H8 H9 HYP in
/-- The second result: the new target features, over the kernel's new source features. -/
theorem W4_yn (c : Dev nD) (i : Fin 4096) (o : Fin 32) : W4 m ρ c (Proc.devRef .tc main_v3) (ix2 i o)
    = ynK (a4 m c) (proj (a1 m c) (a5 m c)) (ypK (a2 m c) (XK m c) (fun i => root (degRow (a2 m c) (a3 m c) i)))
        (fun j => root (degCol (a2 m c) (a4 m c) j)) i o := by
  refine (congrFun (W4_arr m ρ c 4) (ix2 i o)).trans ?_
  refine (R2.r2_yn (V3 m ρ) c i o).trans ?_
  rw [V3_a4, y3 m ρ H9, yp3 m ρ H6 H7 H8 H9 HYP, rt3 m ρ H7]

end Comp

end Cert.KernelIdeal.Hand

end
-- ==== Proof.R0Value.lean ====
import proofs.«139708_g36129264894619_cont_8to1_b_1456_17_alg».proof.Proof.R0Frame
import proofs.«139708_g36129264894619_cont_8to1_b_1456_17_alg».proof.Proof.Spec
import proofs.«139708_g36129264894619_cont_8to1_b_1456_17_alg».proof.Proof.ValLib
import Idealize.ShloMosaic.Lib.Pipeline.Value
import Idealize.ShloMosaic.Lib.ValueIdx
import Idealize.ShloMosaic.Lib.ValueLayout
import Idealize.ShloMosaic.PureOps.Ideal.Laws

/-!
# The degree-and-projection region, read as values

Over a grid of eight row blocks of 512, the region leaves four arrays: the row degrees (each row of the two source-side
adjacency matrices summed), the column degrees (each column of the two target-side matrices summed, accumulated block of
rows by block of rows), and the two feature matrices times the weight. Each is stated entry by entry on the extended
reals.
-/

set_option maxRecDepth 16384

noncomputable section

open scoped BigOperators

namespace Cert.KernelIdeal.Hand.R0V

open Cert.KernelIdeal Cert.KernelIdeal.Gen Cert.KernelIdeal.Val Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx

/-! # The degree-and-projection region: what its four output arrays hold

## Each output buffer after the body is the body's payload of that point's input blocks -/

section Generic
variable {F : FTy → Type} [FloatOps F]
variable (V : (c : Dev nD) → (b : Ref sig .tc) → Buf (Elt F) ((c : Thread nD τ).loc b))

set_option maxHeartbeats 1600000 in
/-- First point: the projected source block is the source feature block times the weight. -/
theorem outA8_eq (c : Dev nD) (t : Fin cfg0.N) (h0 : t.val % 8 = 0) :
    outA8 V c t h0 = k0_pay4 (iblk0 V c 3 t) (iblk0 V c 5 t) := by
  unfold outA8
  rw [View.read_writes_eq_canon _ _ _ (cover0_A_8 c _ _ _ _ _ _ _ _ _ _ _ _ _ _ _ _ _ _ _ _ _ _ _ _ _ _ _ _ _)]
  unfold kernelRun0_A
  dsimp only
  rw [View.canon_unit_zero hz2]
  simp only [View.readAt_eq_ld, (hs0_3 t).read_unread, (hs0_5 t).read_unread, View.ld_unit_zero (S := S512x128) hz2, View.ld_unit_zero (S := S128x32) hz2]

set_option maxHeartbeats 1600000 in
/-- Later points: the same. -/
theorem outB8_eq (c : Dev nD) (t : Fin cfg0.N) (h0 : ¬ t.val % 8 = 0) (xo7 : Vec F S1x4096 .f32) :
    outB8 V c t h0 xo7 = k0_pay4 (iblk0 V c 3 t) (iblk0 V c 5 t) := by
  unfold outB8
  rw [View.read_writes_eq_canon _ _ _ (cover0_B_8 c _ _ _ _ _ _ _ _ _ _ _ _ _ _ _ _ _ _ _ _ _ _ _ _ _ _ _ _ _ _)]
  unfold kernelRun0_B
  dsimp only
  rw [View.canon_unit_zero hz2]
  simp only [View.readAt_eq_ld, (hs0_3 t).read_unread, (hs0_5 t).read_unread, View.ld_unit_zero (S := S512x128) hz2, View.ld_unit_zero (S := S128x32) hz2]

set_option maxHeartbeats 1600000 in
/-- First point: the projected target block is the target feature block times the weight. -/
theorem outA9_eq (c : Dev nD) (t : Fin cfg0.N) (h0 : t.val % 8 = 0) :
    outA9 V c t h0 = k0_pay5 (iblk0 V c 4 t) (iblk0 V c 5 t) := by
  unfold outA9
  rw [View.read_writes_eq_canon _ _ _ (cover0_A_9 c _ _ _ _ _ _ _ _ _ _ _ _ _ _ _ _ _ _ _ _ _ _ _ _ _ _ _ _ _)]
  unfold kernelRun0_A
  dsimp only
  sl_unfold_words
  rw [View.canon_unit_zero hz2]
  simp only [View.readAt_eq_ld, (hs0_4 t).read_unread, (hs0_5 t).read_unread, View.ld_unit_zero (S := S512x128) hz2, View.ld_unit_zero (S := S128x32) hz2]

set_option maxHeartbeats 1600000 in
/-- Later points: the same. -/
theorem outB9_eq (c : Dev nD) (t : Fin cfg0.N) (h0 : ¬ t.val % 8 = 0) (xo7 : Vec F S1x4096 .f32) :
    outB9 V c t h0 xo7 = k0_pay5 (iblk0 V c 4 t) (iblk0 V c 5 t) := by
  unfold outB9
  rw [View.read_writes_eq_canon _ _ _ (cover0_B_9 c _ _ _ _ _ _ _ _ _ _ _ _ _ _ _ _ _ _ _ _ _ _ _ _ _ _ _ _ _ _)]
  unfold kernelRun0_B
  dsimp only
  sl_unfold_words
  rw [View.canon_unit_zero hz2]
  simp only [View.readAt_eq_ld, (hs0_4 t).read_unread, (hs0_5 t).read_unread, View.ld_unit_zero (S := S512x128) hz2, View.ld_unit_zero (S := S128x32) hz2]

set_option maxHeartbeats 1600000 in
/-- First point: the row-degree block is the row sums of the two source-side adjacency blocks, added. -/
theorem outA6_eq (c : Dev nD) (t : Fin cfg0.N) (h0 : t.val % 8 = 0) :
    outA6 V c t h0 = k0_pay1 (iblk0 V c 0 t) (iblk0 V c 1 t) := by
  unfold outA6
  rw [View.read_writes_eq_canon _ _ _ (cover0_A_6 c _ _ _ _ _ _ _ _ _ _ _ _ _ _ _ _ _ _ _ _ _ _ _ _ _ _ _ _ _)]
  unfold kernelRun0_A
  dsimp only
  rw [View.canon_unit_zero hz2]
  simp only [View.readAt_eq_ld, (hs0_0 t).read_unread, (hs0_1 t).read_unread, View.ld_unit_zero (S := S512x4096) hz2]

set_option maxHeartbeats 1600000 in
/-- Later points: the same. -/
theorem outB6_eq (c : Dev nD) (t : Fin cfg0.N) (h0 : ¬ t.val % 8 = 0) (xo7 : Vec F S1x4096 .f32) :
    outB6 V c t h0 xo7 = k0_pay1 (iblk0 V c 0 t) (iblk0 V c 1 t) := by
  unfold outB6
  rw [View.read_writes_eq_canon _ _ _ (cover0_B_6 c _ _ _ _ _ _ _ _ _ _ _ _ _ _ _ _ _ _ _ _ _ _ _ _ _ _ _ _ _ _)]
  unfold kernelRun0_B
  dsimp only
  rw [View.canon_unit_zero hz2]
  simp only [View.readAt_eq_ld, (hs0_0 t).read_unread, (hs0_1 t).read_unread, View.ld_unit_zero (S := S512x4096) hz2]

set_option maxHeartbeats 1600000 in
/-- First point: the column-degree accumulator is overwritten with the column sums of the two target-side blocks, added. -/
theorem outA7_eq (c : Dev nD) (t : Fin cfg0.N) (h0 : t.val % 8 = 0) :
    outA7 V c t h0 = k0_pay2 (iblk0 V c 0 t) (iblk0 V c 2 t) := by
  unfold outA7
  rw [View.read_writes_eq_canon _ _ _ (cover0_A_7 c _ _ _ _ _ _ _ _ _ _ _ _ _ _ _ _ _ _ _ _ _ _ _ _ _ _ _ _ _)]
  unfold kernelRun0_A
  dsimp only
  rw [View.canon_unit_zero hz2]
  simp only [View.readAt_eq_ld, (hs0_0 t).read_unread, (hs0_2 t).read_unread, View.ld_unit_zero (S := S512x4096) hz2]

set_option maxHeartbeats 1600000 in
/-- Later points: those column sums are added to what the accumulator held on entry. -/
theorem outB7_eq (c : Dev nD) (t : Fin cfg0.N) (h0 : ¬ t.val % 8 = 0) (xo7 : Vec F S1x4096 .f32) :
    outB7 V c t h0 xo7 = k0_pay3 (iblk0 V c 0 t) (iblk0 V c 2 t) xo7 := by
  unfold outB7
  rw [View.read_writes_eq_canon _ _ _ (cover0_B_7 c _ _ _ _ _ _ _ _ _ _ _ _ _ _ _ _ _ _ _ _ _ _ _ _ _ _ _ _ _ _)]
  unfold kernelRun0_B
  dsimp only
  rw [View.canon_unit_zero hz2]
  simp only [View.readAt_eq_ld, (hs0_0 t).read_unread, (hs0_2 t).read_unread, (hs0_7 t).read_unread, View.ld_unit_zero (S := S512x4096) hz2, View.ld_unit_zero (S := S1x4096) hz2]

end Generic

/-! ## The payloads at an entry, on the extended reals -/

section AtIdeal

theorem pjL0 (i : S512x32.Idx) (q : dot_S512x128_S128x32_S512x32_1_0_0_1_n_n.contr.Idx) : (dot_S512x128_S128x32_S512x32_1_0_0_1_n_n.lhsIdx i q 0).val = (i 0).val := by
  unfold DotDims.lhsIdx
  rw [dif_neg (show ¬(0 : Fin S512x128.rank) ∈ dot_S512x128_S128x32_S512x32_1_0_0_1_n_n.lhsBatch by decide), dif_pos (show (0 : Fin S512x128.rank) ∈ dot_S512x128_S128x32_S512x32_1_0_0_1_n_n.lhsNonContracting by decide)]
  rfl
theorem pjL1 (i : S512x32.Idx) (q : dot_S512x128_S128x32_S512x32_1_0_0_1_n_n.contr.Idx) : (dot_S512x128_S128x32_S512x32_1_0_0_1_n_n.lhsIdx i q 1).val = (q ⟨0, by decide⟩).val :=
  dot_S512x128_S128x32_S512x32_1_0_0_1_n_n.lhsIdx_val_of_single rfl i q
theorem pjR0 (i : S512x32.Idx) (q : dot_S512x128_S128x32_S512x32_1_0_0_1_n_n.contr.Idx) : (dot_S512x128_S128x32_S512x32_1_0_0_1_n_n.rhsIdx i q 0).val = (q ⟨0, by decide⟩).val :=
  dot_S512x128_S128x32_S512x32_1_0_0_1_n_n.rhsIdx_val_of_single rfl i q
theorem pjR1 (i : S512x32.Idx) (q : dot_S512x128_S128x32_S512x32_1_0_0_1_n_n.contr.Idx) : (dot_S512x128_S128x32_S512x32_1_0_0_1_n_n.rhsIdx i q 1).val = (i 1).val := by
  unfold DotDims.rhsIdx
  rw [dif_neg (show ¬(1 : Fin S128x32.rank) ∈ dot_S512x128_S128x32_S512x32_1_0_0_1_n_n.rhsBatch by decide), dif_pos (show (1 : Fin S128x32.rank) ∈ dot_S512x128_S128x32_S512x32_1_0_0_1_n_n.rhsNonContracting by decide)]
  rfl

/-- Entry `(p, o)` of a 512×128 block times the 128×32 weight, into a zero accumulator: the sum over the 128 shared
    coordinates. -/
theorem proj_blk (X : FVec Ideal S512x128 .f32) (W : FVec Ideal S128x32 .f32) (p : Fin 512) (o : Fin 32) :
    matmul dot_S512x128_S128x32_S512x32_1_0_0_1_n_n none X W (constant (F := Ideal) S512x32 .f32 0x00000000#32) (ix2 p o)
      = ∑ k : Fin 128, X (ix2 p k) * W (ix2 k o) := by
  simp only [matmul]
  rw [Ideal.matmul_constant_zero_apply, ← Equiv.sum_comp (contrEquiv1 dot_S512x128_S128x32_S512x32_1_0_0_1_n_n 128 rfl rfl).symm]
  refine Finset.sum_congr rfl fun k _ => ?_
  have hk := contrEquiv1_symm_val dot_S512x128_S128x32_S512x32_1_0_0_1_n_n 128 rfl rfl k
  have el : dot_S512x128_S128x32_S512x32_1_0_0_1_n_n.lhsIdx (ix2 p o) ((contrEquiv1 dot_S512x128_S128x32_S512x32_1_0_0_1_n_n 128 rfl rfl).symm k) = ix2 p k := funext fun a => Fin.ext (by
    match a with
    | ⟨0, _⟩ => exact pjL0 _ _
    | ⟨1, _⟩ => exact (pjL1 _ _).trans hk)
  have er : dot_S512x128_S128x32_S512x32_1_0_0_1_n_n.rhsIdx (ix2 p o) ((contrEquiv1 dot_S512x128_S128x32_S512x32_1_0_0_1_n_n 128 rfl rfl).symm k) = ix2 k o := funext fun a => Fin.ext (by
    match a with
    | ⟨0, _⟩ => exact (pjR0 _ _).trans hk
    | ⟨1, _⟩ => exact pjR1 _ _)
  rw [el, er]

/-- The projected source block at `(p, o)`. -/
theorem pay4_apply (X : Vec Ideal S512x128 .f32) (W : Vec Ideal S128x32 .f32) (p : Fin 512) (o : Fin 32) :
    k0_pay4 (F := Ideal) X W (ix2 p o) = ∑ k : Fin 128, X (ix2 p k) * W (ix2 k o) := proj_blk X W p o

/-- The projected target block at `(p, o)`. -/
theorem pay5_apply (X : Vec Ideal S512x128 .f32) (W : Vec Ideal S128x32 .f32) (p : Fin 512) (o : Fin 32) :
    k0_pay5 (F := Ideal) X W (ix2 p o) = ∑ k : Fin 128, X (ix2 p k) * W (ix2 k o) := proj_blk X W p o

end AtIdeal

/-! ## Where each window's block sits, and the input blocks read at an entry -/

/-- The row-blocked windows sit at block row `t`; the weight and the column-degree accumulator at the origin. -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)
theorem idx0_4 : ∀ t : Fin cfg0.N, win0_4.index t (0 : Fin 2) = t.val ∧ win0_4.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)

theorem N8 : cfg0.N = 8 := N_0

section Blocks
variable {F : FTy → Type} [FloatOps F]
variable (V : (c : Dev nD) → (b : Ref sig .tc) → Buf (Elt F) ((c : Thread nD τ).loc b))

/-- Row `p` of point `t`'s block is row `512 t + p` of the array. -/
abbrev rowOf (t : Fin cfg0.N) (p : Fin 512) : Fin 4096 := ⟨512 * t.val + p.val, by have := t.isLt; have := N8; omega⟩

theorem iblk0_3_apply (c : Dev nD) (t : Fin cfg0.N) (p : Fin 512) (k : Fin 128) :
    (iblk0 V c 3 t : Vec F S512x128 .f32) (ix2 p k) = (V c main_arg0 : S4096x128.Idx → Elt F .f32) (ix2 (rowOf t p) k) := by
  obtain ⟨e0, e1⟩ := idx0_3 t
  show V c main_arg0 (((cfg0.win 3).blk t).view.emb (ix2 p k)) = V c main_arg0 (ix2 (rowOf t p) k)
  refine congrArg (V c main_arg0) (funext fun a => Fin.ext ?_)
  match a with
  | ⟨0, _⟩ => show win0_3.index t (0 : Fin 2) * 512 + 1 * p.val = 512 * t.val + p.val; rw [e0]; omega
  | ⟨1, _⟩ => show win0_3.index t (1 : Fin 2) * 128 + 1 * k.val = k.val; rw [e1]; omega

theorem iblk0_4_apply (c : Dev nD) (t : Fin cfg0.N) (p : Fin 512) (k : Fin 128) :
    (iblk0 V c 4 t : Vec F S512x128 .f32) (ix2 p k) = (V c main_arg1 : S4096x128.Idx → Elt F .f32) (ix2 (rowOf t p) k) := by
  obtain ⟨e0, e1⟩ := idx0_4 t
  show V c main_arg1 (((cfg0.win 4).blk t).view.emb (ix2 p k)) = V c main_arg1 (ix2 (rowOf t p) k)
  refine congrArg (V c main_arg1) (funext fun a => Fin.ext ?_)
  match a with
  | ⟨0, _⟩ => show win0_4.index t (0 : Fin 2) * 512 + 1 * p.val = 512 * t.val + p.val; rw [e0]; omega
  | ⟨1, _⟩ => show win0_4.index t (1 : Fin 2) * 128 + 1 * k.val = k.val; rw [e1]; omega

theorem iblk0_5_apply (c : Dev nD) (t : Fin cfg0.N) (k : Fin 128) (o : Fin 32) :
    (iblk0 V c 5 t : Vec F S128x32 .f32) (ix2 k o) = (V c main_arg5 : S128x32.Idx → Elt F .f32) (ix2 k o) := by
  obtain ⟨e0, e1⟩ := idx0_5 t
  show V c main_arg5 (((cfg0.win 5).blk t).view.emb (ix2 k o)) = V c main_arg5 (ix2 k o)
  refine congrArg (V c main_arg5) (funext fun a => Fin.ext ?_)
  match a with
  | ⟨0, _⟩ => show win0_5.index t (0 : Fin 2) * 128 + 1 * k.val = k.val; rw [e0]; omega
  | ⟨1, _⟩ => show win0_5.index t (1 : Fin 2) * 32 + 1 * o.val = o.val; rw [e1]; omega

/-- Both cases leave the same projected source block. -/
theorem out8At_eq (c : Dev nD) (t : Fin cfg0.N) : out8At V c t = k0_pay4 (iblk0 V c 3 t) (iblk0 V c 5 t) := by
  by_cases h0 : t.val % 8 = 0
  · rw [out8At_A V c t h0, outA8_eq]
  · rw [out8At_B V c t h0, outB8_eq]

/-- Both cases leave the same projected target block. -/
theorem out9At_eq (c : Dev nD) (t : Fin cfg0.N) : out9At V c t = k0_pay5 (iblk0 V c 4 t) (iblk0 V c 5 t) := by
  by_cases h0 : t.val % 8 = 0
  · rw [out9At_A V c t h0, outA9_eq]
  · rw [out9At_B V c t h0, outB9_eq]

end Blocks

/-! ## The two projected arrays -/

/-- The grid point whose block holds row `r`. -/
abbrev ptOf (r : Fin 4096) : Fin cfg0.N := ⟨r.val / 512, by have := r.isLt; rw [N8]; omega⟩

section Arrays
variable (V : (c : Dev nD) → (b : Ref sig .tc) → Buf (Elt Ideal) ((c : Thread nD τ).loc b))

/-- The whole projected source array. -/
def Gx (c : Dev nD) : S4096x32.Idx → EReal := fun i => Cert.Spec.proj (V c main_arg0) (V c main_arg5) (i 0) (i 1)

/-- What point `t` writes back is block `t` of that array. -/
theorem flushed8_eq (c : Dev nD) (t : Fin cfg0.N) :
    (dat0 V c).flushed 8 t = ((cfg0.win 8).blk t).view.read (Elt Ideal) (Gx V c) := by
  show (cfg0.win 8).cut (grid0.coords t) ((dat0 V c).after 8 t) = _
  rw [after0_8, out8At_eq]
  obtain ⟨e0, e1⟩ := idx0_8 t
  funext j
  obtain ⟨p, o, rfl⟩ : ∃ (p : Fin 512) (o : Fin 32), j = ix2 p o := ⟨j 0, j 1, eq_ix2 j⟩
  show k0_pay4 (F := Ideal) (iblk0 V c 3 t) (iblk0 V c 5 t) (ix2 p o) = Gx V c (((cfg0.win 8).blk t).view.emb (ix2 p o))
  have hemb : ((cfg0.win 8).blk t).view.emb (ix2 p o) = ix2 (rowOf t p) o := funext fun a => Fin.ext (by
    match a with
    | ⟨0, _⟩ => show win0_8.index t (0 : Fin 2) * 512 + 1 * p.val = 512 * t.val + p.val; rw [e0]; omega
    | ⟨1, _⟩ => show win0_8.index t (1 : Fin 2) * 32 + 1 * o.val = o.val; rw [e1]; omega)
  rw [hemb]
  refine (pay4_apply _ _ p o).trans ?_
  show _ = Cert.Spec.proj (V c main_arg0) (V c main_arg5) (rowOf t p) o
  unfold Cert.Spec.proj
  refine Finset.sum_congr rfl fun k _ => ?_
  exact congrArg₂ (· * ·) (iblk0_3_apply V c t p k) (iblk0_5_apply V c t k o)

/-- An index is in point `t`'s block iff each coordinate is in the block's range. -/
theorem mem_blk8 (t : Fin cfg0.N) (i : S4096x32.Idx) :
    i ∈ ((cfg0.win 8).blk t).view.set ↔ ∀ a : Fin 2, win0_8.index t a * S512x32.size a ≤ (i a).val ∧ (i a).val < win0_8.index t a * S512x32.size a + S512x32.size a := by
  show i ∈ ((View.whole main_v0_2).slice (win0_8.rect t)).set ↔ _
  rw [View.set_slice_whole, Rect.mem_set_unit]
  exact Iff.rfl

/-- Row `r` is in the block of point `r / 512`. -/
theorem cover8 (i : S4096x32.Idx) : ∃ t : Fin cfg0.N, (cfg0.win 8).flush t = true ∧ i ∈ ((cfg0.win 8).blk t).view.set := by
  have hi0 : (i 0).val < 4096 := (i 0).isLt
  have hi1 : (i 1).val < 32 := (i 1).isLt
  refine ⟨ptOf (i 0), flush0_8 _, ?_⟩
  rw [mem_blk8]
  obtain ⟨e0, e1⟩ := idx0_8 (ptOf (i 0))
  intro a
  match a with
  | ⟨0, _⟩ => show win0_8.index (ptOf (i 0)) (0 : Fin 2) * 512 ≤ (i 0).val ∧ (i 0).val < win0_8.index (ptOf (i 0)) (0 : Fin 2) * 512 + 512; rw [e0]; show (i 0).val / 512 * 512 ≤ (i 0).val ∧ (i 0).val < (i 0).val / 512 * 512 + 512; omega
  | ⟨1, _⟩ => show win0_8.index (ptOf (i 0)) (1 : Fin 2) * 32 ≤ (i 1).val ∧ (i 1).val < win0_8.index (ptOf (i 0)) (1 : Fin 2) * 32 + 32; rw [e1]; omega

/-- The array after the region. -/
theorem final8 (c : Dev nD) : (dat0 V c).arrAt 8 cfg0.N = Gx V c :=
  (dat0 V c).arrAt_eq_of_cover 8 (Gx V c) (fun t _ => flushed8_eq V c t) cover8

/-- The whole projected target array. -/
def Gy (c : Dev nD) : S4096x32.Idx → EReal := fun i => Cert.Spec.proj (V c main_arg1) (V c main_arg5) (i 0) (i 1)

/-- What point `t` writes back is block `t` of that array. -/
theorem flushed9_eq (c : Dev nD) (t : Fin cfg0.N) :
    (dat0 V c).flushed 9 t = ((cfg0.win 9).blk t).view.read (Elt Ideal) (Gy V c) := by
  show (cfg0.win 9).cut (grid0.coords t) ((dat0 V c).after 9 t) = _
  rw [after0_9, out9At_eq]
  obtain ⟨e0, e1⟩ := idx0_9 t
  funext j
  obtain ⟨p, o, rfl⟩ : ∃ (p : Fin 512) (o : Fin 32), j = ix2 p o := ⟨j 0, j 1, eq_ix2 j⟩
  show k0_pay5 (F := Ideal) (iblk0 V c 4 t) (iblk0 V c 5 t) (ix2 p o) = Gy V c (((cfg0.win 9).blk t).view.emb (ix2 p o))
  have hemb : ((cfg0.win 9).blk t).view.emb (ix2 p o) = ix2 (rowOf t p) o := funext fun a => Fin.ext (by
    match a with
    | ⟨0, _⟩ => show win0_9.index t (0 : Fin 2) * 512 + 1 * p.val = 512 * t.val + p.val; rw [e0]; omega
    | ⟨1, _⟩ => show win0_9.index t (1 : Fin 2) * 32 + 1 * o.val = o.val; rw [e1]; omega)
  rw [hemb]
  refine (pay5_apply _ _ p o).trans ?_
  show _ = Cert.Spec.proj (V c main_arg1) (V c main_arg5) (rowOf t p) o
  unfold Cert.Spec.proj
  refine Finset.sum_congr rfl fun k _ => ?_
  exact congrArg₂ (· * ·) (iblk0_4_apply V c t p k) (iblk0_5_apply V c t k o)

/-- An index is in point `t`'s block iff each coordinate is in the block's range. -/
theorem mem_blk9 (t : Fin cfg0.N) (i : S4096x32.Idx) :
    i ∈ ((cfg0.win 9).blk t).view.set ↔ ∀ a : Fin 2, win0_9.index t a * S512x32.size a ≤ (i a).val ∧ (i a).val < win0_9.index t a * S512x32.size a + S512x32.size a := by
  show i ∈ ((View.whole main_v0_3).slice (win0_9.rect t)).set ↔ _
  rw [View.set_slice_whole, Rect.mem_set_unit]
  exact Iff.rfl

/-- Row `r` is in the block of point `r / 512`. -/
theorem cover9 (i : S4096x32.Idx) : ∃ t : Fin cfg0.N, (cfg0.win 9).flush t = true ∧ i ∈ ((cfg0.win 9).blk t).view.set := by
  have hi0 : (i 0).val < 4096 := (i 0).isLt
  have hi1 : (i 1).val < 32 := (i 1).isLt
  refine ⟨ptOf (i 0), flush0_9 _, ?_⟩
  rw [mem_blk9]
  obtain ⟨e0, e1⟩ := idx0_9 (ptOf (i 0))
  intro a
  match a with
  | ⟨0, _⟩ => show win0_9.index (ptOf (i 0)) (0 : Fin 2) * 512 ≤ (i 0).val ∧ (i 0).val < win0_9.index (ptOf (i 0)) (0 : Fin 2) * 512 + 512; rw [e0]; show (i 0).val / 512 * 512 ≤ (i 0).val ∧ (i 0).val < (i 0).val / 512 * 512 + 512; omega
  | ⟨1, _⟩ => show win0_9.index (ptOf (i 0)) (1 : Fin 2) * 32 ≤ (i 1).val ∧ (i 1).val < win0_9.index (ptOf (i 0)) (1 : Fin 2) * 32 + 32; rw [e1]; omega

/-- The array after the region. -/
theorem final9 (c : Dev nD) : (dat0 V c).arrAt 9 cfg0.N = Gy V c :=
  (dat0 V c).arrAt_eq_of_cover 9 (Gy V c) (fun t _ => flushed9_eq V c t) cover9

/-- The projected source features after the region. -/
theorem r0_x (c : Dev nD) (i : Fin 4096) (o : Fin 32) :
    (dat0 V c).arrAt 8 cfg0.N (ix2 i o) = Cert.Spec.proj (V c main_arg0) (V c main_arg5) i o := by
  rw [final8]; rfl

/-- The projected target features after the region. -/
theorem r0_y (c : Dev nD) (i : Fin 4096) (o : Fin 32) :
    (dat0 V c).arrAt 9 cfg0.N (ix2 i o) = Cert.Spec.proj (V c main_arg1) (V c main_arg5) i o := by
  rw [final9]; rfl

end Arrays

/-! ## The degree payloads at an entry, on the extended reals -/

section DegPay

/-- A length-`a` vector viewed as an `a × 1` column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sums along the rows of a block, kept as a column: entry `(p, z)` is the sum of row `p`. -/
theorem rowSum_apply (A : FVec Ideal S512x4096 .f32) (p : Fin 512) (z : Fin 1) :
    shapeCast S512x1 (multiReduction (F := Ideal) .add [1] S512 A 0x00000000#32 reduces_S512x4096_S512 (.inl rfl) rfl) shapeCasts_S512_S512x1 (ix2 p z)
      = ∑ j : Fin 4096, A (ix2 p j) := by
  refine (shapeCast_a_a1_apply _ _ p z).trans ?_
  refine (Ideal.multiReduction_add_single A _ reduces_S512x4096_S512 _ _ (ix1 p)).trans ?_
  show ∑ k : Fin 4096, A (reduces_S512x4096_S512.lift (ix1 p) k) = _
  refine Finset.sum_congr rfl fun k _ => congrArg A (funext fun a => Fin.ext ?_)
  match a with
  | ⟨0, _⟩ => rfl
  | ⟨1, _⟩ => rfl

/-- The sums down the columns of a block, kept as a row: entry `(z, j)` is the sum of column `j`. -/
theorem colSum_apply (A : FVec Ideal S512x4096 .f32) (z : Fin 1) (j : Fin 4096) :
    shapeCast S1x4096 (multiReduction (F := Ideal) .add [0] S4096 A 0x00000000#32 reduces_S512x4096_S4096 (.inl rfl) rfl) shapeCasts_S4096_S1x4096 (ix2 z j)
      = ∑ p : Fin 512, A (ix2 p j) := by
  refine (shapeCast_a_1a_apply _ _ z j).trans ?_
  refine (Ideal.multiReduction_add_single A _ reduces_S512x4096_S4096 _ _ (ix1 j)).trans ?_
  show ∑ k : Fin 512, A (reduces_S512x4096_S4096.lift (ix1 j) k) = _
  refine Finset.sum_congr rfl fun k _ => congrArg A (funext fun a => Fin.ext ?_)
  match a with
  | ⟨0, _⟩ => rfl
  | ⟨1, _⟩ => rfl

/-- The row-degree block at `(p, z)`: row `p` summed in both source-side blocks. -/
theorem pay1_apply (A As : Vec Ideal S512x4096 .f32) (p : Fin 512) (z : Fin 1) :
    k0_pay1 (F := Ideal) A As (ix2 p z) = (∑ j : Fin 4096, A (ix2 p j)) + ∑ j : Fin 4096, As (ix2 p j) := by
  unfold k0_pay1
  refine (addf_apply _ _ _).trans ?_
  exact congrArg₂ (· + ·) (rowSum_apply A p z) (rowSum_apply As p z)

/-- One point's column sums at `(z, j)`: column `j` summed in both target-side blocks. -/
theorem pay2_apply (A At : Vec Ideal S512x4096 .f32) (z : Fin 1) (j : Fin 4096) :
    k0_pay2 (F := Ideal) A At (ix2 z j) = (∑ p : Fin 512, A (ix2 p j)) + ∑ p : Fin 512, At (ix2 p j) := by
  unfold k0_pay2
  refine (addf_apply _ _ _).trans ?_
  exact congrArg₂ (· + ·) (colSum_apply A z j) (colSum_apply At z j)

/-- A later point's accumulator at `(z, j)`: what it held on entry plus that point's column sums. -/
theorem pay3_apply (A At : Vec Ideal S512x4096 .f32) (acc : Vec Ideal S1x4096 .f32) (z : Fin 1) (j : Fin 4096) :
    k0_pay3 (F := Ideal) A At acc (ix2 z j) = acc (ix2 z j) + ((∑ p : Fin 512, A (ix2 p j)) + ∑ p : Fin 512, At (ix2 p j)) := by
  unfold k0_pay3
  refine (addf_apply _ _ _).trans ?_
  exact congrArg₂ (· + ·) (congrFun (shapeCast_self acc _) _) (pay2_apply A At z j)

end DegPay

/-! ## The adjacency blocks read at an entry; the row-degree block in both cases -/

section Blocks2
variable {F : FTy → Type} [FloatOps F]
variable (V : (c : Dev nD) → (b : Ref sig .tc) → Buf (Elt F) ((c : Thread nD τ).loc b))

theorem iblk0_0_apply (c : Dev nD) (t : Fin cfg0.N) (p : Fin 512) (j : Fin 4096) :
    (iblk0 V c 0 t : Vec F S512x4096 .f32) (ix2 p j) = (V c main_arg2 : S4096x4096.Idx → Elt F .f32) (ix2 (rowOf t p) j) := by
  obtain ⟨e0, e1⟩ := idx0_0 t
  show V c main_arg2 (((cfg0.win 0).blk t).view.emb (ix2 p j)) = V c main_arg2 (ix2 (rowOf t p) j)
  refine congrArg (V c main_arg2) (funext fun a => Fin.ext ?_)
  match a with
  | ⟨0, _⟩ => show win0_0.index t (0 : Fin 2) * 512 + 1 * p.val = 512 * t.val + p.val; rw [e0]; omega
  | ⟨1, _⟩ => show win0_0.index t (1 : Fin 2) * 4096 + 1 * j.val = j.val; rw [e1]; omega

theorem iblk0_1_apply (c : Dev nD) (t : Fin cfg0.N) (p : Fin 512) (j : Fin 4096) :
    (iblk0 V c 1 t : Vec F S512x4096 .f32) (ix2 p j) = (V c main_arg3 : S4096x4096.Idx → Elt F .f32) (ix2 (rowOf t p) j) := by
  obtain ⟨e0, e1⟩ := idx0_1 t
  show V c main_arg3 (((cfg0.win 1).blk t).view.emb (ix2 p j)) = V c main_arg3 (ix2 (rowOf t p) j)
  refine congrArg (V c main_arg3) (funext fun a => Fin.ext ?_)
  match a with
  | ⟨0, _⟩ => show win0_1.index t (0 : Fin 2) * 512 + 1 * p.val = 512 * t.val + p.val; rw [e0]; omega
  | ⟨1, _⟩ => show win0_1.index t (1 : Fin 2) * 4096 + 1 * j.val = j.val; rw [e1]; omega

theorem iblk0_2_apply (c : Dev nD) (t : Fin cfg0.N) (p : Fin 512) (j : Fin 4096) :
    (iblk0 V c 2 t : Vec F S512x4096 .f32) (ix2 p j) = (V c main_arg4 : S4096x4096.Idx → Elt F .f32) (ix2 (rowOf t p) j) := by
  obtain ⟨e0, e1⟩ := idx0_2 t
  show V c main_arg4 (((cfg0.win 2).blk t).view.emb (ix2 p j)) = V c main_arg4 (ix2 (rowOf t p) j)
  refine congrArg (V c main_arg4) (funext fun a => Fin.ext ?_)
  match a with
  | ⟨0, _⟩ => show win0_2.index t (0 : Fin 2) * 512 + 1 * p.val = 512 * t.val + p.val; rw [e0]; omega
  | ⟨1, _⟩ => show win0_2.index t (1 : Fin 2) * 4096 + 1 * j.val = j.val; rw [e1]; omega

/-- Both cases leave the same row-degree block. -/
theorem out6At_eq (c : Dev nD) (t : Fin cfg0.N) : out6At V c t = k0_pay1 (iblk0 V c 0 t) (iblk0 V c 1 t) := by
  by_cases h0 : t.val % 8 = 0
  · rw [out6At_A V c t h0, outA6_eq]
  · rw [out6At_B V c t h0, outB6_eq]

end Blocks2

/-! ## The row degrees -/

section RowDeg
variable (V : (c : Dev nD) → (b : Ref sig .tc) → Buf (Elt Ideal) ((c : Thread nD τ).loc b))

/-- The whole row-degree column. -/
def Gds (c : Dev nD) : S4096x1.Idx → EReal := fun i => Cert.Spec.degRow (V c main_arg2) (V c main_arg3) (i 0)

/-- What point `t` writes back is block `t` of that column. -/
theorem flushed6_eq (c : Dev nD) (t : Fin cfg0.N) :
    (dat0 V c).flushed 6 t = ((cfg0.win 6).blk t).view.read (Elt Ideal) (Gds V c) := by
  show (cfg0.win 6).cut (grid0.coords t) ((dat0 V c).after 6 t) = _
  rw [after0_6, out6At_eq]
  obtain ⟨e0, e1⟩ := idx0_6 t
  funext j
  obtain ⟨p, z, rfl⟩ : ∃ (p : Fin 512) (z : Fin 1), j = ix2 p z := ⟨j 0, j 1, eq_ix2 j⟩
  show k0_pay1 (F := Ideal) (iblk0 V c 0 t) (iblk0 V c 1 t) (ix2 p z) = Gds V c (((cfg0.win 6).blk t).view.emb (ix2 p z))
  have hemb : ((cfg0.win 6).blk t).view.emb (ix2 p z) = ix2 (rowOf t p) z := funext fun a => Fin.ext (by
    match a with
    | ⟨0, _⟩ => show win0_6.index t (0 : Fin 2) * 512 + 1 * p.val = 512 * t.val + p.val; rw [e0]; omega
    | ⟨1, _⟩ => show win0_6.index t (1 : Fin 2) * 1 + 1 * z.val = z.val; rw [e1]; omega)
  rw [hemb]
  refine (pay1_apply _ _ p z).trans ?_
  show _ = Cert.Spec.degRow (V c main_arg2) (V c main_arg3) (rowOf t p)
  unfold Cert.Spec.degRow
  exact congrArg₂ (· + ·) (Finset.sum_congr rfl fun j _ => iblk0_0_apply V c t p j) (Finset.sum_congr rfl fun j _ => iblk0_1_apply V c t p j)

/-- An index is in point `t`'s block iff each coordinate is in the block's range. -/
theorem mem_blk6 (t : Fin cfg0.N) (i : S4096x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v0_0).slice (win0_6.rect t)).set ↔ _
  rw [View.set_slice_whole, Rect.mem_set_unit]
  exact Iff.rfl

/-- Row `r` is in the block of point `r / 512`. -/
theorem cover6 (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  refine ⟨ptOf (i 0), flush0_6 _, ?_⟩
  rw [mem_blk6]
  obtain ⟨e0, e1⟩ := idx0_6 (ptOf (i 0))
  intro a
  match a with
  | ⟨0, _⟩ => show win0_6.index (ptOf (i 0)) (0 : Fin 2) * 512 ≤ (i 0).val ∧ (i 0).val < win0_6.index (ptOf (i 0)) (0 : Fin 2) * 512 + 512; rw [e0]; show (i 0).val / 512 * 512 ≤ (i 0).val ∧ (i 0).val < (i 0).val / 512 * 512 + 512; omega
  | ⟨1, _⟩ => show win0_6.index (ptOf (i 0)) (1 : Fin 2) * 1 ≤ (i 1).val ∧ (i 1).val < win0_6.index (ptOf (i 0)) (1 : Fin 2) * 1 + 1; rw [e1]; omega

/-- The row-degree column after the region. -/
theorem final6 (c : Dev nD) : (dat0 V c).arrAt 6 cfg0.N = Gds V c :=
  (dat0 V c).arrAt_eq_of_cover 6 (Gds V c) (fun t _ => flushed6_eq V c t) cover6

/-- The row degrees after the region. -/
theorem r0_degRow (c : Dev nD) (i : Fin 4096) (z : Fin 1) :
    (dat0 V c).arrAt 6 cfg0.N (ix2 i z) = Cert.Spec.degRow (V c main_arg2) (V c main_arg3) i := by
  rw [final6]; rfl

end RowDeg

/-! ## The column degrees: accumulated over the eight points -/

section ColDeg
variable (V : (c : Dev nD) → (b : Ref sig .tc) → Buf (Elt Ideal) ((c : Thread nD τ).loc b))

/-- The adjacency matrix and the target-side adjacency matrix, as the region finds them. -/
abbrev adjM (c : Dev nD) : S4096x4096.Idx → EReal := V c main_arg2
abbrev adjT (c : Dev nD) : S4096x4096.Idx → EReal := V c main_arg4

/-- Point `m`'s share of column `j`'s degree: column `j` summed over the 512 rows of block `m`, in both target-side
    matrices (zero past the grid). -/
def colShare (c : Dev nD) (j : Fin 4096) (m : ℕ) : EReal :=
  if h : m < 8 then
    (∑ p : Fin 512, adjM V c (ix2 (⟨512 * m + p.val, by have := p.isLt; omega⟩ : Fin 4096) j))
      + ∑ p : Fin 512, adjT V c (ix2 (⟨512 * m + p.val, by have := p.isLt; omega⟩ : Fin 4096) j)
  else 0

/-- At a grid point, the point's column sums are its share. -/
theorem colShare_pt (c : Dev nD) (t : Fin cfg0.N) (z : Fin 1) (j : Fin 4096) :
    k0_pay2 (F := Ideal) (iblk0 V c 0 t) (iblk0 V c 2 t) (ix2 z j) = colShare V c j t.val := by
  have ht : t.val < 8 := by have := t.isLt; have := N8; omega
  refine (pay2_apply _ _ z j).trans ?_
  unfold colShare
  rw [dif_pos ht]
  exact congrArg₂ (· + ·) (Finset.sum_congr rfl fun p _ => iblk0_0_apply V c t p j) (Finset.sum_congr rfl fun p _ => iblk0_2_apply V c t p j)

/-- The accumulator after the body at position `n`, at `(z, j)`: the shares of the points up to `n`, by induction on `n`. -/
theorem acc0_apply (c : Dev nD) (z : Fin 1) (j : Fin 4096) : ∀ (n : ℕ) (hn : n < cfg0.N),
    acc0 V c n hn (ix2 z j) = ∑ m ∈ Finset.range (n + 1), colShare V c j m
  | 0, hn => by
    rw [Finset.sum_range_one]
    show acc0 V c (⟨0, hn⟩ : Fin cfg0.N).val (⟨0, hn⟩ : Fin cfg0.N).isLt (ix2 z j) = _
    rw [acc0_A V c ⟨0, hn⟩ (Nat.zero_mod _), outA7_eq]
    exact colShare_pt V c ⟨0, hn⟩ z j
  | n + 1, hn => by
    have h8 := N8
    have hB : ¬ (⟨n + 1, hn⟩ : Fin cfg0.N).val % 8 = 0 := by dsimp only; omega
    show acc0 V c (⟨n + 1, hn⟩ : Fin cfg0.N).val (⟨n + 1, hn⟩ : Fin cfg0.N).isLt (ix2 z j) = _
    rw [acc0_B V c ⟨n + 1, hn⟩ hB, outB7_eq]
    refine (pay3_apply _ _ _ z j).trans ?_
    rw [Finset.sum_range_succ _ (n + 1)]
    refine congrArg₂ (· + ·) ?_ ((pay2_apply _ _ z j).symm.trans (colShare_pt V c ⟨n + 1, hn⟩ z j))
    show acc0 V c n _ (ix2 z j) = _
    exact acc0_apply c z j n _

/-- A sum over the 4096 rows, grouped by the eight blocks of 512. -/
theorem sum_rows (f : Fin 4096 → EReal) :
    ∑ i : Fin 4096, f i = ∑ m : Fin 8, ∑ p : Fin 512, f ⟨512 * m.val + p.val, by have := m.isLt; have := p.isLt; omega⟩ := by
  refine (Equiv.sum_comp (finProdFinEquiv (m := 8) (n := 512)) f).symm.trans ?_
  rw [Fintype.sum_prod_type]
  refine Finset.sum_congr rfl fun m _ => Finset.sum_congr rfl fun p _ => congrArg f (Fin.ext ?_)
  show p.val + 512 * m.val = 512 * m.val + p.val
  omega

/-- The eight shares add up to the column degree: each matrix's column sum regrouped by blocks of rows. -/
theorem sum_shares (c : Dev nD) (j : Fin 4096) :
    ∑ m ∈ Finset.range 8, colShare V c j m = Cert.Spec.degCol (V c main_arg2) (V c main_arg4) j := by
  have hA := sum_rows (fun i => adjM V c (ix2 i j))
  have hT := sum_rows (fun i => adjT V c (ix2 i j))
  show _ = (∑ i : Fin 4096, (fun i => adjM V c (ix2 i j)) i)
    + ∑ i : Fin 4096, (fun i => adjT V c (ix2 i j)) i
  rw [hA, hT, ← Finset.sum_add_distrib, ← Fin.sum_univ_eq_sum_range (fun m => colShare V c j m) 8]
  refine Finset.sum_congr rfl fun m _ => ?_
  unfold colShare
  rw [dif_pos m.isLt]

/-- The whole column-degree row. -/
def Gdt (c : Dev nD) : S1x4096.Idx → EReal := fun i => Cert.Spec.degCol (V c main_arg2) (V c main_arg4) (i 1)

/-- The one write-back, after the last point, writes that row: the accumulator's block is the whole array. -/
theorem flushed7_eq (c : Dev nD) (t : Fin cfg0.N) (hf : (cfg0.win 7).flush t = true) :
    (dat0 V c).flushed 7 t = ((cfg0.win 7).blk t).view.read (Elt Ideal) (Gdt V c) := by
  have h8 := N8
  have h7 : t.val = 7 := by have := (flush0_7 t).mp hf; have := t.isLt; omega
  show (cfg0.win 7).cut (grid0.coords t) ((dat0 V c).after 7 t) = _
  rw [after0_7]
  obtain ⟨e0, e1⟩ := idx0_7 t
  funext i
  obtain ⟨z, j, rfl⟩ : ∃ (z : Fin 1) (j : Fin 4096), i = ix2 z j := ⟨i 0, i 1, eq_ix2 i⟩
  show acc0 V c t.val t.isLt (ix2 z j) = Gdt V c (((cfg0.win 7).blk t).view.emb (ix2 z j))
  have hemb : ((cfg0.win 7).blk t).view.emb (ix2 z j) = ix2 z j := funext fun a => Fin.ext (by
    match a with
    | ⟨0, _⟩ => show win0_7.index t (0 : Fin 2) * 1 + 1 * z.val = z.val; rw [e0]; omega
    | ⟨1, _⟩ => show win0_7.index t (1 : Fin 2) * 4096 + 1 * j.val = j.val; rw [e1]; omega)
  rw [hemb, acc0_apply V c z j t.val t.isLt, h7]
  exact sum_shares V c j

/-- An index is in point `t`'s block iff each coordinate is in the block's range. -/
theorem mem_blk7 (t : Fin cfg0.N) (i : S1x4096.Idx) :
    i ∈ ((cfg0.win 7).blk t).view.set ↔ ∀ a : Fin 2, win0_7.index t a * S1x4096.size a ≤ (i a).val ∧ (i a).val < win0_7.index t a * S1x4096.size a + S1x4096.size a := by
  show i ∈ ((View.whole main_v0_1).slice (win0_7.rect t)).set ↔ _
  rw [View.set_slice_whole, Rect.mem_set_unit]
  exact Iff.rfl

/-- The last grid point. -/
abbrev tLast : Fin cfg0.N := ⟨7, by rw [N8]; decide⟩

/-- Every index is in the last point's block. -/
theorem cover7 (i : S1x4096.Idx) : ∃ t : Fin cfg0.N, (cfg0.win 7).flush t = true ∧ i ∈ ((cfg0.win 7).blk t).view.set := by
  have hi0 : (i 0).val < 1 := (i 0).isLt
  have hi1 : (i 1).val < 4096 := (i 1).isLt
  refine ⟨tLast, (flush0_7 tLast).mpr rfl, ?_⟩
  rw [mem_blk7]
  obtain ⟨e0, e1⟩ := idx0_7 tLast
  intro a
  match a with
  | ⟨0, _⟩ => show win0_7.index tLast (0 : Fin 2) * 1 ≤ (i 0).val ∧ (i 0).val < win0_7.index tLast (0 : Fin 2) * 1 + 1; rw [e0]; omega
  | ⟨1, _⟩ => show win0_7.index tLast (1 : Fin 2) * 4096 ≤ (i 1).val ∧ (i 1).val < win0_7.index tLast (1 : Fin 2) * 4096 + 4096; rw [e1]; omega

/-- The column-degree row after the region. -/
theorem final7 (c : Dev nD) : (dat0 V c).arrAt 7 cfg0.N = Gdt V c :=
  (dat0 V c).arrAt_eq_of_cover 7 (Gdt V c) (flushed7_eq V c) cover7

/-- The column degrees after the region. -/
theorem r0_degCol (c : Dev nD) (z : Fin 1) (j : Fin 4096) :
    (dat0 V c).arrAt 7 cfg0.N (ix2 z j) = Cert.Spec.degCol (V c main_arg2) (V c main_arg4) j := by
  rw [final7]; rfl

end ColDeg

end Cert.KernelIdeal.Hand.R0V

end
-- ==== Proof.R1Acc.lean ====
import proofs.«139708_g36129264894619_cont_8to1_b_1456_17_alg».proof.Proof.R1Frame
import proofs.«139708_g36129264894619_cont_8to1_b_1456_17_alg».proof.Proof.Spec
import proofs.«139708_g36129264894619_cont_8to1_b_1456_17_alg».proof.Proof.ValLib
import Idealize.ShloMosaic.Lib.Pipeline.Value
import Idealize.ShloMosaic.Lib.ValueIdx
import Idealize.ShloMosaic.Lib.ValueLayout
import Idealize.ShloMosaic.PureOps.Ideal.Laws

/-!
# The transposed term: what the new-source-features region leaves in its accumulated output

The region's second output is `yp = Aᵀ·(x' / rs)`, a `4096 × 32` array accumulated over the eight row blocks of `A`:
block `t` contributes, at `(j, o)`, the sum over its 512 rows `r` of `A (512 t + r, j) · x' (512 t + r, o) / rs (512 t + r)`.
The first point overwrites the accumulator with its contribution, every later point adds its own, and the array is
written back once, after the last point. So the array ends holding the sum of the eight block sums, which is the sum
over all 4096 rows. The new features `x'` enter abstractly, through what the region's first output buffer holds.
-/

set_option maxRecDepth 16384

noncomputable section

open scoped BigOperators

namespace Cert.KernelIdeal.Hand.R1Acc

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal.Val (hz2)

/-! ## What the body leaves in its two output buffers, as payloads of the loaded blocks -/

section Generic
variable {F : FTy → Type} [FloatOps F]
variable (V : (c : Dev nD) → (b : Ref sig .tc) → Buf (Elt F) ((c : Thread nD τ).loc b))

/-- The 512 rows of the row-degree column at this block's row offset. -/
abbrev dsoSl (c : Dev nD) (t : Fin cfg1.N) : Vec F S512x1 .f32 :=
  View.ld (iblk1 V c 4 t) (Rect.unit (s := S4096x1) (k1_off2 (grid1.coords t)) S512x1.size (k1_off2_inb (grid1.coords t)))
/-- The 512 rows of the projected source features at this block's row offset. -/
abbrev xSl (c : Dev nD) (t : Fin cfg1.N) : Vec F S512x32 .f32 :=
  View.ld (iblk1 V c 2 t) (Rect.unit (s := S4096x32) (k1_off1 (grid1.coords t)) S512x32.size (k1_off1_inb (grid1.coords t)))
/-- The bracket divided by the block's roots, before the clamp at zero. -/
abbrev preAt (c : Dev nD) (t : Fin cfg1.N) : FVec F S512x32 .f32 :=
  k1_pay5 (iblk1 V c 4 t) (iblk1 V c 5 t) (iblk1 V c 2 t) (iblk1 V c 3 t) (iblk1 V c 1 t) (iblk1 V c 0 t) (xSl V c t) (dsoSl V c t)

set_option maxHeartbeats 1600000 in
/-- The first point leaves the block's contribution in the accumulator's buffer. -/
theorem o1A7_eq (c : Dev nD) (t : Fin cfg1.N) (h0 : t.val % 8 = 0) :
    o1A7 V c t h0 = k1_pay2 (k1_pay4 (dsoSl V c t)) (preAt V c t) (Scalar.ofBits .f32 0x00000000#32) (iblk1 V c 0 t) := by
  unfold o1A7
  rw [View.read_writes_eq_canon _ _ _ (cover1_A_7 c _ _ _ _ _ _ _ _ _ _ _ _ _ _ _ _ _ _ _ _ _ _ _ _ _)]
  unfold kernelRun1_A
  dsimp only
  rw [View.canon_unit_zero hz2]
  sl_unfold_words
  simp only [View.readAt_eq_ld, (hs1_0 t).read_unread, (hs1_1 t).read_unread, (hs1_2 t).read_unread, (hs1_3 t).read_unread, (hs1_4 t).read_unread, (hs1_5 t).read_unread,
    View.ld_unit_zero (S := S512x4096) hz2, View.ld_unit_zero (S := S4096x32) hz2, View.ld_unit_zero (S := S4096x1) hz2]
  rfl

set_option maxHeartbeats 1600000 in
/-- A later point leaves the entering accumulator plus the block's contribution. -/
theorem o1B7_eq (c : Dev nD) (t : Fin cfg1.N) (h0 : ¬ t.val % 8 = 0) (xo7 : Vec F S4096x32 .f32) :
    o1B7 V c t h0 xo7 = k1_pay3 (k1_pay4 (dsoSl V c t)) (preAt V c t) (Scalar.ofBits .f32 0x00000000#32) (iblk1 V c 0 t) xo7 := by
  unfold o1B7
  rw [View.read_writes_eq_canon _ _ _ (cover1_B_7 c _ _ _ _ _ _ _ _ _ _ _ _ _ _ _ _ _ _ _ _ _ _ _ _ _ _)]
  unfold kernelRun1_B
  dsimp only
  rw [View.canon_unit_zero hz2]
  sl_unfold_words
  simp only [View.readAt_eq_ld, (hs1_0 t).read_unread, (hs1_1 t).read_unread, (hs1_2 t).read_unread, (hs1_3 t).read_unread, (hs1_4 t).read_unread, (hs1_5 t).read_unread, (hs1_7 t).read_unread,
    View.ld_unit_zero (S := S512x4096) hz2, View.ld_unit_zero (S := S4096x32) hz2, View.ld_unit_zero (S := S4096x1) hz2]
  rfl

set_option maxHeartbeats 1600000 in
/-- The first point leaves the clamped bracket in the new-feature block's buffer. -/
theorem o1A6_eq (c : Dev nD) (t : Fin cfg1.N) (h0 : t.val % 8 = 0) :
    o1A6 V c t h0 = k1_pay1 (preAt V c t) (Scalar.ofBits .f32 0x00000000#32) := by
  unfold o1A6
  rw [View.read_writes_eq_canon _ _ _ (cover1_A_6 c _ _ _ _ _ _ _ _ _ _ _ _ _ _ _ _ _ _ _ _ _ _ _ _ _)]
  unfold kernelRun1_A
  dsimp only
  rw [View.canon_unit_zero hz2]
  sl_unfold_words
  simp only [View.readAt_eq_ld, (hs1_0 t).read_unread, (hs1_1 t).read_unread, (hs1_2 t).read_unread, (hs1_3 t).read_unread, (hs1_4 t).read_unread, (hs1_5 t).read_unread,
    View.ld_unit_zero (S := S512x4096) hz2, View.ld_unit_zero (S := S4096x32) hz2, View.ld_unit_zero (S := S4096x1) hz2]
  rfl

set_option maxHeartbeats 1600000 in
/-- So does every later point. -/
theorem o1B6_eq (c : Dev nD) (t : Fin cfg1.N) (h0 : ¬ t.val % 8 = 0) (xo7 : Vec F S4096x32 .f32) :
    o1B6 V c t h0 xo7 = k1_pay1 (preAt V c t) (Scalar.ofBits .f32 0x00000000#32) := by
  unfold o1B6
  rw [View.read_writes_eq_canon _ _ _ (cover1_B_6 c _ _ _ _ _ _ _ _ _ _ _ _ _ _ _ _ _ _ _ _ _ _ _ _ _ _)]
  unfold kernelRun1_B
  dsimp only
  rw [View.canon_unit_zero hz2]
  sl_unfold_words
  simp only [View.readAt_eq_ld, (hs1_0 t).read_unread, (hs1_1 t).read_unread, (hs1_2 t).read_unread, (hs1_3 t).read_unread, (hs1_4 t).read_unread, (hs1_5 t).read_unread,
    View.ld_unit_zero (S := S512x4096) hz2, View.ld_unit_zero (S := S4096x32) hz2, View.ld_unit_zero (S := S4096x1) hz2]
  rfl

/-- The new-feature block's buffer after the body at any point: the bracket clamped at zero. -/
theorem out1_6At_eq (c : Dev nD) (t : Fin cfg1.N) :
    out1_6At V c t = k1_pay1 (preAt V c t) (Scalar.ofBits .f32 0x00000000#32) := by
  by_cases h0 : t.val % 8 = 0
  · rw [out1_6At_A V c t h0, o1A6_eq]
  · rw [out1_6At_B V c t h0, o1B6_eq]

/-! ## The one write-back: after the last point, of the whole array -/

/-- The accumulator after the last point, as contents of the result array (its one block is the array). -/
abbrev result1 (c : Dev nD) : Buf (Elt F) ((c : Thread nD τ).loc main_v2_1) :=
  acc1 V c 7 (by rw [show cfg1.N = 8 from N_1]; decide)

/-- The one write-back, at the last point, writes it: block (0, 0) of the array read through zero offsets is the array. -/
theorem flushed1_7_eq (c : Dev nD) (t : Fin cfg1.N) (hf : (cfg1.win 7).flush t = true) :
    (dat1 V c).flushed 7 t = ((cfg1.win 7).blk t).view.read (Elt F) (result1 V c) := by
  have hN : cfg1.N = 8 := N_1
  have h7 : t.val = 7 := by have := (flush1_7 t).mp hf; have := t.isLt; omega
  obtain rfl : t = t1_7 := Fin.ext h7
  show (cfg1.win 7).cut (grid1.coords t1_7) ((dat1 V c).after 7 t1_7) = _
  rw [after1_7]
  have hz' : (fun a => win1_7.index t1_7 a * main_v2_1.ty.shape.size a) = fun _ => 0 := funext fun a => by fin_cases a <;> decide +kernel
  exact (Memref.read_access_unit_zero (Elt F) main_v2_1 hz' (fun a => by rw [congrFun hz' a]; simp) (result1 V c)).symm

/-- So the result array ends holding the accumulator after the last point. -/
theorem final1_7 (c : Dev nD) : (dat1 V c).arrAt 7 cfg1.N = result1 V c :=
  (dat1 V c).arrAt_eq_of_cover 7 (result1 V c) (flushed1_7_eq V c) fun i =>
    ⟨t1_7, (flush1_7 t1_7).mpr rfl, by
      show i ∈ ((View.whole main_v2_1).slice (win1_7.rect t1_7)).set
      rw [View.set_slice_whole, Rect.mem_set_unit]
      intro a
      have h0 : (i 0 : Nat) < 4096 := (i 0).isLt
      have h1 : (i 1 : Nat) < 32 := (i 1).isLt
      match a with
      | ⟨0, _⟩ => show win1_7.index t1_7 0 * win1_7.size 0 ≤ (i 0 : Nat) ∧ (i 0 : Nat) < win1_7.index t1_7 0 * win1_7.size 0 + win1_7.xsize (grid1.coords t1_7) 0
                  rw [show win1_7.index t1_7 0 * win1_7.size 0 = 0 from by decide +kernel, show win1_7.xsize (grid1.coords t1_7) 0 = 4096 from by decide +kernel]; omega
      | ⟨1, _⟩ => show win1_7.index t1_7 1 * win1_7.size 1 ≤ (i 1 : Nat) ∧ (i 1 : Nat) < win1_7.index t1_7 1 * win1_7.size 1 + win1_7.xsize (grid1.coords t1_7) 1
                  rw [show win1_7.index t1_7 1 * win1_7.size 1 = 0 from by decide +kernel, show win1_7.xsize (grid1.coords t1_7) 1 = 32 from by decide +kernel]; omega⟩

end Generic

/-! ## The transposed product: both operands contracted along their 512 rows -/

theorem tmL0 (i : S4096x32.Idx) (q : dot_S512x4096_S512x32_S4096x32_0_0_1_1_n_n.contr.Idx) : (dot_S512x4096_S512x32_S4096x32_0_0_1_1_n_n.lhsIdx i q 0).val = (q ⟨0, by decide⟩).val :=
  dot_S512x4096_S512x32_S4096x32_0_0_1_1_n_n.lhsIdx_val_of_single rfl i q
theorem tmL1 (i : S4096x32.Idx) (q : dot_S512x4096_S512x32_S4096x32_0_0_1_1_n_n.contr.Idx) : (dot_S512x4096_S512x32_S4096x32_0_0_1_1_n_n.lhsIdx i q 1).val = (i 0).val := by
  unfold DotDims.lhsIdx
  rw [dif_neg (show ¬(1 : Fin S512x4096.rank) ∈ dot_S512x4096_S512x32_S4096x32_0_0_1_1_n_n.lhsBatch by decide), dif_pos (show (1 : Fin S512x4096.rank) ∈ dot_S512x4096_S512x32_S4096x32_0_0_1_1_n_n.lhsNonContracting by decide)]
  rfl
theorem tmR0 (i : S4096x32.Idx) (q : dot_S512x4096_S512x32_S4096x32_0_0_1_1_n_n.contr.Idx) : (dot_S512x4096_S512x32_S4096x32_0_0_1_1_n_n.rhsIdx i q 0).val = (q ⟨0, by decide⟩).val :=
  dot_S512x4096_S512x32_S4096x32_0_0_1_1_n_n.rhsIdx_val_of_single rfl i q
theorem tmR1 (i : S4096x32.Idx) (q : dot_S512x4096_S512x32_S4096x32_0_0_1_1_n_n.contr.Idx) : (dot_S512x4096_S512x32_S4096x32_0_0_1_1_n_n.rhsIdx i q 1).val = (i 1).val := by
  unfold DotDims.rhsIdx
  rw [dif_neg (show ¬(1 : Fin S512x32.rank) ∈ dot_S512x4096_S512x32_S4096x32_0_0_1_1_n_n.rhsBatch by decide), dif_pos (show (1 : Fin S512x32.rank) ∈ dot_S512x4096_S512x32_S4096x32_0_0_1_1_n_n.rhsNonContracting by decide)]
  rfl

/-- Entry `(j, o)` of the transposed product into a zero accumulator is the sum over the 512 shared rows. -/
theorem tmm_apply (A : FVec Ideal S512x4096 .f32) (B : FVec Ideal S512x32 .f32) (j : Fin 4096) (o : Fin 32) :
    matmul dot_S512x4096_S512x32_S4096x32_0_0_1_1_n_n none A B (constant (F := Ideal) S4096x32 .f32 0x00000000#32) (ix2 j o)
      = ∑ r : Fin 512, A (ix2 r j) * B (ix2 r o) := by
  simp only [matmul]
  rw [Ideal.matmul_constant_zero_apply, ← Equiv.sum_comp (contrEquiv1 dot_S512x4096_S512x32_S4096x32_0_0_1_1_n_n 512 rfl rfl).symm]
  refine Finset.sum_congr rfl fun k _ => ?_
  have hk := contrEquiv1_symm_val dot_S512x4096_S512x32_S4096x32_0_0_1_1_n_n 512 rfl rfl k
  have el : dot_S512x4096_S512x32_S4096x32_0_0_1_1_n_n.lhsIdx (ix2 j o) ((contrEquiv1 dot_S512x4096_S512x32_S4096x32_0_0_1_1_n_n 512 rfl rfl).symm k) = ix2 k j := funext fun a => Fin.ext (by
    match a with
    | ⟨0, _⟩ => exact (tmL0 _ _).trans hk
    | ⟨1, _⟩ => exact tmL1 _ _)
  have er : dot_S512x4096_S512x32_S4096x32_0_0_1_1_n_n.rhsIdx (ix2 j o) ((contrEquiv1 dot_S512x4096_S512x32_S4096x32_0_0_1_1_n_n 512 rfl rfl).symm k) = ix2 k o := funext fun a => Fin.ext (by
    match a with
    | ⟨0, _⟩ => exact (tmR0 _ _).trans hk
    | ⟨1, _⟩ => exact tmR1 _ _)
  rw [el, er]

/-- The block's roots: at row `r` the root of that row's degree plus one. -/
theorem pay4_apply (v29 : Vec Ideal S512x1 .f32) (r : Fin 512) :
    k1_pay4 (F := Ideal) v29 (ix2 r (0 : Fin 1)) = Cert.Spec.root (v29 (ix2 r (0 : Fin 1))) := by
  unfold k1_pay4 Cert.Spec.root
  rw [shapeCast_self]
  show Ideal.sqrt (v29 (ix2 r (0 : Fin 1)) + Ideal.ofBits .f32 0x3F800000#32) = _
  rw [Cert.KernelIdeal.Val.one_f32]

/-- The block's contribution at `(j, o)`: over the block's 512 rows `r`, the adjacency entry `(r, j)` times the new
    feature `(r, o)` divided by row `r`'s root. -/
theorem pay2_apply (v33 : FVec Ideal S512x1 .f32) (v36 : FVec Ideal S512x32 .f32) (cst : Ideal .f32) (v40 : Vec Ideal S512x4096 .f32)
    (j : Fin 4096) (o : Fin 32) :
    k1_pay2 v33 v36 cst v40 (ix2 j o)
      = ∑ r : Fin 512, v40 (ix2 r j) * Ideal.div (k1_pay1 v36 cst (ix2 r o)) (v33 (ix2 r (0 : Fin 1))) := by
  unfold k1_pay2
  refine (tmm_apply _ _ j o).trans ?_
  refine Finset.sum_congr rfl fun r _ => ?_
  rw [divf_apply]
  exact congrArg (fun z => v40 (ix2 r j) * Ideal.div (k1_pay1 v36 cst (ix2 r o)) z)
    (broadcastTo_apply v33 broadcasts_S512x1_S512x32 (ix2 r o) (ix2 r (0 : Fin 1)) fun a => match a with
      | ⟨0, _⟩ => by show r.val = if (512 : Nat) = 1 then 0 else r.val; rfl
      | ⟨1, _⟩ => by show (0 : Nat) = if (1 : Nat) = 1 then 0 else o.val; rfl)

/-- A later point adds the block's contribution to what the accumulator held. -/
theorem pay3_apply (v33 : FVec Ideal S512x1 .f32) (v36 : FVec Ideal S512x32 .f32) (cst : Ideal .f32) (v40 : Vec Ideal S512x4096 .f32)
    (v50 : Vec Ideal S4096x32 .f32) (j : Fin 4096) (o : Fin 32) :
    k1_pay3 v33 v36 cst v40 v50 (ix2 j o) = v50 (ix2 j o) + k1_pay2 v33 v36 cst v40 (ix2 j o) := by
  unfold k1_pay3
  rw [shapeCast_self]
  rfl

/-! ## The accumulator after each point, entry by entry -/

/-- The 4096 rows, block by block: the sum over the eight blocks of the sums over a block's 512 rows is the sum over
    all rows. -/
theorem sum_blocks (g : Fin 4096 → EReal) :
    ∑ t : Fin 8, ∑ r : Fin 512, g ⟨512 * t.val + r.val, by have := t.isLt; have := r.isLt; omega⟩ = ∑ i : Fin 4096, g i := by
  have e := (finProdFinEquiv (m := 8) (n := 512)).sum_comp (fun i : Fin (8 * 512) => g ⟨i.val, i.isLt⟩)
  rw [Fintype.sum_prod_type] at e
  refine Eq.trans (Finset.sum_congr rfl fun t _ => Finset.sum_congr rfl fun r _ => ?_) e
  exact congrArg g (Fin.ext (by show 512 * t.val + r.val = r.val + 512 * t.val; omega))

/-- A block's contribution at `(j, o)`: over its 512 rows `r`, the adjacency block's entry `(r, j)` times the new
    feature block's entry `(r, o)` divided by the root of row `r`'s degree plus one. -/
def blkSum (A : Vec Ideal S512x4096 .f32) (X : Vec Ideal S512x32 .f32) (D : Vec Ideal S512x1 .f32) (j : Fin 4096) (o : Fin 32) : EReal :=
  ∑ r : Fin 512, A (ix2 r j) * Ideal.div (X (ix2 r o)) (Cert.Spec.root (D (ix2 r (0 : Fin 1))))

/-- The product's payload is that contribution, of the clamped bracket and of the degree slice. -/
theorem pay2_blkSum (v29 : Vec Ideal S512x1 .f32) (v36 : FVec Ideal S512x32 .f32) (cst : Ideal .f32) (v40 : Vec Ideal S512x4096 .f32)
    (j : Fin 4096) (o : Fin 32) :
    k1_pay2 (k1_pay4 v29) v36 cst v40 (ix2 j o) = blkSum v40 (k1_pay1 v36 cst) v29 j o := by
  refine (pay2_apply _ _ _ _ j o).trans ?_
  unfold blkSum
  refine Finset.sum_congr rfl fun r _ => ?_
  rw [pay4_apply]

/-- Row `i`'s term of the transposed product at `(j, o)`. -/
def term (A : Cert.Spec.SNN.Idx → EReal) (D : Cert.Spec.SN1.Idx → EReal) (XN : Fin 4096 → Fin 32 → EReal)
    (j : Fin 4096) (o : Fin 32) (i : Fin 4096) : EReal :=
  A (ix2 i j) * Ideal.div (XN i o) (Cert.Spec.root (D (ix2 i (0 : Fin 1))))

/-- A block whose entries are the arrays' at the rows `ρ r` contributes the sum of those rows' terms. -/
theorem blkSum_rows (A : Vec Ideal S512x4096 .f32) (X : Vec Ideal S512x32 .f32) (D : Vec Ideal S512x1 .f32)
    (A' : Cert.Spec.SNN.Idx → EReal) (D' : Cert.Spec.SN1.Idx → EReal) (XN : Fin 4096 → Fin 32 → EReal) (ρ : Fin 512 → Fin 4096)
    (hA : ∀ (r : Fin 512) (j : Fin 4096), A (ix2 r j) = A' (ix2 (ρ r) j))
    (hD : ∀ r : Fin 512, D (ix2 r (0 : Fin 1)) = D' (ix2 (ρ r) (0 : Fin 1)))
    (hX : ∀ (r : Fin 512) (o : Fin 32), X (ix2 r o) = XN (ρ r) o) (j : Fin 4096) (o : Fin 32) :
    blkSum A X D j o = ∑ r : Fin 512, term A' D' XN j o (ρ r) := by
  unfold blkSum term
  refine Finset.sum_congr rfl fun r _ => ?_
  rw [hA r j, hD r, hX r o]

section AtIdeal
variable (V : (c : Dev nD) → (b : Ref sig .tc) → Buf (Elt Ideal) ((c : Thread nD τ).loc b))

/-- Block `t`'s contribution at `(j, o)`. -/
def blkC (c : Dev nD) (t : Fin cfg1.N) (j : Fin 4096) (o : Fin 32) : EReal :=
  blkSum (iblk1 V c 0 t) (out1_6At V c t) (dsoSl V c t) j o

theorem pay2_blk (c : Dev nD) (t : Fin cfg1.N) (j : Fin 4096) (o : Fin 32) :
    k1_pay2 (k1_pay4 (dsoSl V c t)) (preAt V c t) (Scalar.ofBits .f32 0x00000000#32) (iblk1 V c 0 t) (ix2 j o) = blkC V c t j o := by
  refine (pay2_blkSum _ _ _ _ j o).trans ?_
  unfold blkC
  rw [out1_6At_eq]

/-- The first point leaves its block's contribution. -/
theorem o1A7_apply (c : Dev nD) (t : Fin cfg1.N) (h0 : t.val % 8 = 0) (j : Fin 4096) (o : Fin 32) :
    (o1A7 V c t h0 : Vec Ideal S4096x32 .f32) (ix2 j o) = blkC V c t j o := by
  rw [o1A7_eq]
  exact pay2_blk V c t j o

/-- A later point adds its block's contribution to what it found. -/
theorem o1B7_apply (c : Dev nD) (t : Fin cfg1.N) (h0 : ¬ t.val % 8 = 0) (xo7 : Vec Ideal S4096x32 .f32) (j : Fin 4096) (o : Fin 32) :
    (o1B7 V c t h0 xo7 : Vec Ideal S4096x32 .f32) (ix2 j o) = xo7 (ix2 j o) + blkC V c t j o := by
  rw [o1B7_eq]
  refine (pay3_apply _ _ _ _ _ j o).trans ?_
  rw [pay2_blk]

/-- Block `k`'s contribution, for `k` a plain number (zero past the grid). -/
def cbN (c : Dev nD) (j : Fin 4096) (o : Fin 32) (k : ℕ) : EReal :=
  if h : k < cfg1.N then blkC V c ⟨k, h⟩ j o else 0

/-- The accumulator after point `n` holds the contributions of blocks `0` to `n`, summed. -/
theorem acc1_apply (c : Dev nD) (j : Fin 4096) (o : Fin 32) :
    ∀ (n : ℕ) (hn : n < cfg1.N), (acc1 V c n hn : Vec Ideal S4096x32 .f32) (ix2 j o) = ∑ k ∈ Finset.range (n + 1), cbN V c j o k
  | 0, hn => by
    rw [Finset.sum_range_one]
    unfold cbN
    rw [dif_pos hn]
    exact o1A7_apply V c ⟨0, hn⟩ (Nat.zero_mod _) j o
  | n + 1, hn => by
    have hN : cfg1.N = 8 := N_1
    have h0 : ¬ (⟨n + 1, hn⟩ : Fin cfg1.N).val % 8 = 0 := by dsimp only; omega
    rw [Finset.sum_range_succ, ← acc1_apply c j o n (Nat.lt_of_succ_lt hn)]
    refine (congrFun (acc1_B V c ⟨n + 1, hn⟩ h0) (ix2 j o)).trans ?_
    refine (o1B7_apply V c ⟨n + 1, hn⟩ h0 _ j o).trans ?_
    unfold cbN
    rw [dif_pos hn]
    rfl

/-! ## The blocks read off the arrays -/

/-- At every point of the grid: the adjacency window's block index is the point, the degree column's window does not
    move, and the degree slice starts at row 512 times the point. -/
theorem idx1 : ∀ t : Fin cfg1.N, win1_0.index t (0 : Fin 2) = t.val ∧ win1_0.index t (1 : Fin 2) = 0
    ∧ win1_4.index t (0 : Fin 2) = 0 ∧ win1_4.index t (1 : Fin 2) = 0
    ∧ k1_off2 (grid1.coords t) (0 : Fin 2) = 512 * t.val ∧ k1_off2 (grid1.coords t) (1 : Fin 2) = 0 :=
  (by decide +kernel : ∀ t : Fin grid1.N, _)

/-- Row `r` of block `t` is row `512 t + r` of the array. -/
abbrev rowOf (t : Fin cfg1.N) (r : Fin 512) : Fin 4096 :=
  ⟨512 * t.val + r.val, by have := t.isLt; have h8 : cfg1.N = 8 := N_1; have := r.isLt; omega⟩

/-- The adjacency block at `(r, j)` is the adjacency matrix at `(512 t + r, j)`. -/
theorem adj_read (c : Dev nD) (t : Fin cfg1.N) (r : Fin 512) (j : Fin 4096) :
    (iblk1 V c 0 t : Vec Ideal S512x4096 .f32) (ix2 r j) = (V c main_arg2 : Cert.Spec.SNN.Idx → EReal) (ix2 (rowOf t r) j) := by
  obtain ⟨e0, e1, -⟩ := idx1 t
  show V c main_arg2 (((cfg1.win 0).blk t).view.emb (ix2 r j)) = V c main_arg2 (ix2 (rowOf t r) j)
  refine congrArg (V c main_arg2) (funext fun a => Fin.ext ?_)
  match a with
  | ⟨0, _⟩ => show win1_0.index t (0 : Fin 2) * 512 + 1 * r.val = 512 * t.val + r.val; omega
  | ⟨1, _⟩ => show win1_0.index t (1 : Fin 2) * 4096 + 1 * j.val = j.val; omega

/-- The degree slice at row `r` is the degree column at row `512 t + r`. -/
theorem dso_read (c : Dev nD) (t : Fin cfg1.N) (r : Fin 512) :
    (dsoSl V c t : Vec Ideal S512x1 .f32) (ix2 r (0 : Fin 1)) = (V c main_v0_0 : Cert.Spec.SN1.Idx → EReal) (ix2 (rowOf t r) (0 : Fin 1)) := by
  obtain ⟨-, -, e2, e3, e4, e5⟩ := idx1 t
  have hi : (Rect.unit (s := S4096x1) (k1_off2 (grid1.coords t)) S512x1.size (k1_off2_inb (grid1.coords t))).idx (ix2 r (0 : Fin 1))
      = ix2 (rowOf t r) (0 : Fin 1) := by
    refine funext fun a => Fin.ext ?_
    match a with
    | ⟨0, _⟩ => show k1_off2 (grid1.coords t) (0 : Fin 2) + 1 * r.val = 512 * t.val + r.val; omega
    | ⟨1, _⟩ => show k1_off2 (grid1.coords t) (1 : Fin 2) + 1 * 0 = 0; omega
  show (iblk1 V c 4 t : Vec Ideal S4096x1 .f32) ((Rect.unit (s := S4096x1) (k1_off2 (grid1.coords t)) S512x1.size (k1_off2_inb (grid1.coords t))).idx (ix2 r (0 : Fin 1))) = _
  rw [hi]
  show V c main_v0_0 (((cfg1.win 4).blk t).view.emb (ix2 (rowOf t r) (0 : Fin 1))) = V c main_v0_0 (ix2 (rowOf t r) (0 : Fin 1))
  refine congrArg (V c main_v0_0) (funext fun a => Fin.ext ?_)
  match a with
  | ⟨0, _⟩ => show win1_4.index t (0 : Fin 2) * 4096 + 1 * (512 * t.val + r.val) = 512 * t.val + r.val; omega
  | ⟨1, _⟩ => show win1_4.index t (1 : Fin 2) * 1 + 1 * 0 = 0; omega

/-! ## The array at the end -/

/-- THE TRANSPOSED TERM: the region's accumulated output array ends holding, at `(j, o)`, the sum over all 4096 rows `i` of
    `A (i, j) · x' (i, o) / rs i`, where `x'` is what the region's first output buffer held block by block. -/
theorem r1_yp (c : Dev nD) (XN : Fin 4096 → Fin 32 → EReal)
    (hXN : ∀ (t : Fin cfg1.N) (r : Fin 512) (o : Fin 32), out1_6At V c t (ix2 r o) = XN ⟨512 * t.val + r.val, by have := t.isLt; have h8 : cfg1.N = 8 := N_1; omega⟩ o)
    (j : Fin 4096) (o : Fin 32) :
    (dat1 V c).arrAt 7 cfg1.N (ix2 j o)
      = Cert.Spec.ypK (V c main_arg2) XN (fun i => Cert.Spec.root (V c main_v0_0 (ix2 i (0 : Fin 1)))) j o := by
  have h7 : (7 : ℕ) < cfg1.N := by rw [show cfg1.N = 8 from N_1]; decide
  refine (congrFun (final1_7 V c) (ix2 j o)).trans ((acc1_apply V c j o 7 h7).trans ?_)
  show ∑ k ∈ Finset.range 8, cbN V c j o k = ∑ i : Fin 4096, term (V c main_arg2) (V c main_v0_0) XN j o i
  refine Eq.trans ?_ (sum_blocks (term (V c main_arg2) (V c main_v0_0) XN j o))
  rw [Finset.sum_range]
  refine Finset.sum_congr rfl fun t _ => ?_
  have ht : t.val < cfg1.N := by rw [show cfg1.N = 8 from N_1]; exact t.isLt
  unfold cbN
  rw [dif_pos ht]
  exact blkSum_rows _ _ _ (V c main_arg2) (V c main_v0_0) XN (rowOf ⟨t.val, ht⟩)
    (adj_read V c ⟨t.val, ht⟩) (dso_read V c ⟨t.val, ht⟩) (hXN ⟨t.val, ht⟩) j o

end AtIdeal

end Cert.KernelIdeal.Hand.R1Acc

end
-- ==== Proof.Algebra1.lean ====
import proofs.«139708_g36129264894619_cont_8to1_b_1456_17_alg».proof.Proof.Spec
import Mathlib
import Idealize.ShloMosaic.PureOps.Ideal
import Idealize.ShloMosaic.PureOps.Ideal.Laws

/-!
# The algebra of the two forms, part 1: coercions from the reals

Every array entry is the coercion of a real and every root is the coercion of a positive real. Under these hypotheses
each extended-real expression of the specification is the coercion of the same expression over the reals: a quotient by a
nonzero real is the coercion of the real quotient, finite sums and products of coercions are coercions, and so is a
maximum. This file collects those facts and the realness of projections, degrees and roots.
-/

noncomputable section

open scoped BigOperators

namespace Cert.Spec

open Idealize.ShloMosaic Idealize.ShloMosaic.ValueIdx

/-- A finite sum of coercions of reals is the coercion of the real sum. -/
theorem coe_finset_sum_real {ι : Type*} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The quotient of two reals with a nonzero divisor is the coercion of the real quotient. -/
theorem idiv_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- The maximum of two coercions is the coercion of the real maximum. -/
theorem coe_max_real (a b : ℝ) : max (a : EReal) (b : EReal) = ((max a b : ℝ) : EReal) :=
  (EReal.coe_strictMono.monotone.map_max).symm

/-- A finite sum of reals (as extended reals) is a real. -/
theorem exists_real_sum {ι : Type*} (s : Finset ι) (f : ι → EReal) (hf : ∀ j, ∃ r : ℝ, f j = (r : EReal)) :
    ∃ r : ℝ, ∑ j ∈ s, f j = (r : EReal) := by
  choose g hg using hf
  exact ⟨∑ j ∈ s, g j, by rw [coe_finset_sum_real]; exact Finset.sum_congr rfl (fun j _ => hg j)⟩

/-- A product of two reals is a real. -/
theorem exists_real_mul {a b : EReal} (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

/-- A sum of two reals is a real. -/
theorem exists_real_add {a b : EReal} (ha : ∃ r : ℝ, a = (r : EReal)) (hb : ∃ r : ℝ, b = (r : EReal)) :
    ∃ r : ℝ, a + b = (r : EReal) := by
  obtain ⟨r, rfl⟩ := ha
  obtain ⟨t, rfl⟩ := hb
  exact ⟨r + t, (EReal.coe_add r t).symm⟩

/-- Projected features of real inputs are real. -/
theorem proj_real (X : SND.Idx → EReal) (W : SDO.Idx → EReal) (hX : ∀ j, ∃ r : ℝ, X j = (r : EReal))
    (hW : ∀ j, ∃ r : ℝ, W j = (r : EReal)) (i : Fin 4096) (o : Fin 32) : ∃ r : ℝ, proj X W i o = (r : EReal) :=
  exists_real_sum _ _ (fun k => exists_real_mul (hX _) (hW _))

/-- The row degree of real matrices is real. -/
theorem degRow_real (A As : SNN.Idx → EReal) (hA : ∀ j, ∃ r : ℝ, A j = (r : EReal))
    (hAs : ∀ j, ∃ r : ℝ, As j = (r : EReal)) (i : Fin 4096) : ∃ r : ℝ, degRow A As i = (r : EReal) :=
  exists_real_add (exists_real_sum _ _ (fun j => hA _)) (exists_real_sum _ _ (fun j => hAs _))

/-- The column degree of real matrices is real. -/
theorem degCol_real (A At : SNN.Idx → EReal) (hA : ∀ j, ∃ r : ℝ, A j = (r : EReal))
    (hAt : ∀ j, ∃ r : ℝ, At j = (r : EReal)) (j : Fin 4096) : ∃ r : ℝ, degCol A At j = (r : EReal) :=
  exists_real_add (exists_real_sum _ _ (fun i => hA _)) (exists_real_sum _ _ (fun i => hAt _))

/-- The root of a real degree whose successor is positive is a positive real. -/
theorem root_pos_real (d : EReal) (hd : ∃ r : ℝ, d = (r : EReal)) (hpos : 0 < d + 1) :
    ∃ r : ℝ, 0 < r ∧ root d = (r : EReal) := by
  obtain ⟨r, rfl⟩ := hd
  have h1 : ((r : EReal) + 1) = ((r + 1 : ℝ) : EReal) := by
    rw [EReal.coe_add, EReal.coe_one]
  rw [h1] at hpos
  have hr : 0 < r + 1 := by exact_mod_cast hpos
  refine ⟨Real.sqrt (r + 1), Real.sqrt_pos.2 hr, ?_⟩
  rw [root, h1, Ideal.sqrt_coe, if_neg (not_lt.2 hr.le)]

end Cert.Spec

end
-- ==== Proof.Algebra2.lean ====
import proofs.«139708_g36129264894619_cont_8to1_b_1456_17_alg».proof.Proof.Algebra1

/-!
# The algebra of the two forms, part 2: the scaled-feature form equals the normalised-matrix form

With every entry a real and every root a positive real, both forms are coercions of real expressions, and over the reals
dividing the whole bracket once by a root equals dividing each adjacency entry first:
`(a + (∑ⱼ pⱼ·(uⱼ / wⱼ) + ∑ⱼ qⱼ·(vⱼ / zⱼ))) / r = (a / r + ∑ⱼ (pⱼ / r / wⱼ)·uⱼ) + ∑ⱼ (qⱼ / r / zⱼ)·vⱼ`,
term by term, because all the divisors are nonzero.
-/

noncomputable section

open scoped BigOperators

namespace Cert.Spec

open Idealize.ShloMosaic Idealize.ShloMosaic.ValueIdx

/-- Clamping a real at zero, on the extended reals. -/
theorem coe_max_zero_real (a : ℝ) : max (a : EReal) 0 = ((max a 0 : ℝ) : EReal) := by
  rw [← EReal.coe_zero, coe_max_real]

/-- The source-side identity over the reals: the bracket divided once by `r` is the sum of the separately normalised
    terms (the adjacency entries divided by `r` first and by the neighbour's root second). -/
theorem real_bracket_div_left {ι : Type*} (s : Finset ι) (a r : ℝ) (p q u v w z : ι → ℝ) (hr : r ≠ 0)
    (hw : ∀ j, w j ≠ 0) (hz : ∀ j, z j ≠ 0) :
    (a + ((∑ j ∈ s, p j * (u j / w j)) + ∑ j ∈ s, q j * (v j / z j))) / r
      = (a / r + ∑ j ∈ s, p j / r / w j * u j) + ∑ j ∈ s, q j / r / z j * v j := by
  rw [add_div, add_div, Finset.sum_div, Finset.sum_div, add_assoc]
  congr 1
  congr 1
  · refine Finset.sum_congr rfl (fun j _ => ?_)
    have := hw j
    field_simp
  · refine Finset.sum_congr rfl (fun j _ => ?_)
    have := hz j
    field_simp

/-- The target-side identity over the reals: the bracket `(a + S) + T` divided once by `r`, with the adjacency entries
    divided by the neighbour's root first and by `r` second. -/
theorem real_bracket_div_right {ι : Type*} (s : Finset ι) (a r : ℝ) (p q u v w z : ι → ℝ) (hr : r ≠ 0)
    (hw : ∀ j, w j ≠ 0) (hz : ∀ j, z j ≠ 0) :
    ((a + ∑ j ∈ s, p j * (u j / w j)) + ∑ j ∈ s, q j * (v j / z j)) / r
      = (a / r + ∑ j ∈ s, p j / w j / r * u j) + ∑ j ∈ s, q j / z j / r * v j := by
  rw [add_div, add_div, Finset.sum_div, Finset.sum_div]
  congr 1
  congr 1
  · refine Finset.sum_congr rfl (fun j _ => ?_)
    have := hw j
    field_simp
  · refine Finset.sum_congr rfl (fun j _ => ?_)
    have := hz j
    field_simp

section Laws

variable (A As At : SNN.Idx → EReal) (x y xn : Fin 4096 → Fin 32 → EReal) (rs rt : Fin 4096 → EReal)

/-- The scaled-feature source update is the coercion of a real. -/
theorem xnK_real (hA : ∀ j, ∃ r : ℝ, A j = (r : EReal)) (hAs : ∀ j, ∃ r : ℝ, As j = (r : EReal))
    (hx : ∀ i o, ∃ r : ℝ, x i o = (r : EReal)) (hy : ∀ i o, ∃ r : ℝ, y i o = (r : EReal))
    (hrs : ∀ i, ∃ r : ℝ, 0 < r ∧ rs i = (r : EReal)) (hrt : ∀ i, ∃ r : ℝ, 0 < r ∧ rt i = (r : EReal))
    (i : Fin 4096) (o : Fin 32) : ∃ r : ℝ, xnK A As x y rs rt i o = (r : EReal) := by
  choose fA hfA using hA
  choose fAs hfAs using hAs
  choose fx hfx using hx
  choose fy hfy using hy
  choose frs hrs_pos hfrs using hrs
  choose frt hrt_pos hfrt using hrt
  have hrs0 : ∀ j, frs j ≠ 0 := fun j => (hrs_pos j).ne'
  have hrt0 : ∀ j, frt j ≠ 0 := fun j => (hrt_pos j).ne'
  simp only [xnK, hfA, hfAs, hfx, hfy, hfrs, hfrt, idiv_coe _ _ (hrs0 _), idiv_coe _ _ (hrt0 _), ← EReal.coe_mul,
    ← coe_finset_sum_real, ← EReal.coe_add, coe_max_zero_real]
  exact ⟨_, rfl⟩

/-- The source update: dividing the bracket once equals normalising the matrices first. -/
theorem xn_law (hA : ∀ j, ∃ r : ℝ, A j = (r : EReal)) (hAs : ∀ j, ∃ r : ℝ, As j = (r : EReal))
    (hx : ∀ i o, ∃ r : ℝ, x i o = (r : EReal)) (hy : ∀ i o, ∃ r : ℝ, y i o = (r : EReal))
    (hrs : ∀ i, ∃ r : ℝ, 0 < r ∧ rs i = (r : EReal)) (hrt : ∀ i, ∃ r : ℝ, 0 < r ∧ rt i = (r : EReal))
    (i : Fin 4096) (o : Fin 32) : xnK A As x y rs rt i o = xnR A As x y rs rt i o := by
  choose fA hfA using hA
  choose fAs hfAs using hAs
  choose fx hfx using hx
  choose fy hfy using hy
  choose frs hrs_pos hfrs using hrs
  choose frt hrt_pos hfrt using hrt
  have hrs0 : ∀ j, frs j ≠ 0 := fun j => (hrs_pos j).ne'
  have hrt0 : ∀ j, frt j ≠ 0 := fun j => (hrt_pos j).ne'
  simp only [xnK, xnR, hfA, hfAs, hfx, hfy, hfrs, hfrt, idiv_coe _ _ (hrs0 _), idiv_coe _ _ (hrt0 _), ← EReal.coe_mul,
    ← coe_finset_sum_real, ← EReal.coe_add, coe_max_zero_real]
  rw [real_bracket_div_left Finset.univ _ _ _ _ _ _ _ _ (hrs0 i) hrs0 hrt0]

/-- The target update, with the transposed term computed from the scaled new source features: dividing the bracket once
    equals normalising the matrices first. -/
theorem yn_law (hA : ∀ j, ∃ r : ℝ, A j = (r : EReal)) (hAt : ∀ j, ∃ r : ℝ, At j = (r : EReal))
    (hy : ∀ i o, ∃ r : ℝ, y i o = (r : EReal)) (hxn : ∀ i o, ∃ r : ℝ, xn i o = (r : EReal))
    (hrs : ∀ i, ∃ r : ℝ, 0 < r ∧ rs i = (r : EReal)) (hrt : ∀ i, ∃ r : ℝ, 0 < r ∧ rt i = (r : EReal))
    (i : Fin 4096) (o : Fin 32) : ynK At y (ypK A xn rs) rt i o = ynR A At y xn rs rt i o := by
  choose fA hfA using hA
  choose fAt hfAt using hAt
  choose fy hfy using hy
  choose fxn hfxn using hxn
  choose frs hrs_pos hfrs using hrs
  choose frt hrt_pos hfrt using hrt
  have hrs0 : ∀ j, frs j ≠ 0 := fun j => (hrs_pos j).ne'
  have hrt0 : ∀ j, frt j ≠ 0 := fun j => (hrt_pos j).ne'
  simp only [ynK, ypK, ynR, hfA, hfAt, hfy, hfxn, hfrs, hfrt, idiv_coe _ _ (hrs0 _), idiv_coe _ _ (hrt0 _),
    ← EReal.coe_mul, ← coe_finset_sum_real, ← EReal.coe_add, coe_max_zero_real]
  rw [real_bracket_div_right Finset.univ _ _ _ _ _ _ _ _ (hrt0 i) hrt0 hrs0]

end Laws

end Cert.Spec

end
-- ==== Proof.LibFiniteEntries.lean ====
/-
  Real entries from a finiteness test, at the ideal values.

  A precondition "every float input is finite" is printed, per argument, as: the absolute value of the array, compared
  entry by entry below the bit pattern of plus infinity broadcast from a scalar, the bits then reduced by conjunction
  to one bit. At the ideal values an entry is an extended real, its absolute value is max x (-x), and the pattern
  0x7F800000 denotes plus infinity; max x (-x) < plus infinity fails exactly at the two infinities. So where the
  reduced bit is one, every entry of the array is a real number, whatever the array's shape.
-/
import Idealize.ShloMosaic.PureOps.Ideal
import Idealize.ShloMosaic.Lib.ValueIdx
import Idealize.ShloMosaic.Lib.ReduceAll

noncomputable section

namespace Cert.LibFiniteEntries

open Idealize.ShloMosaic Idealize.ShloMosaic.ValueIdx

/-- The rank-0 shape has one index. -/
instance subsingleton_scalar_idx : Subsingleton (⟨0, ![]⟩ : Shape).Idx := ⟨fun a b => funext fun d => d.elim0⟩

/-- The f32 bit pattern 0x7F800000 denotes plus infinity. -/
theorem inf_pattern_f32 : Ideal.ofBits .f32 0x7F800000#32 = ⊤ := by simp [Ideal.ofBits, Ideal.ieee]

/-- An extended real whose absolute value max x (-x) compares below plus infinity is a real number. -/
theorem real_of_abs_lt_inf (x : EReal)
    (h : Ideal.cmp .olt (max x (-x)) (Ideal.ofBits .f32 0x7F800000#32) = 1#1) : ∃ v : ℝ, x = v := by
  rw [inf_pattern_f32] at h
  induction x using EReal.rec with
  | bot => simp [Ideal.cmp] at h
  | top => simp [Ideal.cmp] at h
  | coe r => exact ⟨r, rfl⟩

/-- The printed test of one argument: if the conjunction, over every entry of an f32 array of any shape, of
    "absolute value below the plus-infinity pattern" is one, every entry is a real number. -/
theorem real_entries_of_all_lt_inf {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32))) init h hu ix0 = 1#1)
    (i : s.Idx) : ∃ v : ℝ, a i = v :=
  real_of_abs_lt_inf (a i) (Host.reduce_andi_all _ _ _ _ ix0 e i)

end Cert.LibFiniteEntries

end
-- ==== Proof.PreFacts.lean ====
import proofs.«139708_g36129264894619_cont_8to1_b_1456_17_alg».proof.Pre_finite_inputs
import proofs.«139708_g36129264894619_cont_8to1_b_1456_17_alg».proof.Proof.Gen.Pre_finite_inputs
import proofs.«139708_g36129264894619_cont_8to1_b_1456_17_alg».proof.Proof.Spec
import proofs.«139708_g36129264894619_cont_8to1_b_1456_17_alg».proof.Proof.LibFiniteEntries
import Idealize.ShloMosaic.Lib.ReduceAll
import Idealize.ShloMosaic.Lib.ValueIdx
import Idealize.ShloMosaic.Lib.IdealHost
import Idealize.ShloMosaic.PureOps.Ideal.Laws
import Mathlib

/-!
# What the input precondition says, entry by entry

The precondition of the layer is one bit: the conjunction of eight tests. Six of them say, one per input array, that
the absolute value of every entry lies below plus infinity; at the extended reals that makes every entry a real number.
The seventh says that for every row `i` the row sum of `A` plus the row sum of `As` plus one is positive, the eighth
the same for every column `j` with the column sums of `A` and `At`. A sum taken by the host from the initial value zero
over one axis of a square matrix is the finite sum over that axis's coordinate, so the two last tests are the statements
`0 < degRow A As i + 1` and `0 < degCol A At j + 1` about the degrees of the specification.
-/

noncomputable section

open scoped BigOperators

namespace Cert.PreFacts

open Idealize.ShloMosaic Idealize.ShloMosaic.ValueIdx

/-- The square matrices' shape, the vectors' shape, the scalar shape. -/
abbrev SNN : Shape := ⟨2, ![4096, 4096]⟩
abbrev SN : Shape := ⟨1, ![4096]⟩
abbrev S0 : Shape := ⟨0, ![]⟩

/-- Row `i` with the column coordinate `k` put back is the entry `(i, k)`. -/
theorem lift_row (h : SNN.Reduces [1] SN) (i : Fin 4096) (k : Fin (SNN.size 1)) :
    h.lift (ix1 i) k = ix2 i (⟨k.val, k.isLt⟩ : Fin 4096) := by
  funext c; apply Fin.ext
  fin_cases c <;> rfl

/-- Column `i` with the row coordinate `k` put back is the entry `(k, i)`. -/
theorem lift_col (h : SNN.Reduces [0] SN) (i : Fin 4096) (k : Fin (SNN.size 0)) :
    h.lift (ix1 i) k = ix2 (⟨k.val, k.isLt⟩ : Fin 4096) i := by
  funext c; apply Fin.ext
  fin_cases c <;> rfl

/-- The host's sum over the column axis from the initial value zero, at row `i`, is the row sum `∑ⱼ x i j`. -/
theorem rowSum_apply (x : FVec Ideal SNN .f32) (h' : SNN.ReducesTo [1] SN) (hu : 0 < S0.numel) (i : Fin 4096) :
    Host.reduceAdd x (constant (F := Ideal) S0 .f32 0x00000000#32) h' hu (ix1 i) = ∑ j : Fin 4096, x (ix2 i j) := by
  have h : SNN.Reduces [1] SN := by decide
  rw [hostReduceAdd_apply, Ideal.hostReduceAdd_single h' h, constant_apply, Ideal.ofBits_zero_f32, zero_add]
  exact Finset.sum_congr rfl fun k _ => congrArg x (lift_row h i k)

/-- The host's sum over the row axis from the initial value zero, at column `i`, is the column sum `∑ⱼ x j i`. -/
theorem colSum_apply (x : FVec Ideal SNN .f32) (h' : SNN.ReducesTo [0] SN) (hu : 0 < S0.numel) (i : Fin 4096) :
    Host.reduceAdd x (constant (F := Ideal) S0 .f32 0x00000000#32) h' hu (ix1 i) = ∑ j : Fin 4096, x (ix2 j i) := by
  have h : SNN.Reduces [0] SN := by decide
  rw [hostReduceAdd_apply, Ideal.hostReduceAdd_single h' h, constant_apply, Ideal.ofBits_zero_f32, zero_add]
  exact Finset.sum_congr rfl fun k _ => congrArg x (lift_col h i k)

/-- An ordered "greater than zero" comparison that came out one says the extended real is positive. -/
theorem pos_of_cmp_ogt (x : EReal) (h : Ideal.cmp .ogt x 0 = 1#1) : 0 < x := by
  by_contra hx
  simp [Ideal.cmp, hx] at h

/-- The test "first sum + second sum + 1 > 0" at one index of a vector: where the compared bit is one, the sum of the
    two entries plus one is positive. -/
theorem pos_of_test (p q : FVec Ideal SN .f32) (hb : S0.BroadcastsInDim SN (![] : Fin 0 → Fin SN.rank)) (i : Fin 4096)
    (e : cmpf .ogt (addf (addf p q) (broadcastInDim SN ![] hb (constant (F := Ideal) S0 .f32 0x3F800000#32)))
      (broadcastInDim SN ![] hb (constant (F := Ideal) S0 .f32 0x00000000#32)) (ix1 i) = 1#1) :
    0 < p (ix1 i) + q (ix1 i) + 1 := by
  rw [cmpf_apply, addf_apply, addf_apply, broadcastInDim_scalar_apply, broadcastInDim_scalar_apply, constant_apply,
    constant_apply, Ideal.ofBits_one_f32, Ideal.ofBits_zero_f32] at e
  exact pos_of_cmp_ogt _ e

variable [hF : Cert.Pre_finite_inputs.Facts]

open Cert.Pre_finite_inputs in
/-- The precondition, decoded: every entry of the six inputs is a real number, and every row degree plus one and every
    column degree plus one is positive. -/
theorem facts_of_pre (a0 a1 : FVec Ideal S4096x128 .f32) (a2 a3 a4 : FVec Ideal S4096x4096 .f32) (a5 : FVec Ideal S128x32 .f32)
    (h : Cert.Pre_finite_inputs.fn (F := Ideal) a0 a1 a2 a3 a4 a5 = fun _ => 1#1) :
    (∀ j, ∃ r : ℝ, a0 j = (r : EReal)) ∧ (∀ j, ∃ r : ℝ, a1 j = r) ∧ (∀ j, ∃ r : ℝ, a2 j = r) ∧ (∀ j, ∃ r : ℝ, a3 j = r)
      ∧ (∀ j, ∃ r : ℝ, a4 j = r) ∧ (∀ j, ∃ r : ℝ, a5 j = r)
      ∧ (∀ i : Fin 4096, 0 < Cert.Spec.degRow a2 a3 i + 1) ∧ (∀ j : Fin 4096, 0 < Cert.Spec.degCol a2 a4 j + 1) := by
  have h0 := congrFun h ix0
  dsimp only [fn, fn_part1, fn_part2, andi] at h0
  simp only [IntOp.andi_eq_one] at h0
  obtain ⟨⟨⟨⟨⟨⟨⟨h3, h7⟩, h12⟩, h17⟩, h22⟩, h27⟩, h36⟩, h45⟩ := h0
  refine ⟨?_, ?_, ?_, ?_, ?_, ?_, ?_, ?_⟩
  · exact Cert.LibFiniteEntries.real_entries_of_all_lt_inf a0 _ _ _ _ h3
  · exact Cert.LibFiniteEntries.real_entries_of_all_lt_inf a1 _ _ _ _ h7
  · exact Cert.LibFiniteEntries.real_entries_of_all_lt_inf a2 _ _ _ _ h12
  · exact Cert.LibFiniteEntries.real_entries_of_all_lt_inf a3 _ _ _ _ h17
  · exact Cert.LibFiniteEntries.real_entries_of_all_lt_inf a4 _ _ _ _ h22
  · exact Cert.LibFiniteEntries.real_entries_of_all_lt_inf a5 _ _ _ _ h27
  · intro i
    have e := pos_of_test _ _ _ i (Host.reduce_andi_all _ _ _ _ ix0 h36 (ix1 i))
    rw [rowSum_apply, rowSum_apply] at e
    exact e
  · intro j
    have e := pos_of_test _ _ _ j (Host.reduce_andi_all _ _ _ _ ix0 h45 (ix1 j))
    rw [colSum_apply, colSum_apply] at e
    exact e

end Cert.PreFacts

end
-- ==== Proof.RefIsSpec.lean ====
import proofs.«139708_g36129264894619_cont_8to1_b_1456_17_alg».proof.Proof.Gen.ReferenceIdeal.Run
import proofs.«139708_g36129264894619_cont_8to1_b_1456_17_alg».proof.Proof.Gen.ReferenceIdeal.Read
import proofs.«139708_g36129264894619_cont_8to1_b_1456_17_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# The reference computes the normalised-matrix form of the layer

Read entry by entry at the extended reals, the reference's two results are `Cert.Spec.xnR` and `Cert.Spec.ynR` of its six
arguments: the two degree vectors are sums along a row or a column of two adjacency matrices, a root is the square root of
a degree plus one, each adjacency entry is divided by the root of its row and the root of its column, the products with
the projected features are sums over the shared coordinate, and the closing maximum with zero is the clamp.
-/

noncomputable section

open scoped BigOperators

namespace Cert.RefValue

open Idealize.ShloMosaic Idealize.ShloMosaic.ValueIdx Cert.ReferenceIdeal Cert.ReferenceIdeal.Read Cert.Spec

/-- The bit pattern `0x3F800000` is the real number one. -/
theorem ofBits_one_f32 : Ideal.ofBits .f32 0x3F800000#32 = 1 := by
  simp [Ideal.ofBits, Ideal.ieee]
  first
    | (rw [← EReal.coe_mul]; norm_num)
    | (norm_cast; norm_num)
    | (rw [← EReal.coe_mul, ← EReal.coe_one]; congr 1; norm_num)

/-! ## The two vectors of roots -/

/-- The reference's column of roots at row `i` is the root of the row degree of `i` plus one. -/
theorem rs_apply (a2 a3 : SNN.Idx → EReal) (i : Fin 4096) (z : Fin 1) :
    val_main_v9 (F := Ideal) a2 a3 (ix2 i z) = root (degRow a2 a3 i) := by
  have e2 : ∀ k : Fin 4096, idx_main_v2 (idx_main_v3 (ix2 i z)) k = ix2 i k := fun k => funext fun a => Fin.ext (by match a with | ⟨0, _⟩ => rfl | ⟨1, _⟩ => rfl)
  have e4 : ∀ k : Fin 4096, idx_main_v4 (idx_main_v5 (ix2 i z)) k = ix2 i k := fun k => funext fun a => Fin.ext (by match a with | ⟨0, _⟩ => rfl | ⟨1, _⟩ => rfl)
  rw [val_main_v9_apply, val_main_v8_apply, val_main_v6_apply, val_main_v3_apply, val_main_v5_apply,
    val_main_v2_apply, val_main_v4_apply, val_main_v7_apply, val_main_cst_1_apply, val_main_cst_apply,
    val_main_cst_0_apply]
  simp only [e2, e4, Ideal.hostUnary_sqrt_def, Ideal.addf_def, Ideal.ofBits_def, Ideal.ofBits_zero_f32,
    ofBits_one_f32, zero_add]
  rfl

/-- The reference's row of roots at column `j` is the root of the column degree of `j` plus one. -/
theorem rt_apply (a2 a4 : SNN.Idx → EReal) (z : Fin 1) (j : Fin 4096) :
    val_main_v17 (F := Ideal) a2 a4 (ix2 z j) = root (degCol a2 a4 j) := by
  have e10 : ∀ k : Fin 4096, idx_main_v10 (idx_main_v11 (ix2 z j)) k = ix2 k j := fun k => funext fun a => Fin.ext (by match a with | ⟨0, _⟩ => rfl | ⟨1, _⟩ => rfl)
  have e12 : ∀ k : Fin 4096, idx_main_v12 (idx_main_v13 (ix2 z j)) k = ix2 k j := fun k => funext fun a => Fin.ext (by match a with | ⟨0, _⟩ => rfl | ⟨1, _⟩ => rfl)
  rw [val_main_v17_apply, val_main_v16_apply, val_main_v14_apply, val_main_v11_apply, val_main_v13_apply,
    val_main_v10_apply, val_main_v12_apply, val_main_v15_apply, val_main_cst_4_apply, val_main_cst_2_apply,
    val_main_cst_3_apply]
  simp only [e10, e12, Ideal.hostUnary_sqrt_def, Ideal.addf_def, Ideal.ofBits_def, Ideal.ofBits_zero_f32,
    ofBits_one_f32, zero_add]
  rfl

/-! ## The three normalised matrices, entry by entry -/

/-- `As` divided by the row root of its row, then by the row root of its column. -/
theorem ns_apply (a2 a3 : SNN.Idx → EReal) (i j : Fin 4096) :
    val_main_v22 (F := Ideal) a2 a3 (ix2 i j)
      = Ideal.div (Ideal.div (a3 (ix2 i j)) (root (degRow a2 a3 i))) (root (degRow a2 a3 j)) := by
  have e18 : idx_main_v18 (ix2 i j) = ix2 i (0 : Fin 1) := funext fun a => Fin.ext (by match a with | ⟨0, _⟩ => rfl | ⟨1, _⟩ => rfl)
  have e21 : idx_main_v20 (idx_main_v21 (ix2 i j)) = ix2 j (0 : Fin 1) := funext fun a => Fin.ext (by match a with | ⟨0, _⟩ => rfl | ⟨1, _⟩ => rfl)
  rw [val_main_v22_apply, val_main_v19_apply, val_main_v18_apply, val_main_v21_apply, val_main_v20_apply,
    e18, e21, rs_apply, rs_apply]
  rfl

/-- `A` divided by the row root of its row, then by the column root of its column. -/
theorem na_apply (a2 a3 a4 : SNN.Idx → EReal) (i j : Fin 4096) :
    val_main_v31 (F := Ideal) a2 a3 a4 (ix2 i j)
      = Ideal.div (Ideal.div (a2 (ix2 i j)) (root (degRow a2 a3 i))) (root (degCol a2 a4 j)) := by
  have e28 : idx_main_v28 (ix2 i j) = ix2 i (0 : Fin 1) := funext fun a => Fin.ext (by match a with | ⟨0, _⟩ => rfl | ⟨1, _⟩ => rfl)
  have e30 : idx_main_v30 (ix2 i j) = ix2 (0 : Fin 1) j := funext fun a => Fin.ext (by match a with | ⟨0, _⟩ => rfl | ⟨1, _⟩ => rfl)
  rw [val_main_v31_apply, val_main_v29_apply, val_main_v28_apply, val_main_v30_apply,
    e28, e30, rs_apply, rt_apply]
  rfl

/-- `At` divided by the column root of its column, then by the column root of its row. -/
theorem nt_apply (a2 a4 : SNN.Idx → EReal) (i j : Fin 4096) :
    val_main_v27 (F := Ideal) a2 a4 (ix2 i j)
      = Ideal.div (Ideal.div (a4 (ix2 i j)) (root (degCol a2 a4 j))) (root (degCol a2 a4 i)) := by
  have e23 : idx_main_v23 (ix2 i j) = ix2 (0 : Fin 1) j := funext fun a => Fin.ext (by match a with | ⟨0, _⟩ => rfl | ⟨1, _⟩ => rfl)
  have e26 : idx_main_v25 (idx_main_v26 (ix2 i j)) = ix2 (0 : Fin 1) i := funext fun a => Fin.ext (by match a with | ⟨0, _⟩ => rfl | ⟨1, _⟩ => rfl)
  rw [val_main_v27_apply, val_main_v24_apply, val_main_v23_apply, val_main_v26_apply, val_main_v25_apply,
    e23, e26, rt_apply, rt_apply]
  rfl

/-- The transposed normalised `A`: its `(i, j)` entry is the `(j, i)` entry of the normalised `A`. -/
theorem nat_apply (a2 a3 a4 : SNN.Idx → EReal) (i j : Fin 4096) :
    val_main_v44 (F := Ideal) a2 a3 a4 (ix2 i j)
      = Ideal.div (Ideal.div (a2 (ix2 j i)) (root (degRow a2 a3 j))) (root (degCol a2 a4 i)) := by
  have e44 : idx_main_v44 (ix2 i j) = ix2 j i := funext fun a => Fin.ext (by match a with | ⟨0, _⟩ => rfl | ⟨1, _⟩ => rfl)
  rw [val_main_v44_apply, e44, na_apply]

/-! ## The projected features -/

theorem x_apply (a0 : SND.Idx → EReal) (a5 : SDO.Idx → EReal) (i : Fin 4096) (o : Fin 32) :
    val_main_v0 (F := Ideal) a0 a5 (ix2 i o) = proj a0 a5 i o := by
  have el : ∀ k : Fin 128, lidx_main_v0 (ix2 i o) k = ix2 i k := fun k => funext fun a => Fin.ext (by match a with | ⟨0, _⟩ => rfl | ⟨1, _⟩ => rfl)
  have er : ∀ k : Fin 128, ridx_main_v0 (ix2 i o) k = ix2 k o := fun k => funext fun a => Fin.ext (by match a with | ⟨0, _⟩ => rfl | ⟨1, _⟩ => rfl)
  rw [val_main_v0_apply]
  simp only [el, er]
  rfl

theorem y_apply (a1 : SND.Idx → EReal) (a5 : SDO.Idx → EReal) (i : Fin 4096) (o : Fin 32) :
    val_main_v1 (F := Ideal) a1 a5 (ix2 i o) = proj a1 a5 i o := by
  have el : ∀ k : Fin 128, lidx_main_v1 (ix2 i o) k = ix2 i k := fun k => funext fun a => Fin.ext (by match a with | ⟨0, _⟩ => rfl | ⟨1, _⟩ => rfl)
  have er : ∀ k : Fin 128, ridx_main_v1 (ix2 i o) k = ix2 k o := fun k => funext fun a => Fin.ext (by match a with | ⟨0, _⟩ => rfl | ⟨1, _⟩ => rfl)
  rw [val_main_v1_apply]
  simp only [el, er]
  rfl

/-! ## The two results -/

/-- The reference's first result is the normalised-matrix form of the new source features. -/
theorem ref_xn (a0 a1 : SND.Idx → EReal) (a2 a3 a4 : SNN.Idx → EReal) (a5 : SDO.Idx → EReal)
    (i : Fin 4096) (o : Fin 32) :
    val_main_v38 (F := Ideal) a0 a1 a2 a3 a4 a5 (ix2 i o)
      = xnR a2 a3 (proj a0 a5) (proj a1 a5) (fun i => root (degRow a2 a3 i)) (fun j => root (degCol a2 a4 j)) i o := by
  have el34 : ∀ k : Fin 4096, lidx_main_v34 (ix2 i o) k = ix2 i k := fun k => funext fun a => Fin.ext (by match a with | ⟨0, _⟩ => rfl | ⟨1, _⟩ => rfl)
  have er34 : ∀ k : Fin 4096, ridx_main_v34 (ix2 i o) k = ix2 k o := fun k => funext fun a => Fin.ext (by match a with | ⟨0, _⟩ => rfl | ⟨1, _⟩ => rfl)
  have el36 : ∀ k : Fin 4096, lidx_main_v36 (ix2 i o) k = ix2 i k := fun k => funext fun a => Fin.ext (by match a with | ⟨0, _⟩ => rfl | ⟨1, _⟩ => rfl)
  have er36 : ∀ k : Fin 4096, ridx_main_v36 (ix2 i o) k = ix2 k o := fun k => funext fun a => Fin.ext (by match a with | ⟨0, _⟩ => rfl | ⟨1, _⟩ => rfl)
  have e32 : idx_main_v32 (ix2 i o) = ix2 i (0 : Fin 1) := funext fun a => Fin.ext (by match a with | ⟨0, _⟩ => rfl | ⟨1, _⟩ => rfl)
  rw [val_main_v38_apply, val_main_v37_apply, val_main_v35_apply, val_main_v33_apply, val_main_v34_apply,
    val_main_v36_apply, val_main_v32_apply, val_main_call0_v0_apply, val_main_call0_cst_apply]
  simp only [el34, er34, el36, er36, e32, ns_apply, na_apply, x_apply, y_apply, rs_apply,
    Ideal.hostDivf_def, Ideal.addf_def, Ideal.maximumf_def, Ideal.ofBits_def, Ideal.ofBits_zero_f32]
  rfl

/-- The reference's second result is the normalised-matrix form of the new target features, over the first result. -/
theorem ref_yn (a0 a1 : SND.Idx → EReal) (a2 a3 a4 : SNN.Idx → EReal) (a5 : SDO.Idx → EReal)
    (i : Fin 4096) (o : Fin 32) :
    val_main_v47 (F := Ideal) a0 a1 a2 a3 a4 a5 (ix2 i o)
      = ynR a2 a4 (proj a1 a5)
          (fun i o => xnR a2 a3 (proj a0 a5) (proj a1 a5) (fun i => root (degRow a2 a3 i)) (fun j => root (degCol a2 a4 j)) i o)
          (fun i => root (degRow a2 a3 i)) (fun j => root (degCol a2 a4 j)) i o := by
  have el42 : ∀ k : Fin 4096, lidx_main_v42 (ix2 i o) k = ix2 i k := fun k => funext fun a => Fin.ext (by match a with | ⟨0, _⟩ => rfl | ⟨1, _⟩ => rfl)
  have er42 : ∀ k : Fin 4096, ridx_main_v42 (ix2 i o) k = ix2 k o := fun k => funext fun a => Fin.ext (by match a with | ⟨0, _⟩ => rfl | ⟨1, _⟩ => rfl)
  have el45 : ∀ k : Fin 4096, lidx_main_v45 (ix2 i o) k = ix2 i k := fun k => funext fun a => Fin.ext (by match a with | ⟨0, _⟩ => rfl | ⟨1, _⟩ => rfl)
  have er45 : ∀ k : Fin 4096, ridx_main_v45 (ix2 i o) k = ix2 k o := fun k => funext fun a => Fin.ext (by match a with | ⟨0, _⟩ => rfl | ⟨1, _⟩ => rfl)
  have e40 : idx_main_v39 (idx_main_v40 (ix2 i o)) = ix2 (0 : Fin 1) i := funext fun a => Fin.ext (by match a with | ⟨0, _⟩ => rfl | ⟨1, _⟩ => rfl)
  rw [val_main_v47_apply, val_main_v46_apply, val_main_v43_apply, val_main_v41_apply, val_main_v42_apply,
    val_main_v45_apply, val_main_v40_apply, val_main_v39_apply, val_main_call1_v0_apply, val_main_call1_cst_apply]
  simp only [el42, er42, el45, er45, e40, nt_apply, nat_apply, y_apply, ref_xn, rt_apply,
    Ideal.hostDivf_def, Ideal.addf_def, Ideal.maximumf_def, Ideal.ofBits_def, Ideal.ofBits_zero_f32]
  rfl

end Cert.RefValue

end
-- ==== Proof.Final.lean ====
import proofs.«139708_g36129264894619_cont_8to1_b_1456_17_alg».proof.Defs
import proofs.«139708_g36129264894619_cont_8to1_b_1456_17_alg».proof.Proof.Compose
import proofs.«139708_g36129264894619_cont_8to1_b_1456_17_alg».proof.Proof.R0Value
import proofs.«139708_g36129264894619_cont_8to1_b_1456_17_alg».proof.Proof.R1Acc
import proofs.«139708_g36129264894619_cont_8to1_b_1456_17_alg».proof.Proof.Algebra2
import proofs.«139708_g36129264894619_cont_8to1_b_1456_17_alg».proof.Proof.PreFacts
import proofs.«139708_g36129264894619_cont_8to1_b_1456_17_alg».proof.Proof.RefIsSpec
import proofs.«139708_g36129264894619_cont_8to1_b_1456_17_alg».proof.Proof.Gen.ReferenceIdeal.Run
import proofs.«139708_g36129264894619_cont_8to1_b_1456_17_alg».proof.Proof.Gen.Pre_finite_inputs

set_option maxRecDepth 16384

noncomputable section

namespace Cert.Proof.Alg

open Idealize.ShloMosaic Idealize.ShloMosaic.TcCoe Idealize.SL.Sem Idealize.ShloMosaic.ValueIdx
open Cert.Spec

/-! # The two idealized programs end with equal results

Both results are functions of the six argument arrays. The kernel's are the scaled-feature forms (the feature matrices
divided by the roots, the bracket divided once at the end); the reference's are the normalised-matrix forms (every
adjacency entry divided by both roots first). Under the precondition every entry is a real number and every degree plus
one is positive, so every root is a positive real and the two forms agree: division distributes over the finite sums. -/

variable (m : (ℓ : Loc Cert.KernelIdeal.nD Cert.KernelIdeal.τ Cert.KernelIdeal.sig) → Buf (Elt Ideal) ℓ)

/-- The kernel's new source features are the reference's. -/
theorem xk_eq (hpre : Cert.Pre_KernelIdeal m) (c : Dev Cert.KernelIdeal.nD) (i : Fin 4096) (o : Fin 32) :
    Cert.KernelIdeal.Hand.Comp.XK m c i o
      = xnR (Cert.KernelIdeal.Hand.Comp.a2 m c) (Cert.KernelIdeal.Hand.Comp.a3 m c) (proj (Cert.KernelIdeal.Hand.Comp.a0 m c) (Cert.KernelIdeal.Hand.Comp.a5 m c)) (proj (Cert.KernelIdeal.Hand.Comp.a1 m c) (Cert.KernelIdeal.Hand.Comp.a5 m c))
          (fun i => root (degRow (Cert.KernelIdeal.Hand.Comp.a2 m c) (Cert.KernelIdeal.Hand.Comp.a3 m c) i)) (fun j => root (degCol (Cert.KernelIdeal.Hand.Comp.a2 m c) (Cert.KernelIdeal.Hand.Comp.a4 m c) j)) i o := by
  obtain ⟨h0, h1, h2, h3, h4, h5, hrow, hcol⟩ := Cert.PreFacts.facts_of_pre (Cert.KernelIdeal.Hand.Comp.a0 m c) (Cert.KernelIdeal.Hand.Comp.a1 m c) (Cert.KernelIdeal.Hand.Comp.a2 m c) (Cert.KernelIdeal.Hand.Comp.a3 m c) (Cert.KernelIdeal.Hand.Comp.a4 m c) (Cert.KernelIdeal.Hand.Comp.a5 m c) (hpre c)
  exact xn_law _ _ _ _ _ _ h2 h3 (proj_real _ _ h0 h5) (proj_real _ _ h1 h5)
    (fun i => root_pos_real _ (degRow_real _ _ h2 h3 i) (hrow i)) (fun j => root_pos_real _ (degCol_real _ _ h2 h4 j) (hcol j)) i o

/-- The kernel's new target features are the reference's. -/
theorem yk_eq (hpre : Cert.Pre_KernelIdeal m) (c : Dev Cert.KernelIdeal.nD) (i : Fin 4096) (o : Fin 32) :
    ynK (Cert.KernelIdeal.Hand.Comp.a4 m c) (proj (Cert.KernelIdeal.Hand.Comp.a1 m c) (Cert.KernelIdeal.Hand.Comp.a5 m c))
        (ypK (Cert.KernelIdeal.Hand.Comp.a2 m c) (Cert.KernelIdeal.Hand.Comp.XK m c) (fun i => root (degRow (Cert.KernelIdeal.Hand.Comp.a2 m c) (Cert.KernelIdeal.Hand.Comp.a3 m c) i)))
        (fun j => root (degCol (Cert.KernelIdeal.Hand.Comp.a2 m c) (Cert.KernelIdeal.Hand.Comp.a4 m c) j)) i o
      = ynR (Cert.KernelIdeal.Hand.Comp.a2 m c) (Cert.KernelIdeal.Hand.Comp.a4 m c) (proj (Cert.KernelIdeal.Hand.Comp.a1 m c) (Cert.KernelIdeal.Hand.Comp.a5 m c))
          (fun i o => xnR (Cert.KernelIdeal.Hand.Comp.a2 m c) (Cert.KernelIdeal.Hand.Comp.a3 m c) (proj (Cert.KernelIdeal.Hand.Comp.a0 m c) (Cert.KernelIdeal.Hand.Comp.a5 m c)) (proj (Cert.KernelIdeal.Hand.Comp.a1 m c) (Cert.KernelIdeal.Hand.Comp.a5 m c))
            (fun i => root (degRow (Cert.KernelIdeal.Hand.Comp.a2 m c) (Cert.KernelIdeal.Hand.Comp.a3 m c) i)) (fun j => root (degCol (Cert.KernelIdeal.Hand.Comp.a2 m c) (Cert.KernelIdeal.Hand.Comp.a4 m c) j)) i o)
          (fun i => root (degRow (Cert.KernelIdeal.Hand.Comp.a2 m c) (Cert.KernelIdeal.Hand.Comp.a3 m c) i)) (fun j => root (degCol (Cert.KernelIdeal.Hand.Comp.a2 m c) (Cert.KernelIdeal.Hand.Comp.a4 m c) j)) i o := by
  obtain ⟨h0, h1, h2, h3, h4, h5, hrow, hcol⟩ := Cert.PreFacts.facts_of_pre (Cert.KernelIdeal.Hand.Comp.a0 m c) (Cert.KernelIdeal.Hand.Comp.a1 m c) (Cert.KernelIdeal.Hand.Comp.a2 m c) (Cert.KernelIdeal.Hand.Comp.a3 m c) (Cert.KernelIdeal.Hand.Comp.a4 m c) (Cert.KernelIdeal.Hand.Comp.a5 m c) (hpre c)
  have hrs := fun i => root_pos_real _ (degRow_real _ _ h2 h3 i) (hrow i)
  have hrt := fun j => root_pos_real _ (degCol_real _ _ h2 h4 j) (hcol j)
  have hxk : ∀ i o, ∃ r : ℝ, Cert.KernelIdeal.Hand.Comp.XK m c i o = (r : EReal) :=
    xnK_real _ _ _ _ _ _ h2 h3 (proj_real _ _ h0 h5) (proj_real _ _ h1 h5) hrs hrt
  rw [yn_law _ _ _ _ _ _ h2 h4 (proj_real _ _ h1 h5) hxk hrs hrt i o]
  have e : Cert.KernelIdeal.Hand.Comp.XK m c = fun i o => xnR (Cert.KernelIdeal.Hand.Comp.a2 m c) (Cert.KernelIdeal.Hand.Comp.a3 m c) (proj (Cert.KernelIdeal.Hand.Comp.a0 m c) (Cert.KernelIdeal.Hand.Comp.a5 m c)) (proj (Cert.KernelIdeal.Hand.Comp.a1 m c) (Cert.KernelIdeal.Hand.Comp.a5 m c))
      (fun i => root (degRow (Cert.KernelIdeal.Hand.Comp.a2 m c) (Cert.KernelIdeal.Hand.Comp.a3 m c) i)) (fun j => root (degCol (Cert.KernelIdeal.Hand.Comp.a2 m c) (Cert.KernelIdeal.Hand.Comp.a4 m c) j)) i o :=
    funext fun i => funext fun o => xk_eq m hpre c i o
  rw [e]

set_option maxHeartbeats 1600000 in
theorem algebraic : Cert.algebraic_KernelIdeal_ReferenceIdeal := by
  intro m ρ m' ρ' hpre hagree
  refine ⟨fun c => Cert.KernelIdeal.Hand.W4 m ρ c (Proc.devRef .tc Cert.KernelIdeal.main_v2_0), fun c => Cert.KernelIdeal.Hand.W4 m ρ c (Proc.devRef .tc Cert.KernelIdeal.main_v3), ?_, ?_⟩
  · exact (θ_run Cert.KernelIdeal.defs _ _).mono (fun r h c =>
      ⟨h c _ (Cert.KernelIdeal.Hand.mem_uc Cert.KernelIdeal.main_v2_0 (by decide)), h c _ (Cert.KernelIdeal.Hand.mem_uc Cert.KernelIdeal.main_v3 (by decide)),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c)⟩)
      (Cert.KernelIdeal.Hand.run_all m ρ)
  · refine (θ_run Cert.ReferenceIdeal.defs _ _).mono (fun r h c => ⟨(h c).1.trans ?_, (h c).2.1.trans ?_, (h c).2.2⟩) (Cert.ReferenceIdeal.Value.run (F := Ideal) m' ρ')
    · obtain ⟨e0, e1, e2, e3, e4, e5⟩ := hagree c
      rw [e0, e1, e2, e3, e4, e5]
      funext idx
      obtain ⟨i, o, rfl⟩ : ∃ (i : Fin 4096) (o : Fin 32), idx = ix2 i o := ⟨idx 0, idx 1, eq_ix2 idx⟩
      refine (Cert.RefValue.ref_xn _ _ _ _ _ _ i o).trans ?_
      refine ((xk_eq m hpre c i o).symm).trans ?_
      exact (Cert.KernelIdeal.Hand.Comp.W4_xn m ρ Cert.KernelIdeal.Hand.R0V.r0_degRow Cert.KernelIdeal.Hand.R0V.r0_degCol Cert.KernelIdeal.Hand.R0V.r0_x Cert.KernelIdeal.Hand.R0V.r0_y c i o).symm
    · rw [Cert.ReferenceIdeal.Read.val_main_v47_eq]
      obtain ⟨e0, e1, e2, e3, e4, e5⟩ := hagree c
      rw [e0, e1, e2, e3, e4, e5]
      funext idx
      obtain ⟨i, o, rfl⟩ : ∃ (i : Fin 4096) (o : Fin 32), idx = ix2 i o := ⟨idx 0, idx 1, eq_ix2 idx⟩
      refine (Cert.RefValue.ref_yn _ _ _ _ _ _ i o).trans ?_
      refine ((yk_eq m hpre c i o).symm).trans ?_
      exact (Cert.KernelIdeal.Hand.Comp.W4_yn m ρ Cert.KernelIdeal.Hand.R0V.r0_degRow Cert.KernelIdeal.Hand.R0V.r0_degCol Cert.KernelIdeal.Hand.R0V.r0_x Cert.KernelIdeal.Hand.R0V.r0_y Cert.KernelIdeal.Hand.R1Acc.r1_yp c i o).symm

end Cert.Proof.Alg

end
-- ==== Proof.lean ====
/- The proof of `Cert.Claim`: the three programs run to the end, fault nowhere and leave their argument arrays
   unchanged; the idealization rewrote nothing; and the idealized kernel and the idealized reference end with equal
   results over the extended reals.

   The layer is a two-sided dense graph convolution: with the projected features `x`, `y`, the row and column degrees and
   their roots `rs`, `rt`, the new source features are `relu ((x + As·(x / rs) + A·(y / rt)) / rs)` and the new target
   features `relu ((y + At·(y / rt) + Aᵀ·(x' / rs)) / rt)`. The kernel computes them in three pipelined regions over a grid
   of eight row blocks with one reshape between the first two, dividing the narrow feature matrices by the roots; the
   reference divides every adjacency entry by both roots first. Under the precondition (finite entries, every degree plus
   one positive) all roots are positive reals and the two arrangements agree.

   For each region the body is run once per control case (the two accumulating regions have a first-point case that
   overwrites the accumulator and a later-point case that adds to it), the buffers' contents after every grid point are
   named, and the pipeline's body obligation follows; the regions and the reshape are chained from the launch memory to
   the final memory, every unscoped buffer held at a named valuation between items. Reading the argument buffers off the
   last valuation gives the kernel's two frames (the word-level program and its idealization are the same text at two float
   instances); reading the two result buffers, through each region's output arrays entry by entry, gives the kernel's
   values. The reference's frame is its run with the results dropped. -/
import proofs.«139708_g36129264894619_cont_8to1_b_1456_17_alg».proof.Defs
import proofs.«139708_g36129264894619_cont_8to1_b_1456_17_alg».proof.Proof.Gen.Kernel
import proofs.«139708_g36129264894619_cont_8to1_b_1456_17_alg».proof.Proof.Gen.KernelIdeal
import proofs.«139708_g36129264894619_cont_8to1_b_1456_17_alg».proof.Proof.Gen.ReferenceIdeal
import proofs.«139708_g36129264894619_cont_8to1_b_1456_17_alg».proof.Proof.Gen.Pre_finite_inputs
import proofs.«139708_g36129264894619_cont_8to1_b_1456_17_alg».proof.Proof.Gen.ReferenceIdeal.Run
import proofs.«139708_g36129264894619_cont_8to1_b_1456_17_alg».proof.Proof.Frames
import proofs.«139708_g36129264894619_cont_8to1_b_1456_17_alg».proof.Proof.KFrames
import proofs.«139708_g36129264894619_cont_8to1_b_1456_17_alg».proof.Proof.Final
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2.2) (Cert.ReferenceIdeal.Value.run (F := Ideal) m ρ),
  trivial,
  Cert.Proof.Alg.algebraic⟩

end Cert.Proof

end
